-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v79_0)) (v1 : (c : Dev Cert.KernelIdeal.nD) → Buf (Elt Ideal) ((c.tc : Thread Cert.KernelIdeal.nD Cert.KernelIdeal.τ).loc Cert.KernelIdeal.main_v79_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79_0) = v0 c
          ∧ r.2.mem ((c.tc : Thread Cert.KernelIdeal.nD Cert.KernelIdeal.τ).loc Cert.KernelIdeal.main_v79_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x6400000 : Shape := ⟨2, ![2, 6400000]⟩
abbrev S7x32 : Shape := ⟨2, ![7, 32]⟩
abbrev S32 : Shape := ⟨1, ![32]⟩
abbrev S3x32x32 : Shape := ⟨3, ![3, 32, 32]⟩
abbrev S3x32 : Shape := ⟨2, ![3, 32]⟩
abbrev S3x96x32 : Shape := ⟨3, ![3, 96, 32]⟩
abbrev S3x96 : Shape := ⟨2, ![3, 96]⟩
abbrev S32x16 : Shape := ⟨2, ![32, 16]⟩
abbrev S16 : Shape := ⟨1, ![16]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S7x32 : S_.BroadcastsInDim S7x32 (![] : Fin 0 → Fin S7x32.rank)
  reducesTo_S7x32_S_d0_1 : S7x32.ReducesTo [0, 1] S_
  bcast_S_S32 : S_.BroadcastsInDim S32 (![] : Fin 0 → Fin S32.rank)
  reducesTo_S32_S_d0 : S32.ReducesTo [0] S_
  bcast_S_S3x32x32 : S_.BroadcastsInDim S3x32x32 (![] : Fin 0 → Fin S3x32x32.rank)
  reducesTo_S3x32x32_S_d0_1_2 : S3x32x32.ReducesTo [0, 1, 2] S_
  bcast_S_S3x32 : S_.BroadcastsInDim S3x32 (![] : Fin 0 → Fin S3x32.rank)
  reducesTo_S3x32_S_d0_1 : S3x32.ReducesTo [0, 1] S_
  bcast_S_S3x96x32 : S_.BroadcastsInDim S3x96x32 (![] : Fin 0 → Fin S3x96x32.rank)
  reducesTo_S3x96x32_S_d0_1_2 : S3x96x32.ReducesTo [0, 1, 2] S_
  bcast_S_S3x96 : S_.BroadcastsInDim S3x96 (![] : Fin 0 → Fin S3x96.rank)
  reducesTo_S3x96_S_d0_1 : S3x96.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg12 : FVec F S32x16 .f32) (main_arg13 : FVec F S16 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S32x16 .f32 := Host.absf main_arg12
  let main_cst_20 : FVec F S_ .f32 := constant S_ .f32 0x7F800000#32
  let main_v55 : FVec F S32x16 .f32 := broadcastInDim S32x16 ![] bcast_S_S32x16 main_cst_20
  let main_v56 : IVec S32x16 1 := cmpf .olt main_v54 main_v55
  let main_c_21 : IVec S_ 1 := constantI S_ 1 1#1
  let main_v57 : IVec S_ 1 := (fun x v => Host.reduce IntOp.andi x v reducesTo_S32x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  main_v63

def fn_part2 {F : FTy → Type} [FloatOps F] (main_arg8 : FVec F S3x96 .f32) (main_arg9 : FVec F S3x96 .f32) (main_arg10 : FVec F S32x16 .f32) (main_arg11 : FVec F S16 .f32) (main_arg12 : FVec F S32x16 .f32) (main_arg13 : FVec F S16 .f32) (main_v33 : IVec S_ 1) : IVec S_ 1 :=
  let main_v34 : FVec F S3x96 .f32 := Host.absf main_arg8
  let main_cst_12 : FVec F S_ .f32 := constant S_ .f32 0x7F800000#32
  let main_v35 : FVec F S3x96 .f32 := broadcastInDim S3x96 ![] bcast_S_S3x96 main_cst_12
  let main_v36 : IVec S3x96 1 := cmpf .olt main_v34 main_v35
  let main_c_13 : IVec S_ 1 := constantI S_ 1 1#1
  let main_v37 : IVec S_ 1 := (fun x v => Host.reduce IntOp.andi x v reducesTo_S3x96_S_d0_1 h_S_) main_v36 main_c_13
  let main_v38 : IVec S_ 1 := andi main_v33 main_v37
  let main_v39 : FVec F S3x96 .f32 := Host.absf main_arg9
  let main_cst_14 : FVec F S_ .f32 := constant S_ .f32 0x7F800000#32
  let main_v40 : FVec F S3x96 .f32 := broadcastInDim S3x96 ![] bcast_S_S3x96 main_cst_14
  let main_v41 : IVec S3x96 1 := cmpf .olt main_v39 main_v40
  let main_c_15 : IVec S_ 1 := constantI S_ 1 1#1
  let main_v42 : IVec S_ 1 := (fun x v => Host.reduce IntOp.andi x v reducesTo_S3x96_S_d0_1 h_S_) main_v41 main_c_15
  let main_v43 : IVec S_ 1 := andi main_v38 main_v42
  let main_v44 : FVec F S32x16 .f32 := Host.absf main_arg10
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_v48 main_v49 main_v50

def fn_part1 {F : FTy → Type} [FloatOps F] (main_arg5 : FVec F S3x32 .f32) (main_arg6 : FVec F S3x96x32 .f32) (main_arg7 : FVec F S3x96x32 .f32) (main_arg8 : FVec F S3x96 .f32) (main_arg9 : FVec F S3x96 .f32) (main_arg10 : FVec F S32x16 .f32) (main_arg11 : FVec F S16 .f32) (main_arg12 : FVec F S32x16 .f32) (main_arg13 : FVec F S16 .f32) (main_v13 : IVec S_ 1) (main_v16 : IVec S3x32x32 1) : IVec S_ 1 :=
  let main_c_5 : IVec S_ 1 := constantI S_ 1 1#1
  let main_v17 : IVec S_ 1 := (fun x v => Host.reduce IntOp.andi x v reducesTo_S3x32x32_S_d0_1_2 h_S_) main_v16 main_c_5
  let main_v18 : IVec S_ 1 := andi main_v13 main_v17
  let main_v19 : FVec F S3x32 .f32 := Host.absf main_arg5
  let main_cst_6 : FVec F S_ .f32 := constant S_ .f32 0x7F800000#32
  let main_v20 : FVec F S3x32 .f32 := broadcastInDim S3x32 ![] bcast_S_S3x32 main_cst_6
  let main_v21 : IVec S3x32 1 := cmpf .olt main_v19 main_v20
  let main_c_7 : IVec S_ 1 := constantI S_ 1 1#1
  let main_v22 : IVec S_ 1 := (fun x v => Host.reduce IntOp.andi x v reducesTo_S3x32_S_d0_1 h_S_) main_v21 main_c_7
  let main_v23 : IVec S_ 1 := andi main_v18 main_v22
  let main_v24 : FVec F S3x96x32 .f32 := Host.absf main_arg6
  let main_cst_8 : FVec F S_ .f32 := constant S_ .f32 0x7F800000#32
  let main_v25 : FVec F S3x96x32 .f32 := broadcastInDim S3x96x32 ![] bcast_S_S3x96x32 main_cst_8
  let main_v26 : IVec S3x96x32 1 := cmpf .olt main_v24 main_v25
  let main_c_9 : IVec S_ 1 := constantI S_ 1 1#1
  let main_v27 : IVec S_ 1 := (fun x v => Host.reduce IntOp.andi x v reducesTo_S3x96x32_S_d0_1_2 h_S_) main_v26 main_c_9
  let main_v28 : IVec S_ 1 := andi main_v23 main_v27
  let main_v29 : FVec F S3x96x32 .f32 := Host.absf main_arg7
  let main_cst_10 : FVec F S_ .f32 := constant S_ .f32 0x7F800000#32
  let main_v30 : FVec F S3x96x32 .f32 := broadcastInDim S3x96x32 ![] bcast_S_S3x96x32 main_cst_10
  let main_v31 : IVec S3x96x32 1 := cmpf .olt main_v29 main_v30
  let main_c_11 : IVec S_ 1 := constantI S_ 1 1#1
  let main_v32 : IVec S_ 1 := (fun x v => Host.reduce IntOp.andi x v reducesTo_S3x96x32_S_d0_1_2 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x7 .f32) (main_arg1 : IVec S2x6400000 32) (main_arg2 : FVec F S7x32 .f32) (main_arg3 : FVec F S32 .f32) (main_arg4 : FVec F S3x32x32 .f32) (main_arg5 : FVec F S3x32 .f32) (main_arg6 : FVec F S3x96x32 .f32) (main_arg7 : FVec F S3x96x32 .f32) (main_arg8 : FVec F S3x96 .f32) (main_arg9 : FVec F S3x96 .f32) (main_arg10 : FVec F S32x16 .f32) (main_arg11 : FVec F S16 .f32) (main_arg12 : FVec F S32x16 .f32) (main_arg13 : FVec F S16 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S7x32 .f32 := Host.absf main_arg2
  let main_cst_0 : FVec F S_ .f32 := constant S_ .f32 0x7F800000#32
  let main_v5 : FVec F S7x32 .f32 := broadcastInDim S7x32 ![] bcast_S_S7x32 main_cst_0
  let main_v6 : IVec S7x32 1 := cmpf .olt main_v4 main_v5
  let main_c_1 : IVec S_ 1 := constantI S_ 1 1#1
  let main_v7 : IVec S_ 1 := (fun x v => Host.reduce IntOp.andi x v reducesTo_S7x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S3x32x32 .f32 := Host.absf main_arg4
  let main_cst_4 : FVec F S_ .f32 := constant S_ .f32 0x7F800000#32
  let main_v15 : FVec F S3x32x32 .f32 := broadcastInDim S3x32x32 ![] bcast_S_S3x32x32 main_cst_4
  let main_v16 : IVec S3x32x32 1 := cmpf .olt main_v14 main_v15
  fn_part1 (F := F) main_arg5 main_arg6 main_arg7 main_arg8 main_arg9 main_arg10 main_arg11 main_arg12 main_arg13 main_v13 main_v16
-- ==== Kernel.lean ====
abbrev S100000x7 : Shape := ⟨2, ![100000, 7]⟩
abbrev S2x6400000 : Shape := ⟨2, ![2, 6400000]⟩
abbrev S7x32 : Shape := ⟨2, ![7, 32]⟩
abbrev S32 : Shape := ⟨1, ![32]⟩
abbrev S3x32x32 : Shape := ⟨3, ![3, 32, 32]⟩
abbrev S3x32 : Shape := ⟨2, ![3, 32]⟩
abbrev S3x96x32 : Shape := ⟨3, ![3, 96, 32]⟩
abbrev S3x96 : Shape := ⟨2, ![3, 96]⟩
abbrev S32x16 : Shape := ⟨2, ![32, 16]⟩
abbrev S16 : Shape := ⟨1, ![16]⟩
abbrev S1x6400000 : Shape := ⟨2, ![1, 6400000]⟩
abbrev S6400000 : Shape := ⟨1, ![6400000]⟩
abbrev S100000x32 : Shape := ⟨2, ![100000, 32]⟩
abbrev S2000x7 : Shape := ⟨2, ![2000, 7]⟩
abbrev S2000x32 : Shape := ⟨2, ![2000, 32]⟩
abbrev S1x32 : Shape := ⟨2, ![1, 32]⟩
abbrev S3x32x96 : Shape := ⟨3, ![3, 32, 96]⟩
abbrev S1x32x32 : Shape := ⟨3, ![1, 32, 32]⟩
abbrev S32x32 : Shape := ⟨2, ![32, 32]⟩
abbrev S_ : Shape := ⟨0, ![]⟩
abbrev S6400000x1 : Shape := ⟨2, ![6400000, 1]⟩
abbrev S6400000x32 : Shape := ⟨2, ![6400000, 32]⟩
abbrev S1x32x96 : Shape := ⟨3, ![1, 32, 96]⟩
abbrev S32x96 : Shape := ⟨2, ![32, 96]⟩
abbrev S1x96 : Shape := ⟨2, ![1, 96]⟩
abbrev S96 : Shape := ⟨1, ![96]⟩
abbrev S2000x96 : Shape := ⟨2, ![2000, 96]⟩
abbrev S100000x16 : Shape := ⟨2, ![100000, 16]⟩
abbrev S2000x16 : Shape := ⟨2, ![2000, 16]⟩
abbrev S1x16 : Shape := ⟨2, ![1, 16]⟩

abbrev nBuf : Space → Nat
  | .hbm => 104
  | .vmem => 64
  | .smem => 0
  | _ => 0

abbrev bufTy : (tb : Table) → Fin (tcTables nBuf tb) → BufTy
  | .hbm, ⟨0, _⟩ => ⟨S100000x7, .f32⟩
  | .hbm, ⟨1, _⟩ => ⟨S2x6400000, .i32⟩
  | .hbm, ⟨2, _⟩ => ⟨S7x32, .f32⟩
  | .hbm, ⟨3, _⟩ => ⟨S32, .f32⟩
  | .hbm, ⟨4, _⟩ => ⟨S3x32x32, .f32⟩
  | .hbm, ⟨5, _⟩ => ⟨S3x32, .f32⟩
  | .hbm, ⟨6, _⟩ => ⟨S3x96x32, .f32⟩
  | .hbm, ⟨7, _⟩ => ⟨S3x96x32, .f32⟩
  | .hbm, ⟨8, _⟩ => ⟨S3x96, .f32⟩
  | .hbm, ⟨9, _⟩ => ⟨S3x96, .f32⟩
  | .hbm, ⟨10, _⟩ => ⟨S32x16, .f32⟩
  | .hbm, ⟨11, _⟩ => ⟨S16, .f32⟩
  | .hbm, ⟨12, _⟩ => ⟨S32x16, .f32⟩
  | .hbm, ⟨13, _⟩ => ⟨S16, .f32⟩
  | .hbm, ⟨14, _⟩ => ⟨S1x6400000, .i32⟩
  | .hbm, ⟨15, _⟩ => ⟨S6400000, .i32⟩
  | .hbm, ⟨16, _⟩ => ⟨S1x6400000, .i32⟩
  | .hbm, ⟨17, _⟩ => ⟨S6400000, .i32⟩
  | .hbm, ⟨18, _⟩ => ⟨S100000x32, .f32⟩
  | .hbm, ⟨19, _⟩ => ⟨S3x32x96, .f32⟩
  | .hbm, ⟨20, _⟩ => ⟨S3x32x96, .f32⟩
  | .hbm, ⟨21, _⟩ => ⟨S1x32x32, .f32⟩
  | .hbm, ⟨22, _⟩ => ⟨S32x32, .f32⟩
  | .hbm, ⟨23, _⟩ => ⟨S1x32, .f32⟩
  | .hbm, ⟨24, _⟩ => ⟨S32, .f32⟩
  | .hbm, ⟨25, _⟩ => ⟨S100000x32, .f32⟩
  | .hbm, ⟨26, _⟩ => ⟨S_, .i32⟩
  | .hbm, ⟨27, _⟩ => ⟨S6400000, .i32⟩
  | .hbm, ⟨28, _⟩ => ⟨S6400000, .i1⟩
  | .hbm, ⟨29, _⟩ => ⟨S_, .i32⟩
  | .hbm, ⟨30, _⟩ => ⟨S6400000, .i32⟩
  | .hbm, ⟨31, _⟩ => ⟨S6400000, .i32⟩
  | .hbm, ⟨32, _⟩ => ⟨S6400000, .i32⟩
  | .hbm, ⟨33, _⟩ => ⟨S6400000x1, .i32⟩
  | .hbm, ⟨34, _⟩ => ⟨S6400000x32, .f32⟩
  | .hbm, ⟨35, _⟩ => ⟨S_, .f32⟩
  | .hbm, ⟨36, _⟩ => ⟨S100000x32, .f32⟩
  | .hbm, ⟨37, _⟩ => ⟨S6400000x1, .i32⟩
  | .hbm, ⟨38, _⟩ => ⟨S100000x32, .f32⟩
  | .hbm, ⟨39, _⟩ => ⟨S1x32x96, .f32⟩
  | .hbm, ⟨40, _⟩ => ⟨S32x96, .f32⟩
  | .hbm, ⟨41, _⟩ => ⟨S1x32x96, .f32⟩
  | .hbm, ⟨42, _⟩ => ⟨S32x96, .f32⟩
  | .hbm, ⟨43, _⟩ => ⟨S1x96, .f32⟩
  | .hbm, ⟨44, _⟩ => ⟨S96, .f32⟩
  | .hbm, ⟨45, _⟩ => ⟨S1x96, .f32⟩
  | .hbm, ⟨46, _⟩ => ⟨S96, .f32⟩
  | .hbm, ⟨47, _⟩ => ⟨S100000x32, .f32⟩
  | .hbm, ⟨48, _⟩ => ⟨S1x32x32, .f32⟩
  | .hbm, ⟨49, _⟩ => ⟨S32x32, .f32⟩
  | .hbm, ⟨50, _⟩ => ⟨S1x32, .f32⟩
  | .hbm, ⟨51, _⟩ => ⟨S32, .f32⟩
  | .hbm, ⟨52, _⟩ => ⟨S100000x32, .f32⟩
  | .hbm, ⟨53, _⟩ => ⟨S_, .i32⟩
  | .hbm, ⟨54, _⟩ => ⟨S6400000, .i32⟩
  | .hbm, ⟨55, _⟩ => ⟨S6400000, .i1⟩
  | .hbm, ⟨56, _⟩ => ⟨S_, .i32⟩
  | .hbm, ⟨57, _⟩ => ⟨S6400000, .i32⟩
  | .hbm, ⟨58, _⟩ => ⟨S6400000, .i32⟩
  | .hbm, ⟨59, _⟩ => ⟨S6400000, .i32⟩
  | .hbm, ⟨60, _⟩ => ⟨S6400000x1, .i32⟩
  | .hbm, ⟨61, _⟩ => ⟨S6400000x32, .f32⟩
  | .hbm, ⟨62, _⟩ => ⟨S_, .f32⟩
  | .hbm, ⟨63, _⟩ => ⟨S100000x32, .f32⟩
  | .hbm, ⟨64, _⟩ => ⟨S6400000x1, .i32⟩
  | .hbm, ⟨65, _⟩ => ⟨S100000x32, .f32⟩
  | .hbm, ⟨66, _⟩ => ⟨S1x32x96, .f32⟩
  | .hbm, ⟨67, _⟩ => ⟨S32x96, .f32⟩
  | .hbm, ⟨68, _⟩ => ⟨S1x32x96, .f32⟩
  | .hbm, ⟨69, _⟩ => ⟨S32x96, .f32⟩
  | .hbm, ⟨70, _⟩ => ⟨S1x96, .f32⟩
  | .hbm, ⟨71, _⟩ => ⟨S96, .f32⟩
  | .hbm, ⟨72, _⟩ => ⟨S1x96, .f32⟩
  | .hbm, ⟨73, _⟩ => ⟨S96, .f32⟩
  | .hbm, ⟨74, _⟩ => ⟨S100000x32, .f32⟩
  | .hbm, ⟨75, _⟩ => ⟨S1x32x32, .f32⟩
  | .hbm, ⟨76, _⟩ => ⟨S32x32, .f32⟩
  | .hbm, ⟨77, _⟩ => ⟨S1x32, .f32⟩
  | .hbm, ⟨78, _⟩ => ⟨S32, .f32⟩
  | .hbm, ⟨79, _⟩ => ⟨S100000x32, .f32⟩
  | .hbm, ⟨80, _⟩ => ⟨S_, .i32⟩
  | .hbm, ⟨81, _⟩ => ⟨S6400000, .i32⟩
  | .hbm, ⟨82, _⟩ => ⟨S6400000, .i1⟩
  | .hbm, ⟨83, _⟩ => ⟨S_, .i32⟩
  | .hbm, ⟨84, _⟩ => ⟨S6400000, .i32⟩
  | .hbm, ⟨85, _⟩ => ⟨S6400000, .i32⟩
  | .hbm, ⟨86, _⟩ => ⟨S6400000, .i32⟩
  | .hbm, ⟨87, _⟩ => ⟨S6400000x1, .i32⟩
  | .hbm, ⟨88, _⟩ => ⟨S6400000x32, .f32⟩
  | .hbm, ⟨89, _⟩ => ⟨S_, .f32⟩
  | .hbm, ⟨90, _⟩ => ⟨S100000x32, .f32⟩
  | .hbm, ⟨91, _⟩ => ⟨S6400000x1, .i32⟩
  | .hbm, ⟨92, _⟩ => ⟨S100000x32, .f32⟩
  | .hbm, ⟨93, _⟩ => ⟨S1x32x96, .f32⟩
  | .hbm, ⟨94, _⟩ => ⟨S32x96, .f32⟩
  | .hbm, ⟨95, _⟩ => ⟨S1x32x96, .f32⟩
  | .hbm, ⟨96, _⟩ => ⟨S32x96, .f32⟩
  | .hbm, ⟨97, _⟩ => ⟨S1x96, .f32⟩
  | .hbm, ⟨98, _⟩ => ⟨S96, .f32⟩
  | .hbm, ⟨99, _⟩ => ⟨S1x96, .f32⟩
  | .hbm, ⟨100, _⟩ => ⟨S96, .f32⟩
  | .hbm, ⟨101, _⟩ => ⟨S100000x32, .f32⟩
  | .hbm, ⟨102, _⟩ => ⟨S100000x16, .f32⟩
  | .hbm, ⟨103, _⟩ => ⟨S100000x16, .f32⟩
  | .local _ .vmem, ⟨0, _⟩ => ⟨S2000x7, .f32⟩
  | .local _ .vmem, ⟨1, _⟩ => ⟨S2000x7, .f32⟩
  | .local _ .vmem, ⟨2, _⟩ => ⟨S7x32, .f32⟩
  | .local _ .vmem, ⟨3, _⟩ => ⟨S32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S32x32, .f32⟩
  | .local _ .vmem, ⟨9, _⟩ => ⟨S32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S32x96, .f32⟩
  | .local _ .vmem, ⟨17, _⟩ => ⟨S32x96, .f32⟩
  | .local _ .vmem, ⟨18, _⟩ => ⟨S96, .f32⟩
  | .local _ .vmem, ⟨19, _⟩ => ⟨S96, .f32⟩
  | .local _ .vmem, ⟨20, _⟩ => ⟨S2000x32, .f32⟩
  | .local _ .vmem, ⟨21, _⟩ => ⟨S2000x32, .f32⟩
  | .local _ .vmem, ⟨22, _⟩ => ⟨S2000x32, .f32⟩
  | .local _ .vmem, ⟨23, _⟩ => ⟨S2000x32, .f32⟩
  | .local _ .vmem, ⟨24, _⟩ => ⟨S32x32, .f32⟩
  | .local _ .vmem, ⟨25, _⟩ => ⟨S32, .f32⟩
  | .local _ .vmem, ⟨26, _⟩ => ⟨S2000x32, .f32⟩
  | .local _ .vmem, ⟨27, _⟩ => ⟨S2000x32, .f32⟩
  | .local _ .vmem, ⟨28, _⟩ => ⟨S2000x32, .f32⟩
  | .local _ .vmem, ⟨29, _⟩ => ⟨S2000x32, .f32⟩
  | .local _ .vmem, ⟨30, _⟩ => ⟨S2000x32, .f32⟩
  | .local _ .vmem, ⟨31, _⟩ => ⟨S2000x32, .f32⟩
  | .local _ .vmem, ⟨32, _⟩ => ⟨S32x96, .f32⟩
  | .local _ .vmem, ⟨33, _⟩ => ⟨S32x96, .f32⟩
  | .local _ .vmem, ⟨34, _⟩ => ⟨S96, .f32⟩
  | .local _ .vmem, ⟨35, _⟩ => ⟨S96, .f32⟩
  | .local _ .vmem, ⟨36, _⟩ => ⟨S2000x32, .f32⟩
  | .local _ .vmem, ⟨37, _⟩ => ⟨S2000x32, .f32⟩
  | .local _ .vmem, ⟨38, _⟩ => ⟨S2000x32, .f32⟩
  | .local _ .vmem, ⟨39, _⟩ => ⟨S2000x32, .f32⟩
  | .local _ .vmem, ⟨40, _⟩ => ⟨S32x32, .f32⟩
  | .local _ .vmem, ⟨41, _⟩ => ⟨S32, .f32⟩
  | .local _ .vmem, ⟨42, _⟩ => ⟨S2000x32, .f32⟩
  | .local _ .vmem, ⟨43, _⟩ => ⟨S2000x32, .f32⟩
  | .local _ .vmem, ⟨44, _⟩ => ⟨S2000x32, .f32⟩
  | .local _ .vmem, ⟨45, _⟩ => ⟨S2000x32, .f32⟩
  | .local _ .vmem, ⟨46, _⟩ => ⟨S2000x32, .f32⟩
  | .local _ .vmem, ⟨47, _⟩ => ⟨S2000x32, .f32⟩
  | .local _ .vmem, ⟨48, _⟩ => ⟨S32x96, .f32⟩
  | .local _ .vmem, ⟨49, _⟩ => ⟨S32x96, .f32⟩
  | .local _ .vmem, ⟨50, _⟩ => ⟨S96, .f32⟩
  | .local _ .vmem, ⟨51, _⟩ => ⟨S96, .f32⟩
  | .local _ .vmem, ⟨52, _⟩ => ⟨S2000x32, .f32⟩
  | .local _ .vmem, ⟨53, _⟩ => ⟨S2000x32, .f32⟩
  | .local _ .vmem, ⟨54, _⟩ => ⟨S2000x32, .f32⟩
  | .local _ .vmem, ⟨55, _⟩ => ⟨S2000x32, .f32⟩
  | .local _ .vmem, ⟨56, _⟩ => ⟨S32x16, .f32⟩
  | .local _ .vmem, ⟨57, _⟩ => ⟨S16, .f32⟩
  | .local _ .vmem, ⟨58, _⟩ => ⟨S32x16, .f32⟩
  | .local _ .vmem, ⟨59, _⟩ => ⟨S16, .f32⟩
  | .local _ .vmem, ⟨60, _⟩ => ⟨S2000x16, .f32⟩
  | .local _ .vmem, ⟨61, _⟩ => ⟨S2000x16, .f32⟩
  | .local _ .vmem, ⟨62, _⟩ => ⟨S2000x16, .f32⟩
  | .local _ .vmem, ⟨63, _⟩ => ⟨S2000x16, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_1 : Ref sig .tc := ⟨.hbm, 53, rfl⟩
abbrev main_v36 : Ref sig .tc := ⟨.hbm, 54, rfl⟩
abbrev main_v37 : Ref sig .tc := ⟨.hbm, 55, rfl⟩
abbrev main_c_2 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_3 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_4 : Ref sig .tc := ⟨.hbm, 80, rfl⟩
abbrev main_v60 : Ref sig .tc := ⟨.hbm, 81, rfl⟩
abbrev main_v61 : Ref sig .tc := ⟨.hbm, 82, rfl⟩
abbrev main_c_5 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_6 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79_0 : Ref sig .tc := ⟨.hbm, 102, rfl⟩
abbrev main_v79_1 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg6_0 : Ref sig .tc := ⟨.vmem, 52, rfl⟩
abbrev cc6_stg6_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg5_1 : Ref sig .tc := ⟨.vmem, 61, rfl⟩
abbrev cc7_stg6_0 : Ref sig .tc := ⟨.vmem, 62, rfl⟩
abbrev cc7_stg6_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem6_0 : DmaSem sig := 52
abbrev cc6_sem6_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem4_0 : DmaSem sig := 59
abbrev cc7_sem5_0 : DmaSem sig := 60
abbrev cc7_sem5_1 : DmaSem sig := 61
abbrev cc7_sem6_0 : DmaSem sig := 62
abbrev cc7_sem6_1 : DmaSem sig := 63

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S96 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x32 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x96 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x96 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S96 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S96 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x32 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S32x16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S16 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x16 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S16 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x16 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S2000x16 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  inb_S2000x7_S2000x7_0_0 : ∀ a, (![0, 0] : Fin 2 → Nat) a + S2000x7.size a ≤ S2000x7.size a
  h_S2000x7 : 0 < S2000x7.numel
  bitsLt_bf16_f32 : FTy.bits .bf16 < FTy.bits .f32
  inb_S7x32_S7x32_0_0 : ∀ a, (![0, 0] : Fin 2 → Nat) a + S7x32.size a ≤ S7x32.size a
  h_S7x32 : 0 < S7x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  transposes_S3x96x32_S3x32x96_0_2_1 : S3x96x32.Transposes [0, 2, 1] S3x32x96
  slices_S3x32x32_S1x32x32_0_0_0 : S3x32x32.Slices ![0, 0, 0] S1x32x32
  shapeCasts_S1x32x32_S32x32 : S1x32x32.ShapeCasts S32x32
  slices_S3x32_S1x32_0_0 : S3x32.Slices ![0, 0] S1x32
  shapeCasts_S1x32_S32 : S1x32.ShapeCasts S32
  shapeCasts_S2000x32_S2000x32 : S2000x32.ShapeCasts S2000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S32_S32 : S32.ShapeCasts S32
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000x32 : S_.BroadcastsInDim S100000x32 (![] : Fin 0 → Fin S100000x32.rank)
  slices_S3x32x96_S1x32x96_0_0_0 : S3x32x96.Slices ![0, 0, 0] S1x32x96
  shapeCasts_S1x32x96_S32x96 : S1x32x96.ShapeCasts S32x96
  slices_S3x96_S1x96_0_0 : S3x96.Slices ![0, 0] S1x96
  shapeCasts_S1x96_S96 : S1x96.ShapeCasts S96
  inb_S32x96_S32x96_0_0 : ∀ a, (![0, 0] : Fin 2 → Nat) a + S32x96.size a ≤ S32x96.size a
  h_S32x96 : 0 < S32x96.numel
  shapeCasts_S32x96_S32x96 : S32x96.ShapeCasts S32x96
  inb_S96_S96_0 : ∀ a, (![0] : Fin 1 → Nat) a + S96.size a ≤ S96.size a
  h_S96 : 0 < S96.numel
  shapeCasts_S96_S96 : S96.ShapeCasts S96
  shapeCasts_S96_S1x96 : S96.ShapeCasts S1x96
  broadcasts_S1x96_S2000x96 : S1x96.Broadcasts S2000x96
  slices_S2000x96_o0_0_S2000x32 : S2000x96.Slices ![0, 0] S2000x32
  slices_S2000x96_o0_32_S2000x32 : S2000x96.Slices ![0, 32] S2000x32
  slices_S2000x96_o0_64_S2000x32 : S2000x96.Slices ![0, 64] S2000x32
  slices_S3x32x32_S1x32x32_1_0_0 : S3x32x32.Slices ![1, 0, 0] S1x32x32
  slices_S3x32_S1x32_1_0 : S3x32.Slices ![1, 0] S1x32
  slices_S3x32x96_S1x32x96_1_0_0 : S3x32x96.Slices ![1, 0, 0] S1x32x96
  slices_S3x96_S1x96_1_0 : S3x96.Slices ![1, 0] S1x96
  slices_S3x32x32_S1x32x32_2_0_0 : S3x32x32.Slices ![2, 0, 0] S1x32x32
  slices_S3x32_S1x32_2_0 : S3x32.Slices ![2, 0] S1x32
  slices_S3x32x96_S1x32x96_2_0_0 : S3x32x96.Slices ![2, 0, 0] S1x32x96
  slices_S3x96_S1x96_2_0 : S3x96.Slices ![2, 0] S1x96
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  dot_S2000x7_S7x32_S2000x32_1_0_0_1_n_n_wf : DotDims.WF S2000x7 S7x32 S2000x32 [1] [0] [0] [1] [] []
  dot_S2000x32_S32x32_S2000x32_1_0_0_1_n_n_wf : DotDims.WF S2000x32 S32x32 S2000x32 [1] [0] [0] [1] [] []
  gather_S100000x32_S6400000x1_S6400000x32_1_0_n_n_0_1_132_wf : GatherDims.WF S100000x32 S6400000x1 S6400000x32 [1] [0] [] [0] [] 1 ![1, 32]
  scatter_S100000x32_S6400000x1_S6400000x32_1_0_0_1_wf : ScatterDims.WF S100000x32 S6400000x1 S6400000x32 [1] [0] [0] 1
  dot_S2000x32_S32x96_S2000x96_1_0_0_1_n_n_wf : DotDims.WF S2000x32 S32x96 S2000x96 [1] [0] [0] [1] [] []
  dot_S2000x32_S32x16_S2000x16_1_0_0_1_n_n_wf : DotDims.WF S2000x32 S32x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x7.size a ≤ S100000x7.size a
  hwx0_0 : ∀ i : grid0.Coords, EltTy.bits .f32 = 32 ∨ (Rect.block (s := S100000x7) S2000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x32.size a ≤ S7x32.size a
  hwx0_1 : ∀ i : grid0.Coords, EltTy.bits .f32 = 32 ∨ (Rect.block (s := S7x32) S7x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S100000x32.size a
  hwx0_3 : ∀ i : grid0.Coords, EltTy.bits .f32 = 32 ∨ (Rect.block (s := S100000x32) S2000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S100000x32.size a
  hwx1_3 : ∀ i : grid1.Coords, EltTy.bits .f32 = 32 ∨ (Rect.block (s := S100000x32) S2000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S100000x32.size a
  hwx2_1 : ∀ i : grid2.Coords, EltTy.bits .f32 = 32 ∨ (Rect.block (s := S100000x32) S2000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x96.size a ≤ S32x96.size a
  hwx2_2 : ∀ i : grid2.Coords, EltTy.bits .f32 = 32 ∨ (Rect.block (s := S32x96) S32x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x96.size a ≤ S32x96.size a
  hwx2_3 : ∀ i : grid2.Coords, EltTy.bits .f32 = 32 ∨ (Rect.block (s := S32x96) S32x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96.size a ≤ S96.size a
  hwx2_4 : ∀ i : grid2.Coords, EltTy.bits .f32 = 32 ∨ (Rect.block (s := S96) S96.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S96.size a ≤ S96.size a
  hwx2_5 : ∀ i : grid2.Coords, EltTy.bits .f32 = 32 ∨ (Rect.block (s := S96) S96.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x32.size a ≤ S100000x32.size a
  hwx2_6 : ∀ i : grid2.Coords, EltTy.bits .f32 = 32 ∨ (Rect.block (s := S100000x32) S2000x32.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32.size a ≤ S32.size a
  hwx3_2 : ∀ i : grid3.Coords, EltTy.bits .f32 = 32 ∨ (Rect.block (s := S32) S32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x32.size a ≤ S100000x32.size a
  hwx3_3 : ∀ i : grid3.Coords, EltTy.bits .f32 = 32 ∨ (Rect.block (s := S100000x32) S2000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x32.size a ≤ S100000x32.size a
  hwx4_1 : ∀ i : grid4.Coords, EltTy.bits .f32 = 32 ∨ (Rect.block (s := S100000x32) S2000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x96.size a ≤ S32x96.size a
  hwx4_2 : ∀ i : grid4.Coords, EltTy.bits .f32 = 32 ∨ (Rect.block (s := S32x96) S32x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x96.size a ≤ S32x96.size a
  hwx4_3 : ∀ i : grid4.Coords, EltTy.bits .f32 = 32 ∨ (Rect.block (s := S32x96) S32x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S96.size a ≤ S96.size a
  hwx4_4 : ∀ i : grid4.Coords, EltTy.bits .f32 = 32 ∨ (Rect.block (s := S96) S96.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S96.size a ≤ S96.size a
  hwx4_5 : ∀ i : grid4.Coords, EltTy.bits .f32 = 32 ∨ (Rect.block (s := S96) S96.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x32.size a ≤ S100000x32.size a
  hwx4_6 : ∀ i : grid4.Coords, EltTy.bits .f32 = 32 ∨ (Rect.block (s := S100000x32) S2000x32.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x32.size a ≤ S32x32.size a
  hwx5_1 : ∀ i : grid5.Coords, EltTy.bits .f32 = 32 ∨ (Rect.block (s := S32x32) S32x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32.size a ≤ S32.size a
  hwx5_2 : ∀ i : grid5.Coords, EltTy.bits .f32 = 32 ∨ (Rect.block (s := S32) S32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x32.size a ≤ S100000x32.size a
  hwx5_3 : ∀ i : grid5.Coords, EltTy.bits .f32 = 32 ∨ (Rect.block (s := S100000x32) S2000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x32.size a ≤ S100000x32.size a
  hwx6_0 : ∀ i : grid6.Coords, EltTy.bits .f32 = 32 ∨ (Rect.block (s := S100000x32) S2000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x32.size a ≤ S100000x32.size a
  hwx6_1 : ∀ i : grid6.Coords, EltTy.bits .f32 = 32 ∨ (Rect.block (s := S100000x32) S2000x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x96.size a ≤ S32x96.size a
  hwx6_2 : ∀ i : grid6.Coords, EltTy.bits .f32 = 32 ∨ (Rect.block (s := S32x96) S32x96.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x96.size a ≤ S32x96.size a
  hwx6_3 : ∀ i : grid6.Coords, EltTy.bits .f32 = 32 ∨ (Rect.block (s := S32x96) S32x96.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S96.size a ≤ S96.size a
  hwx6_4 : ∀ i : grid6.Coords, EltTy.bits .f32 = 32 ∨ (Rect.block (s := S96) S96.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S96.size a ≤ S96.size a
  hwx6_5 : ∀ i : grid6.Coords, EltTy.bits .f32 = 32 ∨ (Rect.block (s := S96) S96.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x32.size a ≤ S100000x32.size a
  hwx6_6 : ∀ i : grid6.Coords, EltTy.bits .f32 = 32 ∨ (Rect.block (s := S100000x32) S2000x32.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x32.size a ≤ S100000x32.size a
  hwx7_0 : ∀ i : grid7.Coords, EltTy.bits .f32 = 32 ∨ (Rect.block (s := S100000x32) S2000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S32x16.size a ≤ S32x16.size a
  hwx7_1 : ∀ i : grid7.Coords, EltTy.bits .f32 = 32 ∨ (Rect.block (s := S32x16) S32x16.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S16.size a ≤ S16.size a
  hwx7_2 : ∀ i : grid7.Coords, EltTy.bits .f32 = 32 ∨ (Rect.block (s := S16) S16.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x16.size a ≤ S32x16.size a
  hwx7_3 : ∀ i : grid7.Coords, EltTy.bits .f32 = 32 ∨ (Rect.block (s := S32x16) S32x16.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S16.size a ≤ S16.size a
  hwx7_4 : ∀ i : grid7.Coords, EltTy.bits .f32 = 32 ∨ (Rect.block (s := S16) S16.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x16.size a ≤ S100000x16.size a
  hwx7_5 : ∀ i : grid7.Coords, EltTy.bits .f32 = 32 ∨ (Rect.block (s := S100000x16) S2000x16.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x16.size a ≤ S100000x16.size a
  hwx7_6 : ∀ i : grid7.Coords, EltTy.bits .f32 = 32 ∨ (Rect.block (s := S100000x16) S2000x16.size (cc7_transform_6 i) (hinb7_6 i)).WholeWords (EltTy.packing .f32)

variable [Facts₀]

def dot_S2000x7_S7x32_S2000x32_1_0_0_1_n_n : DotDims S2000x7 S7x32 S2000x32 where
  lhsContracting := [1]
  rhsContracting := [0]
  lhsNonContracting := [0]
  rhsNonContracting := [1]
  lhsBatch := []
  rhsBatch := []
  wf := dot_S2000x7_S7x32_S2000x32_1_0_0_1_n_n_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def gather_S100000x32_S6400000x1_S6400000x32_1_0_n_n_0_1_132 : GatherDims S100000x32 S6400000x1 S6400000x32 where
  offsetDims := [1]
  collapsedSliceDims := [0]
  operandBatchingDims := []
  startIndicesBatchingDims := []
  startIndexMap := [0]
  indexVectorDim := 1
  sliceSizes := ![1, 32]
  wf := gather_S100000x32_S6400000x1_S6400000x32_1_0_n_n_0_1_132_wf
def scatter_S100000x32_S6400000x1_S6400000x32_1_0_0_1 : ScatterDims S100000x32 S6400000x1 S6400000x32 where
  updateWindowDims := [1]
  insertedWindowDims := [0]
  scatterDimsToOperandDims := [0]
  indexVectorDim := 1
  wf := scatter_S100000x32_S6400000x1_S6400000x32_1_0_0_1_wf
def dot_S2000x32_S32x96_S2000x96_1_0_0_1_n_n : DotDims S2000x32 S32x96 S2000x96 where
  lhsContracting := [1]
  rhsContracting := [0]
  lhsNonContracting := [0]
  rhsNonContracting := [1]
  lhsBatch := []
  rhsBatch := []
  wf := dot_S2000x32_S32x96_S2000x96_1_0_0_1_n_n_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf

abbrev win0_0 : Pipeline.Window sig grid0 :=
  Pipeline.Window.ofSpec (Memref.whole main_arg0) S2000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S7x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S32x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S32x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S2000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v30) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S2000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v45) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S2000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v47) S32x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v49) S32x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v51) S96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v53) S96.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v54) S2000x32.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v54) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S32x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v59) S2000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v69) S2000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v54) S2000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v71) S32x96.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v73) S32x96.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v75) S96.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v77) S96.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v78) S2000x32.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v78) S2000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S32x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg11) S16.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg12) S32x16.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg13) S16.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v79_0) S2000x16.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v79_1) S2000x16.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S100000x7 : Shape := ⟨2, ![100000, 7]⟩
abbrev S2x6400000 : Shape := ⟨2, ![2, 6400000]⟩
abbrev S7x32 : Shape := ⟨2, ![7, 32]⟩
abbrev S32 : Shape := ⟨1, ![32]⟩
abbrev S3x32x32 : Shape := ⟨3, ![3, 32, 32]⟩
abbrev S3x32 : Shape := ⟨2, ![3, 32]⟩
abbrev S3x96x32 : Shape := ⟨3, ![3, 96, 32]⟩
abbrev S3x96 : Shape := ⟨2, ![3, 96]⟩
abbrev S32x16 : Shape := ⟨2, ![32, 16]⟩
abbrev S16 : Shape := ⟨1, ![16]⟩
abbrev S1x6400000 : Shape := ⟨2, ![1, 6400000]⟩
abbrev S6400000 : Shape := ⟨1, ![6400000]⟩
abbrev S100000x32 : Shape := ⟨2, ![100000, 32]⟩
abbrev S1x32 : Shape := ⟨2, ![1, 32]⟩
abbrev S_ : Shape := ⟨0, ![]⟩
abbrev S1x32x32 : Shape := ⟨3, ![1, 32, 32]⟩
abbrev S32x32 : Shape := ⟨2, ![32, 32]⟩
abbrev S6400000x1 : Shape := ⟨2, ![6400000, 1]⟩
abbrev S6400000x32 : Shape := ⟨2, ![6400000, 32]⟩
abbrev S1x96x32 : Shape := ⟨3, ![1, 96, 32]⟩
abbrev S96x32 : Shape := ⟨2, ![96, 32]⟩
abbrev S32x96 : Shape := ⟨2, ![32, 96]⟩
abbrev S100000x96 : Shape := ⟨2, ![100000, 96]⟩
abbrev S1x96 : Shape := ⟨2, ![1, 96]⟩
abbrev S96 : Shape := ⟨1, ![96]⟩
abbrev S100000x16 : Shape := ⟨2, ![100000, 16]⟩
abbrev S1x16 : Shape := ⟨2, ![1, 16]⟩

abbrev nBuf : Space → Nat
  | .hbm => 261
  | .vmem => 0
  | .smem => 0
  | _ => 0

abbrev hbmTy0_0 (i : Nat) : BufTy := match i % 128 with
  | 0 => ⟨S100000x7, .f32⟩
  | 1 => ⟨S2x6400000, .i32⟩
  | 2 => ⟨S7x32, .f32⟩
  | 3 => ⟨S32, .f32⟩
  | 4 => ⟨S3x32x32, .f32⟩
  | 5 => ⟨S3x32, .f32⟩
  | 6 => ⟨S3x96x32, .f32⟩
  | 7 => ⟨S3x96x32, .f32⟩
  | 8 => ⟨S3x96, .f32⟩
  | 9 => ⟨S3x96, .f32⟩
  | 10 => ⟨S32x16, .f32⟩
  | 11 => ⟨S16, .f32⟩
  | 12 => ⟨S32x16, .f32⟩
  | 13 => ⟨S16, .f32⟩
  | 14 => ⟨S1x6400000, .i32⟩
  | 15 => ⟨S6400000, .i32⟩
  | 16 => ⟨S1x6400000, .i32⟩
  | 17 => ⟨S6400000, .i32⟩
  | 18 => ⟨S100000x32, .f32⟩
  | 19 => ⟨S1x32, .f32⟩
  | 20 => ⟨S100000x32, .f32⟩
  | 21 => ⟨S100000x32, .f32⟩
  | 22 => ⟨S_, .f32⟩
  | 23 => ⟨S100000x32, .f32⟩
  | 24 => ⟨S100000x32, .f32⟩
  | 25 => ⟨S1x32x32, .f32⟩
  | 26 => ⟨S32x32, .f32⟩
  | 27 => ⟨S100000x32, .f32⟩
  | 28 => ⟨S1x32, .f32⟩
  | 29 => ⟨S32, .f32⟩
  | 30 => ⟨S1x32, .f32⟩
  | 31 => ⟨S100000x32, .f32⟩
  | 32 => ⟨S100000x32, .f32⟩
  | 33 => ⟨S_, .f32⟩
  | 34 => ⟨S100000x32, .f32⟩
  | 35 => ⟨S100000x32, .f32⟩
  | 36 => ⟨S_, .i32⟩
  | 37 => ⟨S6400000, .i32⟩
  | 38 => ⟨S6400000, .i1⟩
  | 39 => ⟨S_, .i32⟩
  | 40 => ⟨S6400000, .i32⟩
  | 41 => ⟨S6400000, .i32⟩
  | 42 => ⟨S6400000, .i32⟩
  | 43 => ⟨S6400000x1, .i32⟩
  | 44 => ⟨S6400000x32, .f32⟩
  | 45 => ⟨S_, .f32⟩
  | 46 => ⟨S100000x32, .f32⟩
  | 47 => ⟨S6400000x1, .i32⟩
  | 48 => ⟨S100000x32, .f32⟩
  | 49 => ⟨S1x96x32, .f32⟩
  | 50 => ⟨S96x32, .f32⟩
  | 51 => ⟨S32x96, .f32⟩
  | 52 => ⟨S100000x96, .f32⟩
  | 53 => ⟨S1x96, .f32⟩
  | 54 => ⟨S96, .f32⟩
  | 55 => ⟨S1x96, .f32⟩
  | 56 => ⟨S100000x96, .f32⟩
  | 57 => ⟨S100000x96, .f32⟩
  | 58 => ⟨S1x96x32, .f32⟩
  | 59 => ⟨S96x32, .f32⟩
  | 60 => ⟨S32x96, .f32⟩
  | 61 => ⟨S100000x96, .f32⟩
  | 62 => ⟨S1x96, .f32⟩
  | 63 => ⟨S96, .f32⟩
  | 64 => ⟨S1x96, .f32⟩
  | 65 => ⟨S100000x96, .f32⟩
  | 66 => ⟨S100000x96, .f32⟩
  | 67 => ⟨S100000x32, .f32⟩
  | 68 => ⟨S100000x32, .f32⟩
  | 69 => ⟨S100000x32, .f32⟩
  | 70 => ⟨S100000x32, .f32⟩
  | 71 => ⟨S100000x32, .f32⟩
  | 72 => ⟨S100000x32, .f32⟩
  | 73 => ⟨S100000x32, .f32⟩
  | 74 => ⟨S100000x32, .f32⟩
  | 75 => ⟨S100000x32, .f32⟩
  | 76 => ⟨S_, .f32⟩
  | 77 => ⟨S100000x32, .f32⟩
  | 78 => ⟨S100000x32, .f32⟩
  | 79 => ⟨S_, .f32⟩
  | 80 => ⟨S100000x32, .f32⟩
  | 81 => ⟨S100000x32, .f32⟩
  | 82 => ⟨S100000x32, .f32⟩
  | 83 => ⟨S100000x32, .f32⟩
  | 84 => ⟨S100000x32, .f32⟩
  | 85 => ⟨S_, .f32⟩
  | 86 => ⟨S100000x32, .f32⟩
  | 87 => ⟨S100000x32, .f32⟩
  | 88 => ⟨S_, .f32⟩
  | 89 => ⟨S100000x32, .f32⟩
  | 90 => ⟨S100000x32, .f32⟩
  | 91 => ⟨S100000x32, .f32⟩
  | 92 => ⟨S100000x32, .f32⟩
  | 93 => ⟨S100000x32, .f32⟩
  | 94 => ⟨S_, .f32⟩
  | 95 => ⟨S100000x32, .f32⟩
  | 96 => ⟨S100000x32, .f32⟩
  | 97 => ⟨S100000x32, .f32⟩
  | 98 => ⟨S100000x32, .f32⟩
  | 99 => ⟨S100000x32, .f32⟩
  | 100 => ⟨S100000x32, .f32⟩
  | 101 => ⟨S1x32x32, .f32⟩
  | 102 => ⟨S32x32, .f32⟩
  | 103 => ⟨S100000x32, .f32⟩
  | 104 => ⟨S1x32, .f32⟩
  | 105 => ⟨S32, .f32⟩
  | 106 => ⟨S1x32, .f32⟩
  | 107 => ⟨S100000x32, .f32⟩
  | 108 => ⟨S100000x32, .f32⟩
  | 109 => ⟨S_, .f32⟩
  | 110 => ⟨S100000x32, .f32⟩
  | 111 => ⟨S100000x32, .f32⟩
  | 112 => ⟨S_, .i32⟩
  | 113 => ⟨S6400000, .i32⟩
  | 114 => ⟨S6400000, .i1⟩
  | 115 => ⟨S_, .i32⟩
  | 116 => ⟨S6400000, .i32⟩
  | 117 => ⟨S6400000, .i32⟩
  | 118 => ⟨S6400000, .i32⟩
  | 119 => ⟨S6400000x1, .i32⟩
  | 120 => ⟨S6400000x32, .f32⟩
  | 121 => ⟨S_, .f32⟩
  | 122 => ⟨S100000x32, .f32⟩
  | 123 => ⟨S6400000x1, .i32⟩
  | 124 => ⟨S100000x32, .f32⟩
  | 125 => ⟨S1x96x32, .f32⟩
  | 126 => ⟨S96x32, .f32⟩
  | 127 => ⟨S32x96, .f32⟩
  | _ => ⟨S100000x7, .f32⟩

abbrev hbmTy0_1 (i : Nat) : BufTy := match i % 128 with
  | 0 => ⟨S100000x96, .f32⟩
  | 1 => ⟨S1x96, .f32⟩
  | 2 => ⟨S96, .f32⟩
  | 3 => ⟨S1x96, .f32⟩
  | 4 => ⟨S100000x96, .f32⟩
  | 5 => ⟨S100000x96, .f32⟩
  | 6 => ⟨S1x96x32, .f32⟩
  | 7 => ⟨S96x32, .f32⟩
  | 8 => ⟨S32x96, .f32⟩
  | 9 => ⟨S100000x96, .f32⟩
  | 10 => ⟨S1x96, .f32⟩
  | 11 => ⟨S96, .f32⟩
  | 12 => ⟨S1x96, .f32⟩
  | 13 => ⟨S100000x96, .f32⟩
  | 14 => ⟨S100000x96, .f32⟩
  | 15 => ⟨S100000x32, .f32⟩
  | 16 => ⟨S100000x32, .f32⟩
  | 17 => ⟨S100000x32, .f32⟩
  | 18 => ⟨S100000x32, .f32⟩
  | 19 => ⟨S100000x32, .f32⟩
  | 20 => ⟨S100000x32, .f32⟩
  | 21 => ⟨S100000x32, .f32⟩
  | 22 => ⟨S100000x32, .f32⟩
  | 23 => ⟨S100000x32, .f32⟩
  | 24 => ⟨S_, .f32⟩
  | 25 => ⟨S100000x32, .f32⟩
  | 26 => ⟨S100000x32, .f32⟩
  | 27 => ⟨S_, .f32⟩
  | 28 => ⟨S100000x32, .f32⟩
  | 29 => ⟨S100000x32, .f32⟩
  | 30 => ⟨S100000x32, .f32⟩
  | 31 => ⟨S100000x32, .f32⟩
  | 32 => ⟨S100000x32, .f32⟩
  | 33 => ⟨S_, .f32⟩
  | 34 => ⟨S100000x32, .f32⟩
  | 35 => ⟨S100000x32, .f32⟩
  | 36 => ⟨S_, .f32⟩
  | 37 => ⟨S100000x32, .f32⟩
  | 38 => ⟨S100000x32, .f32⟩
  | 39 => ⟨S100000x32, .f32⟩
  | 40 => ⟨S100000x32, .f32⟩
  | 41 => ⟨S100000x32, .f32⟩
  | 42 => ⟨S_, .f32⟩
  | 43 => ⟨S100000x32, .f32⟩
  | 44 => ⟨S100000x32, .f32⟩
  | 45 => ⟨S100000x32, .f32⟩
  | 46 => ⟨S100000x32, .f32⟩
  | 47 => ⟨S100000x32, .f32⟩
  | 48 => ⟨S100000x32, .f32⟩
  | 49 => ⟨S1x32x32, .f32⟩
  | 50 => ⟨S32x32, .f32⟩
  | 51 => ⟨S100000x32, .f32⟩
  | 52 => ⟨S1x32, .f32⟩
  | 53 => ⟨S32, .f32⟩
  | 54 => ⟨S1x32, .f32⟩
  | 55 => ⟨S100000x32, .f32⟩
  | 56 => ⟨S100000x32, .f32⟩
  | 57 => ⟨S_, .f32⟩
  | 58 => ⟨S100000x32, .f32⟩
  | 59 => ⟨S100000x32, .f32⟩
  | 60 => ⟨S_, .i32⟩
  | 61 => ⟨S6400000, .i32⟩
  | 62 => ⟨S6400000, .i1⟩
  | 63 => ⟨S_, .i32⟩
  | 64 => ⟨S6400000, .i32⟩
  | 65 => ⟨S6400000, .i32⟩
  | 66 => ⟨S6400000, .i32⟩
  | 67 => ⟨S6400000x1, .i32⟩
  | 68 => ⟨S6400000x32, .f32⟩
  | 69 => ⟨S_, .f32⟩
  | 70 => ⟨S100000x32, .f32⟩
  | 71 => ⟨S6400000x1, .i32⟩
  | 72 => ⟨S100000x32, .f32⟩
  | 73 => ⟨S1x96x32, .f32⟩
  | 74 => ⟨S96x32, .f32⟩
  | 75 => ⟨S32x96, .f32⟩
  | 76 => ⟨S100000x96, .f32⟩
  | 77 => ⟨S1x96, .f32⟩
  | 78 => ⟨S96, .f32⟩
  | 79 => ⟨S1x96, .f32⟩
  | 80 => ⟨S100000x96, .f32⟩
  | 81 => ⟨S100000x96, .f32⟩
  | 82 => ⟨S1x96x32, .f32⟩
  | 83 => ⟨S96x32, .f32⟩
  | 84 => ⟨S32x96, .f32⟩
  | 85 => ⟨S100000x96, .f32⟩
  | 86 => ⟨S1x96, .f32⟩
  | 87 => ⟨S96, .f32⟩
  | 88 => ⟨S1x96, .f32⟩
  | 89 => ⟨S100000x96, .f32⟩
  | 90 => ⟨S100000x96, .f32⟩
  | 91 => ⟨S100000x32, .f32⟩
  | 92 => ⟨S100000x32, .f32⟩
  | 93 => ⟨S100000x32, .f32⟩
  | 94 => ⟨S100000x32, .f32⟩
  | 95 => ⟨S100000x32, .f32⟩
  | 96 => ⟨S100000x32, .f32⟩
  | 97 => ⟨S100000x32, .f32⟩
  | 98 => ⟨S100000x32, .f32⟩
  | 99 => ⟨S100000x32, .f32⟩
  | 100 => ⟨S_, .f32⟩
  | 101 => ⟨S100000x32, .f32⟩
  | 102 => ⟨S100000x32, .f32⟩
  | 103 => ⟨S_, .f32⟩
  | 104 => ⟨S100000x32, .f32⟩
  | 105 => ⟨S100000x32, .f32⟩
  | 106 => ⟨S100000x32, .f32⟩
  | 107 => ⟨S100000x32, .f32⟩
  | 108 => ⟨S100000x32, .f32⟩
  | 109 => ⟨S_, .f32⟩
  | 110 => ⟨S100000x32, .f32⟩
  | 111 => ⟨S100000x32, .f32⟩
  | 112 => ⟨S_, .f32⟩
  | 113 => ⟨S100000x32, .f32⟩
  | 114 => ⟨S100000x32, .f32⟩
  | 115 => ⟨S100000x32, .f32⟩
  | 116 => ⟨S100000x32, .f32⟩
  | 117 => ⟨S100000x32, .f32⟩
  | 118 => ⟨S_, .f32⟩
  | 119 => ⟨S100000x32, .f32⟩
  | 120 => ⟨S100000x32, .f32⟩
  | 121 => ⟨S100000x32, .f32⟩
  | 122 => ⟨S100000x32, .f32⟩
  | 123 => ⟨S100000x32, .f32⟩
  | 124 => ⟨S100000x32, .f32⟩
  | 125 => ⟨S100000x16, .f32⟩
  | 126 => ⟨S1x16, .f32⟩
  | 127 => ⟨S100000x16, .f32⟩
  | _ => ⟨S100000x7, .f32⟩

abbrev hbmTy0_2 (i : Nat) : BufTy := match i % 128 with
  | 0 => ⟨S100000x16, .f32⟩
  | 1 => ⟨S100000x16, .f32⟩
  | 2 => ⟨S1x16, .f32⟩
  | 3 => ⟨S100000x16, .f32⟩
  | 4 => ⟨S100000x16, .f32⟩
  | _ => ⟨S100000x7, .f32⟩

abbrev hbmTy (i : Nat) : BufTy := match i / 128 with
  | 0 => hbmTy0_0 i
  | 1 => hbmTy0_1 i
  | 2 => hbmTy0_2 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_cst : Ref sig .tc := ⟨.hbm, 33, rfl⟩
abbrev main_call1_v0 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_1 : Ref sig .tc := ⟨.hbm, 76, rfl⟩
abbrev main_v55 : Ref sig .tc := ⟨.hbm, 77, rfl⟩
abbrev main_v56 : Ref sig .tc := ⟨.hbm, 78, rfl⟩
abbrev main_cst_2 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_3 : Ref sig .tc := ⟨.hbm, 85, rfl⟩
abbrev main_v62 : Ref sig .tc := ⟨.hbm, 86, rfl⟩
abbrev main_v63 : Ref sig .tc := ⟨.hbm, 87, rfl⟩
abbrev main_cst_4 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_5 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_call2_cst : Ref sig .tc := ⟨.hbm, 109, rfl⟩
abbrev main_call2_v0 : Ref sig .tc := ⟨.hbm, 110, rfl⟩
abbrev main_v83 : Ref sig .tc := ⟨.hbm, 111, rfl⟩
abbrev main_c_6 : Ref sig .tc := ⟨.hbm, 112, rfl⟩
abbrev main_v84 : Ref sig .tc := ⟨.hbm, 113, rfl⟩
abbrev main_v85 : Ref sig .tc := ⟨.hbm, 114, rfl⟩
abbrev main_c_7 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_8 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_9 : Ref sig .tc := ⟨.hbm, 152, rfl⟩
abbrev main_v121 : Ref sig .tc := ⟨.hbm, 153, rfl⟩
abbrev main_v122 : Ref sig .tc := ⟨.hbm, 154, rfl⟩
abbrev main_cst_10 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_11 : Ref sig .tc := ⟨.hbm, 161, rfl⟩
abbrev main_v128 : Ref sig .tc := ⟨.hbm, 162, rfl⟩
abbrev main_v129 : Ref sig .tc := ⟨.hbm, 163, rfl⟩
abbrev main_cst_12 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_13 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_call3_cst : Ref sig .tc := ⟨.hbm, 185, rfl⟩
abbrev main_call3_v0 : Ref sig .tc := ⟨.hbm, 186, rfl⟩
abbrev main_v149 : Ref sig .tc := ⟨.hbm, 187, rfl⟩
abbrev main_c_14 : Ref sig .tc := ⟨.hbm, 188, rfl⟩
abbrev main_v150 : Ref sig .tc := ⟨.hbm, 189, rfl⟩
abbrev main_v151 : Ref sig .tc := ⟨.hbm, 190, rfl⟩
abbrev main_c_15 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_cst_16 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_cst_17 : Ref sig .tc := ⟨.hbm, 228, rfl⟩
abbrev main_v187 : Ref sig .tc := ⟨.hbm, 229, rfl⟩
abbrev main_v188 : Ref sig .tc := ⟨.hbm, 230, rfl⟩
abbrev main_cst_18 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_cst_19 : Ref sig .tc := ⟨.hbm, 237, rfl⟩
abbrev main_v194 : Ref sig .tc := ⟨.hbm, 238, rfl⟩
abbrev main_v195 : Ref sig .tc := ⟨.hbm, 239, rfl⟩
abbrev main_cst_20 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_cst_21 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  slices_S3x32x32_S1x32x32_0_0_0 : S3x32x32.Slices ![0, 0, 0] S1x32x32
  shapeCasts_S1x32x32_S32x32 : S1x32x32.ShapeCasts S32x32
  slices_S3x32_S1x32_0_0 : S3x32.Slices ![0, 0] S1x32
  shapeCasts_S1x32_S32 : S1x32.ShapeCasts S32
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S3x96x32_S1x96x32_0_0_0 : S3x96x32.Slices ![0, 0, 0] S1x96x32
  shapeCasts_S1x96x32_S96x32 : S1x96x32.ShapeCasts S96x32
  transposes_S96x32_S32x96_1_0 : S96x32.Transposes [1, 0] S32x96
  slices_S3x96_S1x96_0_0 : S3x96.Slices ![0, 0] S1x96
  shapeCasts_S1x96_S96 : S1x96.ShapeCasts S96
  bcast_S96_S1x96_1 : S96.BroadcastsInDim S1x96 (![1] : Fin 1 → Fin S1x96.rank)
  bcast_S1x96_S100000x96_0_1 : S1x96.BroadcastsInDim S100000x96 (![0, 1] : Fin 2 → Fin S100000x96.rank)
  slices_S100000x96_S100000x32_0_0 : S100000x96.Slices ![0, 0] S100000x32
  slices_S100000x96_S100000x32_0_32 : S100000x96.Slices ![0, 32] S100000x32
  slices_S100000x96_S100000x32_0_64 : S100000x96.Slices ![0, 64] S100000x32
  slices_S3x32x32_S1x32x32_1_0_0 : S3x32x32.Slices ![1, 0, 0] S1x32x32
  slices_S3x32_S1x32_1_0 : S3x32.Slices ![1, 0] S1x32
  slices_S3x96x32_S1x96x32_1_0_0 : S3x96x32.Slices ![1, 0, 0] S1x96x32
  slices_S3x96_S1x96_1_0 : S3x96.Slices ![1, 0] S1x96
  slices_S3x32x32_S1x32x32_2_0_0 : S3x32x32.Slices ![2, 0, 0] S1x32x32
  slices_S3x32_S1x32_2_0 : S3x32.Slices ![2, 0] S1x32
  slices_S3x96x32_S1x96x32_2_0_0 : S3x96x32.Slices ![2, 0, 0] S1x96x32
  slices_S3x96_S1x96_2_0 : S3x96.Slices ![2, 0] S1x96
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x7_S7x32_S100000x32_1_0_0_1_n_n_wf : DotDims.WF S100000x7 S7x32 S100000x32 [1] [0] [0] [1] [] []
  dot_S100000x32_S32x32_S100000x32_1_0_0_1_n_n_wf : DotDims.WF S100000x32 S32x32 S100000x32 [1] [0] [0] [1] [] []
  gather_S100000x32_S6400000x1_S6400000x32_1_0_n_n_0_1_132_wf : GatherDims.WF S100000x32 S6400000x1 S6400000x32 [1] [0] [] [0] [] 1 ![1, 32]
  scatter_S100000x32_S6400000x1_S6400000x32_1_0_0_1_wf : ScatterDims.WF S100000x32 S6400000x1 S6400000x32 [1] [0] [0] 1
  dot_S100000x32_S32x96_S100000x96_1_0_0_1_n_n_wf : DotDims.WF S100000x32 S32x96 S100000x96 [1] [0] [0] [1] [] []
  dot_S100000x32_S32x16_S100000x16_1_0_0_1_n_n_wf : DotDims.WF S100000x32 S32x16 S100000x16 [1] [0] [0] [1] [] []

variable [Facts₀]

def dot_S100000x7_S7x32_S100000x32_1_0_0_1_n_n : DotDims S100000x7 S7x32 S100000x32 where
  lhsContracting := [1]
  rhsContracting := [0]
  lhsNonContracting := [0]
  rhsNonContracting := [1]
  lhsBatch := []
  rhsBatch := []
  wf := dot_S100000x7_S7x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S6400000x1_S6400000x32_1_0_n_n_0_1_132 : GatherDims S100000x32 S6400000x1 S6400000x32 where
  offsetDims := [1]
  collapsedSliceDims := [0]
  operandBatchingDims := []
  startIndicesBatchingDims := []
  startIndexMap := [0]
  indexVectorDim := 1
  sliceSizes := ![1, 32]
  wf := gather_S100000x32_S6400000x1_S6400000x32_1_0_n_n_0_1_132_wf
def scatter_S100000x32_S6400000x1_S6400000x32_1_0_0_1 : ScatterDims S100000x32 S6400000x1 S6400000x32 where
  updateWindowDims := [1]
  insertedWindowDims := [0]
  scatterDimsToOperandDims := [0]
  indexVectorDim := 1
  wf := scatter_S100000x32_S6400000x1_S6400000x32_1_0_0_1_wf
def dot_S100000x32_S32x96_S100000x96_1_0_0_1_n_n : DotDims S100000x32 S32x96 S100000x96 where
  lhsContracting := [1]
  rhsContracting := [0]
  lhsNonContracting := [0]
  rhsNonContracting := [1]
  lhsBatch := []
  rhsBatch := []
  wf := dot_S100000x32_S32x96_S100000x96_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.RefStages.lean ====
/-
  The reference program stage by stage. Its 247 host operations are cut into eleven stretches: the input layer; per round the
  message layer, the aggregation and the gated update; the two heads. Each lemma says: run one stretch from any buffer contents V
  in which the stretch's inputs hold given arrays, and its output buffer holds the generated stage function of those arrays.
  A stretch is short, so its operations can be composed whole; what a stretch reads from earlier ones enters as a hypothesis.
-/
import proofs.«174392_j3315714752917_1_alg».proof.Proof.RunP
import proofs.«174392_j3315714752917_1_alg».proof.Proof.ReadP

noncomputable section

namespace Cert.GNN.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running a list of operations and then another is running their concatenation. -/
theorem after_append (a b : List (HloOp τ sig (Elt F))) (V : Valuation τ sig (Elt F)) : after (a ++ b) V = after b (after a V) := by
  induction a generalizing V with
  | nil => rfl
  | cons op a ih => simp only [List.cons_append, after_cons, ih]

variable (V : Valuation τ sig (Elt F))

theorem in_v8 (x0 : (⟨S100000x7, .f32⟩ : BufTy).Contents (Elt F)) (x2 : (⟨S7x32, .f32⟩ : BufTy).Contents (Elt F)) (x3 : (⟨S32, .f32⟩ : BufTy).Contents (Elt F))
    (h0 : V (Proc.devRef .tc main_arg0) = x0) (h2 : V (Proc.devRef .tc main_arg2) = x2) (h3 : V (Proc.devRef .tc main_arg3) = x3) :
    after ops0 V (Proc.devRef .tc main_v8) = val_main_v8 (F := F) x0 x2 x3 := by
  simp only [ops0]
  after_results_simp
  rw [h0, h2, h3]
  rfl

theorem in_v1 (x1 : (⟨S2x6400000, .i32⟩ : BufTy).Contents (Elt F))
    (h1 : V (Proc.devRef .tc main_arg1) = x1) :
    after ops0 V (Proc.devRef .tc main_v1) = val_main_v1 (F := F) x1 := by
  simp only [ops0]
  after_results_simp
  rw [h1]
  rfl

theorem in_v3 (x1 : (⟨S2x6400000, .i32⟩ : BufTy).Contents (Elt F))
    (h1 : V (Proc.devRef .tc main_arg1) = x1) :
    after ops0 V (Proc.devRef .tc main_v3) = val_main_v3 (F := F) x1 := by
  simp only [ops0]
  after_results_simp
  rw [h1]
  rfl

theorem msg0 (x0 : (⟨S100000x7, .f32⟩ : BufTy).Contents (Elt F)) (x2 : (⟨S7x32, .f32⟩ : BufTy).Contents (Elt F)) (x3 : (⟨S32, .f32⟩ : BufTy).Contents (Elt F)) (x4 : (⟨S3x32x32, .f32⟩ : BufTy).Contents (Elt F)) (x5 : (⟨S3x32, .f32⟩ : BufTy).Contents (Elt F))
    (hS : V (Proc.devRef .tc main_v8) = val_main_v8 (F := F) x0 x2 x3) (h4 : V (Proc.devRef .tc main_arg4) = x4) (h5 : V (Proc.devRef .tc main_arg5) = x5) :
    after ops1 V (Proc.devRef .tc main_v17) = val_main_v17 (F := F) x0 x2 x3 x4 x5 := by
  simp only [ops1]
  after_results_simp
  rw [hS, h4, h5]
  rfl

theorem agg0 (x0 : (⟨S100000x7, .f32⟩ : BufTy).Contents (Elt F)) (x1 : (⟨S2x6400000, .i32⟩ : BufTy).Contents (Elt F)) (x2 : (⟨S7x32, .f32⟩ : BufTy).Contents (Elt F)) (x3 : (⟨S32, .f32⟩ : BufTy).Contents (Elt F)) (x4 : (⟨S3x32x32, .f32⟩ : BufTy).Contents (Elt F)) (x5 : (⟨S3x32, .f32⟩ : BufTy).Contents (Elt F))
    (hM : V (Proc.devRef .tc main_v17) = val_main_v17 (F := F) x0 x2 x3 x4 x5) (h1 : V (Proc.devRef .tc main_v1) = val_main_v1 (F := F) x1) (h3 : V (Proc.devRef .tc main_v3) = val_main_v3 (F := F) x1) :
    after ops2 V (Proc.devRef .tc main_v27) = val_main_v27 (F := F) x0 x1 x2 x3 x4 x5 := by
  simp only [ops2]
  after_results_simp
  rw [hM, h1, h3]
  rfl

theorem gru0 (x0 : (⟨S100000x7, .f32⟩ : BufTy).Contents (Elt F)) (x1 : (⟨S2x6400000, .i32⟩ : BufTy).Contents (Elt F)) (x2 : (⟨S7x32, .f32⟩ : BufTy).Contents (Elt F)) (x3 : (⟨S32, .f32⟩ : BufTy).Contents (Elt F)) (x4 : (⟨S3x32x32, .f32⟩ : BufTy).Contents (Elt F)) (x5 : (⟨S3x32, .f32⟩ : BufTy).Contents (Elt F)) (x6 : (⟨S3x96x32, .f32⟩ : BufTy).Contents (Elt F)) (x7 : (⟨S3x96x32, .f32⟩ : BufTy).Contents (Elt F)) (x8 : (⟨S3x96, .f32⟩ : BufTy).Contents (Elt F)) (x9 : (⟨S3x96, .f32⟩ : BufTy).Contents (Elt F))
    (hA : V (Proc.devRef .tc main_v27) = val_main_v27 (F := F) x0 x1 x2 x3 x4 x5) (hS : V (Proc.devRef .tc main_v8) = val_main_v8 (F := F) x0 x2 x3) (h6 : V (Proc.devRef .tc main_arg6) = x6) (h7 : V (Proc.devRef .tc main_arg7) = x7) (h8 : V (Proc.devRef .tc main_arg8) = x8) (h9 : V (Proc.devRef .tc main_arg9) = x9) :
    after ops3 V (Proc.devRef .tc main_v74) = val_main_v74 (F := F) x0 x1 x2 x3 x4 x5 x6 x7 x8 x9 := by
  simp only [ops3]
  after_results_simp
  rw [hA, hS, h6, h7, h8, h9]
  rfl

theorem msg1 (x0 : (⟨S100000x7, .f32⟩ : BufTy).Contents (Elt F)) (x1 : (⟨S2x6400000, .i32⟩ : BufTy).Contents (Elt F)) (x2 : (⟨S7x32, .f32⟩ : BufTy).Contents (Elt F)) (x3 : (⟨S32, .f32⟩ : BufTy).Contents (Elt F)) (x4 : (⟨S3x32x32, .f32⟩ : BufTy).Contents (Elt F)) (x5 : (⟨S3x32, .f32⟩ : BufTy).Contents (Elt F)) (x6 : (⟨S3x96x32, .f32⟩ : BufTy).Contents (Elt F)) (x7 : (⟨S3x96x32, .f32⟩ : BufTy).Contents (Elt F)) (x8 : (⟨S3x96, .f32⟩ : BufTy).Contents (Elt F)) (x9 : (⟨S3x96, .f32⟩ : BufTy).Contents (Elt F))
    (hS : V (Proc.devRef .tc main_v74) = val_main_v74 (F := F) x0 x1 x2 x3 x4 x5 x6 x7 x8 x9) (h4 : V (Proc.devRef .tc main_arg4) = x4) (h5 : V (Proc.devRef .tc main_arg5) = x5) :
    after ops4 V (Proc.devRef .tc main_v83) = val_main_v83 (F := F) x0 x1 x2 x3 x4 x5 x6 x7 x8 x9 := by
  simp only [ops4]
  after_results_simp
  rw [hS, h4, h5]
  rfl

theorem agg1 (x0 : (⟨S100000x7, .f32⟩ : BufTy).Contents (Elt F)) (x1 : (⟨S2x6400000, .i32⟩ : BufTy).Contents (Elt F)) (x2 : (⟨S7x32, .f32⟩ : BufTy).Contents (Elt F)) (x3 : (⟨S32, .f32⟩ : BufTy).Contents (Elt F)) (x4 : (⟨S3x32x32, .f32⟩ : BufTy).Contents (Elt F)) (x5 : (⟨S3x32, .f32⟩ : BufTy).Contents (Elt F)) (x6 : (⟨S3x96x32, .f32⟩ : BufTy).Contents (Elt F)) (x7 : (⟨S3x96x32, .f32⟩ : BufTy).Contents (Elt F)) (x8 : (⟨S3x96, .f32⟩ : BufTy).Contents (Elt F)) (x9 : (⟨S3x96, .f32⟩ : BufTy).Contents (Elt F))
    (hM : V (Proc.devRef .tc main_v83) = val_main_v83 (F := F) x0 x1 x2 x3 x4 x5 x6 x7 x8 x9) (h1 : V (Proc.devRef .tc main_v1) = val_main_v1 (F := F) x1) (h3 : V (Proc.devRef .tc main_v3) = val_main_v3 (F := F) x1) :
    after ops5 V (Proc.devRef .tc main_v93) = val_main_v93 (F := F) x0 x1 x2 x3 x4 x5 x6 x7 x8 x9 := by
  simp only [ops5]
  after_results_simp
  rw [hM, h1, h3]
  rfl

theorem gru1 (x0 : (⟨S100000x7, .f32⟩ : BufTy).Contents (Elt F)) (x1 : (⟨S2x6400000, .i32⟩ : BufTy).Contents (Elt F)) (x2 : (⟨S7x32, .f32⟩ : BufTy).Contents (Elt F)) (x3 : (⟨S32, .f32⟩ : BufTy).Contents (Elt F)) (x4 : (⟨S3x32x32, .f32⟩ : BufTy).Contents (Elt F)) (x5 : (⟨S3x32, .f32⟩ : BufTy).Contents (Elt F)) (x6 : (⟨S3x96x32, .f32⟩ : BufTy).Contents (Elt F)) (x7 : (⟨S3x96x32, .f32⟩ : BufTy).Contents (Elt F)) (x8 : (⟨S3x96, .f32⟩ : BufTy).Contents (Elt F)) (x9 : (⟨S3x96, .f32⟩ : BufTy).Contents (Elt F))
    (hA : V (Proc.devRef .tc main_v93) = val_main_v93 (F := F) x0 x1 x2 x3 x4 x5 x6 x7 x8 x9) (hS : V (Proc.devRef .tc main_v74) = val_main_v74 (F := F) x0 x1 x2 x3 x4 x5 x6 x7 x8 x9) (h6 : V (Proc.devRef .tc main_arg6) = x6) (h7 : V (Proc.devRef .tc main_arg7) = x7) (h8 : V (Proc.devRef .tc main_arg8) = x8) (h9 : V (Proc.devRef .tc main_arg9) = x9) :
    after ops6 V (Proc.devRef .tc main_v140) = val_main_v140 (F := F) x0 x1 x2 x3 x4 x5 x6 x7 x8 x9 := by
  simp only [ops6]
  after_results_simp
  rw [hA, hS, h6, h7, h8, h9]
  rfl

theorem msg2 (x0 : (⟨S100000x7, .f32⟩ : BufTy).Contents (Elt F)) (x1 : (⟨S2x6400000, .i32⟩ : BufTy).Contents (Elt F)) (x2 : (⟨S7x32, .f32⟩ : BufTy).Contents (Elt F)) (x3 : (⟨S32, .f32⟩ : BufTy).Contents (Elt F)) (x4 : (⟨S3x32x32, .f32⟩ : BufTy).Contents (Elt F)) (x5 : (⟨S3x32, .f32⟩ : BufTy).Contents (Elt F)) (x6 : (⟨S3x96x32, .f32⟩ : BufTy).Contents (Elt F)) (x7 : (⟨S3x96x32, .f32⟩ : BufTy).Contents (Elt F)) (x8 : (⟨S3x96, .f32⟩ : BufTy).Contents (Elt F)) (x9 : (⟨S3x96, .f32⟩ : BufTy).Contents (Elt F))
    (hS : V (Proc.devRef .tc main_v140) = val_main_v140 (F := F) x0 x1 x2 x3 x4 x5 x6 x7 x8 x9) (h4 : V (Proc.devRef .tc main_arg4) = x4) (h5 : V (Proc.devRef .tc main_arg5) = x5) :
    after ops7 V (Proc.devRef .tc main_v149) = val_main_v149 (F := F) x0 x1 x2 x3 x4 x5 x6 x7 x8 x9 := by
  simp only [ops7]
  after_results_simp
  rw [hS, h4, h5]
  rfl

theorem agg2 (x0 : (⟨S100000x7, .f32⟩ : BufTy).Contents (Elt F)) (x1 : (⟨S2x6400000, .i32⟩ : BufTy).Contents (Elt F)) (x2 : (⟨S7x32, .f32⟩ : BufTy).Contents (Elt F)) (x3 : (⟨S32, .f32⟩ : BufTy).Contents (Elt F)) (x4 : (⟨S3x32x32, .f32⟩ : BufTy).Contents (Elt F)) (x5 : (⟨S3x32, .f32⟩ : BufTy).Contents (Elt F)) (x6 : (⟨S3x96x32, .f32⟩ : BufTy).Contents (Elt F)) (x7 : (⟨S3x96x32, .f32⟩ : BufTy).Contents (Elt F)) (x8 : (⟨S3x96, .f32⟩ : BufTy).Contents (Elt F)) (x9 : (⟨S3x96, .f32⟩ : BufTy).Contents (Elt F))
    (hM : V (Proc.devRef .tc main_v149) = val_main_v149 (F := F) x0 x1 x2 x3 x4 x5 x6 x7 x8 x9) (h1 : V (Proc.devRef .tc main_v1) = val_main_v1 (F := F) x1) (h3 : V (Proc.devRef .tc main_v3) = val_main_v3 (F := F) x1) :
    after ops8 V (Proc.devRef .tc main_v159) = val_main_v159 (F := F) x0 x1 x2 x3 x4 x5 x6 x7 x8 x9 := by
  simp only [ops8]
  after_results_simp
  rw [hM, h1, h3]
  rfl

theorem gru2 (x0 : (⟨S100000x7, .f32⟩ : BufTy).Contents (Elt F)) (x1 : (⟨S2x6400000, .i32⟩ : BufTy).Contents (Elt F)) (x2 : (⟨S7x32, .f32⟩ : BufTy).Contents (Elt F)) (x3 : (⟨S32, .f32⟩ : BufTy).Contents (Elt F)) (x4 : (⟨S3x32x32, .f32⟩ : BufTy).Contents (Elt F)) (x5 : (⟨S3x32, .f32⟩ : BufTy).Contents (Elt F)) (x6 : (⟨S3x96x32, .f32⟩ : BufTy).Contents (Elt F)) (x7 : (⟨S3x96x32, .f32⟩ : BufTy).Contents (Elt F)) (x8 : (⟨S3x96, .f32⟩ : BufTy).Contents (Elt F)) (x9 : (⟨S3x96, .f32⟩ : BufTy).Contents (Elt F))
    (hA : V (Proc.devRef .tc main_v159) = val_main_v159 (F := F) x0 x1 x2 x3 x4 x5 x6 x7 x8 x9) (hS : V (Proc.devRef .tc main_v140) = val_main_v140 (F := F) x0 x1 x2 x3 x4 x5 x6 x7 x8 x9) (h6 : V (Proc.devRef .tc main_arg6) = x6) (h7 : V (Proc.devRef .tc main_arg7) = x7) (h8 : V (Proc.devRef .tc main_arg8) = x8) (h9 : V (Proc.devRef .tc main_arg9) = x9) :
    after ops9 V (Proc.devRef .tc main_v206) = val_main_v206 (F := F) x0 x1 x2 x3 x4 x5 x6 x7 x8 x9 := by
  simp only [ops9]
  after_results_simp
  rw [hA, hS, h6, h7, h8, h9]
  rfl

theorem out_mu (x0 : (⟨S100000x7, .f32⟩ : BufTy).Contents (Elt F)) (x1 : (⟨S2x6400000, .i32⟩ : BufTy).Contents (Elt F)) (x2 : (⟨S7x32, .f32⟩ : BufTy).Contents (Elt F)) (x3 : (⟨S32, .f32⟩ : BufTy).Contents (Elt F)) (x4 : (⟨S3x32x32, .f32⟩ : BufTy).Contents (Elt F)) (x5 : (⟨S3x32, .f32⟩ : BufTy).Contents (Elt F)) (x6 : (⟨S3x96x32, .f32⟩ : BufTy).Contents (Elt F)) (x7 : (⟨S3x96x32, .f32⟩ : BufTy).Contents (Elt F)) (x8 : (⟨S3x96, .f32⟩ : BufTy).Contents (Elt F)) (x9 : (⟨S3x96, .f32⟩ : BufTy).Contents (Elt F)) (x10 : (⟨S32x16, .f32⟩ : BufTy).Contents (Elt F)) (x11 : (⟨S16, .f32⟩ : BufTy).Contents (Elt F))
    (hS : V (Proc.devRef .tc main_v206) = val_main_v206 (F := F) x0 x1 x2 x3 x4 x5 x6 x7 x8 x9) (h10 : V (Proc.devRef .tc main_arg10) = x10) (h11 : V (Proc.devRef .tc main_arg11) = x11) :
    after ops10 V (Proc.devRef .tc main_v210) = val_main_v210 (F := F) x0 x1 x2 x3 x4 x5 x6 x7 x8 x9 x10 x11 := by
  simp only [ops10]
  after_results_simp
  rw [hS, h10, h11]
  rfl

theorem out_ls (x0 : (⟨S100000x7, .f32⟩ : BufTy).Contents (Elt F)) (x1 : (⟨S2x6400000, .i32⟩ : BufTy).Contents (Elt F)) (x2 : (⟨S7x32, .f32⟩ : BufTy).Contents (Elt F)) (x3 : (⟨S32, .f32⟩ : BufTy).Contents (Elt F)) (x4 : (⟨S3x32x32, .f32⟩ : BufTy).Contents (Elt F)) (x5 : (⟨S3x32, .f32⟩ : BufTy).Contents (Elt F)) (x6 : (⟨S3x96x32, .f32⟩ : BufTy).Contents (Elt F)) (x7 : (⟨S3x96x32, .f32⟩ : BufTy).Contents (Elt F)) (x8 : (⟨S3x96, .f32⟩ : BufTy).Contents (Elt F)) (x9 : (⟨S3x96, .f32⟩ : BufTy).Contents (Elt F)) (x12 : (⟨S32x16, .f32⟩ : BufTy).Contents (Elt F)) (x13 : (⟨S16, .f32⟩ : BufTy).Contents (Elt F))
    (hS : V (Proc.devRef .tc main_v206) = val_main_v206 (F := F) x0 x1 x2 x3 x4 x5 x6 x7 x8 x9) (h12 : V (Proc.devRef .tc main_arg12) = x12) (h13 : V (Proc.devRef .tc main_arg13) = x13) :
    after ops10 V (Proc.devRef .tc main_v214) = val_main_v214 (F := F) x0 x1 x2 x3 x4 x5 x6 x7 x8 x9 x12 x13 := by
  simp only [ops10]
  after_results_simp
  rw [hS, h12, h13]
  rfl

end Cert.GNN.RefRun

end
-- ==== Proof.RefKeepArgs.lean ====
/-
  The buffer contents of the reference program at the ten boundaries between its eleven stretches, and the arguments there: no
  operation writes an argument, so at every boundary where a later stretch reads one it still holds the launch memory.
-/
import proofs.«174392_j3315714752917_1_alg».proof.Proof.RefStages

noncomputable section

namespace Cert.GNN.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- A stretch of operations leaves alone every buffer none of them writes. -/
macro "keeps" : tactic =>
  `(tactic| (refine after_of_forall_not_mem _ _ (List.forall_iff_forall_mem.mp ?_)
             simp only [Cert.ReferenceIdeal.ValueP.ops0, Cert.ReferenceIdeal.ValueP.ops1, Cert.ReferenceIdeal.ValueP.ops2, Cert.ReferenceIdeal.ValueP.ops3,
               Cert.ReferenceIdeal.ValueP.ops4, Cert.ReferenceIdeal.ValueP.ops5, Cert.ReferenceIdeal.ValueP.ops6, Cert.ReferenceIdeal.ValueP.ops7,
               Cert.ReferenceIdeal.ValueP.ops8, Cert.ReferenceIdeal.ValueP.ops9, Cert.ReferenceIdeal.ValueP.ops10, List.Forall,
               StableHlo.nullary_writes, StableHlo.unary_writes, StableHlo.binary_writes, StableHlo.ternary_writes, StableHlo.reshape_writes,
               Finset.mem_singleton]
             repeat' apply And.intro
             all_goals exact StableHlo.devRef_ne_of_ne (by decide)))

variable (m : (ℓ : Loc nD τ sig) → Buf (Elt F) ℓ) (c : Dev nD)

/-- The buffer contents after the first 1 stretches. -/
abbrev B1 : Valuation τ sig (Elt F) := after ops0 (launchContents m c)
/-- The buffer contents after the first 2 stretches. -/
abbrev B2 : Valuation τ sig (Elt F) := after ops1 (B1 m c)
/-- The buffer contents after the first 3 stretches. -/
abbrev B3 : Valuation τ sig (Elt F) := after ops2 (B2 m c)
/-- The buffer contents after the first 4 stretches. -/
abbrev B4 : Valuation τ sig (Elt F) := after ops3 (B3 m c)
/-- The buffer contents after the first 5 stretches. -/
abbrev B5 : Valuation τ sig (Elt F) := after ops4 (B4 m c)
/-- The buffer contents after the first 6 stretches. -/
abbrev B6 : Valuation τ sig (Elt F) := after ops5 (B5 m c)
/-- The buffer contents after the first 7 stretches. -/
abbrev B7 : Valuation τ sig (Elt F) := after ops6 (B6 m c)
/-- The buffer contents after the first 8 stretches. -/
abbrev B8 : Valuation τ sig (Elt F) := after ops7 (B7 m c)
/-- The buffer contents after the first 9 stretches. -/
abbrev B9 : Valuation τ sig (Elt F) := after ops8 (B8 m c)
/-- The buffer contents after the first 10 stretches. -/
abbrev B10 : Valuation τ sig (Elt F) := after ops9 (B9 m c)
/-- The buffer contents after the first 11 stretches. -/
abbrev B11 : Valuation τ sig (Elt F) := after ops10 (B10 m c)

theorem arg0_1 : B1 m c (Proc.devRef .tc main_arg0) = (m ((c.tc : Thread nD τ).loc main_arg0)) :=
  (by keeps : after ops0 (launchContents m c) (Proc.devRef .tc main_arg0) = (launchContents m c) (Proc.devRef .tc main_arg0)).trans rfl
theorem arg0_2 : B2 m c (Proc.devRef .tc main_arg0) = (m ((c.tc : Thread nD τ).loc main_arg0)) :=
  (by keeps : after ops1 (B1 m c) (Proc.devRef .tc main_arg0) = (B1 m c) (Proc.devRef .tc main_arg0)).trans (arg0_1 m c)
theorem arg0_3 : B3 m c (Proc.devRef .tc main_arg0) = (m ((c.tc : Thread nD τ).loc main_arg0)) :=
  (by keeps : after ops2 (B2 m c) (Proc.devRef .tc main_arg0) = (B2 m c) (Proc.devRef .tc main_arg0)).trans (arg0_2 m c)
theorem arg0_4 : B4 m c (Proc.devRef .tc main_arg0) = (m ((c.tc : Thread nD τ).loc main_arg0)) :=
  (by keeps : after ops3 (B3 m c) (Proc.devRef .tc main_arg0) = (B3 m c) (Proc.devRef .tc main_arg0)).trans (arg0_3 m c)
theorem arg0_5 : B5 m c (Proc.devRef .tc main_arg0) = (m ((c.tc : Thread nD τ).loc main_arg0)) :=
  (by keeps : after ops4 (B4 m c) (Proc.devRef .tc main_arg0) = (B4 m c) (Proc.devRef .tc main_arg0)).trans (arg0_4 m c)
theorem arg0_6 : B6 m c (Proc.devRef .tc main_arg0) = (m ((c.tc : Thread nD τ).loc main_arg0)) :=
  (by keeps : after ops5 (B5 m c) (Proc.devRef .tc main_arg0) = (B5 m c) (Proc.devRef .tc main_arg0)).trans (arg0_5 m c)
theorem arg0_7 : B7 m c (Proc.devRef .tc main_arg0) = (m ((c.tc : Thread nD τ).loc main_arg0)) :=
  (by keeps : after ops6 (B6 m c) (Proc.devRef .tc main_arg0) = (B6 m c) (Proc.devRef .tc main_arg0)).trans (arg0_6 m c)
theorem arg0_8 : B8 m c (Proc.devRef .tc main_arg0) = (m ((c.tc : Thread nD τ).loc main_arg0)) :=
  (by keeps : after ops7 (B7 m c) (Proc.devRef .tc main_arg0) = (B7 m c) (Proc.devRef .tc main_arg0)).trans (arg0_7 m c)
theorem arg0_9 : B9 m c (Proc.devRef .tc main_arg0) = (m ((c.tc : Thread nD τ).loc main_arg0)) :=
  (by keeps : after ops8 (B8 m c) (Proc.devRef .tc main_arg0) = (B8 m c) (Proc.devRef .tc main_arg0)).trans (arg0_8 m c)
theorem arg0_10 : B10 m c (Proc.devRef .tc main_arg0) = (m ((c.tc : Thread nD τ).loc main_arg0)) :=
  (by keeps : after ops9 (B9 m c) (Proc.devRef .tc main_arg0) = (B9 m c) (Proc.devRef .tc main_arg0)).trans (arg0_9 m c)
theorem arg0_11 : B11 m c (Proc.devRef .tc main_arg0) = (m ((c.tc : Thread nD τ).loc main_arg0)) :=
  (by keeps : after ops10 (B10 m c) (Proc.devRef .tc main_arg0) = (B10 m c) (Proc.devRef .tc main_arg0)).trans (arg0_10 m c)
theorem arg1_1 : B1 m c (Proc.devRef .tc main_arg1) = (m ((c.tc : Thread nD τ).loc main_arg1)) :=
  (by keeps : after ops0 (launchContents m c) (Proc.devRef .tc main_arg1) = (launchContents m c) (Proc.devRef .tc main_arg1)).trans rfl
theorem arg1_2 : B2 m c (Proc.devRef .tc main_arg1) = (m ((c.tc : Thread nD τ).loc main_arg1)) :=
  (by keeps : after ops1 (B1 m c) (Proc.devRef .tc main_arg1) = (B1 m c) (Proc.devRef .tc main_arg1)).trans (arg1_1 m c)
theorem arg1_3 : B3 m c (Proc.devRef .tc main_arg1) = (m ((c.tc : Thread nD τ).loc main_arg1)) :=
  (by keeps : after ops2 (B2 m c) (Proc.devRef .tc main_arg1) = (B2 m c) (Proc.devRef .tc main_arg1)).trans (arg1_2 m c)
theorem arg1_4 : B4 m c (Proc.devRef .tc main_arg1) = (m ((c.tc : Thread nD τ).loc main_arg1)) :=
  (by keeps : after ops3 (B3 m c) (Proc.devRef .tc main_arg1) = (B3 m c) (Proc.devRef .tc main_arg1)).trans (arg1_3 m c)
theorem arg1_5 : B5 m c (Proc.devRef .tc main_arg1) = (m ((c.tc : Thread nD τ).loc main_arg1)) :=
  (by keeps : after ops4 (B4 m c) (Proc.devRef .tc main_arg1) = (B4 m c) (Proc.devRef .tc main_arg1)).trans (arg1_4 m c)
theorem arg1_6 : B6 m c (Proc.devRef .tc main_arg1) = (m ((c.tc : Thread nD τ).loc main_arg1)) :=
  (by keeps : after ops5 (B5 m c) (Proc.devRef .tc main_arg1) = (B5 m c) (Proc.devRef .tc main_arg1)).trans (arg1_5 m c)
theorem arg1_7 : B7 m c (Proc.devRef .tc main_arg1) = (m ((c.tc : Thread nD τ).loc main_arg1)) :=
  (by keeps : after ops6 (B6 m c) (Proc.devRef .tc main_arg1) = (B6 m c) (Proc.devRef .tc main_arg1)).trans (arg1_6 m c)
theorem arg1_8 : B8 m c (Proc.devRef .tc main_arg1) = (m ((c.tc : Thread nD τ).loc main_arg1)) :=
  (by keeps : after ops7 (B7 m c) (Proc.devRef .tc main_arg1) = (B7 m c) (Proc.devRef .tc main_arg1)).trans (arg1_7 m c)
theorem arg1_9 : B9 m c (Proc.devRef .tc main_arg1) = (m ((c.tc : Thread nD τ).loc main_arg1)) :=
  (by keeps : after ops8 (B8 m c) (Proc.devRef .tc main_arg1) = (B8 m c) (Proc.devRef .tc main_arg1)).trans (arg1_8 m c)
theorem arg1_10 : B10 m c (Proc.devRef .tc main_arg1) = (m ((c.tc : Thread nD τ).loc main_arg1)) :=
  (by keeps : after ops9 (B9 m c) (Proc.devRef .tc main_arg1) = (B9 m c) (Proc.devRef .tc main_arg1)).trans (arg1_9 m c)
theorem arg1_11 : B11 m c (Proc.devRef .tc main_arg1) = (m ((c.tc : Thread nD τ).loc main_arg1)) :=
  (by keeps : after ops10 (B10 m c) (Proc.devRef .tc main_arg1) = (B10 m c) (Proc.devRef .tc main_arg1)).trans (arg1_10 m c)
theorem arg2_1 : B1 m c (Proc.devRef .tc main_arg2) = (m ((c.tc : Thread nD τ).loc main_arg2)) :=
  (by keeps : after ops0 (launchContents m c) (Proc.devRef .tc main_arg2) = (launchContents m c) (Proc.devRef .tc main_arg2)).trans rfl
theorem arg2_2 : B2 m c (Proc.devRef .tc main_arg2) = (m ((c.tc : Thread nD τ).loc main_arg2)) :=
  (by keeps : after ops1 (B1 m c) (Proc.devRef .tc main_arg2) = (B1 m c) (Proc.devRef .tc main_arg2)).trans (arg2_1 m c)
theorem arg2_3 : B3 m c (Proc.devRef .tc main_arg2) = (m ((c.tc : Thread nD τ).loc main_arg2)) :=
  (by keeps : after ops2 (B2 m c) (Proc.devRef .tc main_arg2) = (B2 m c) (Proc.devRef .tc main_arg2)).trans (arg2_2 m c)
theorem arg2_4 : B4 m c (Proc.devRef .tc main_arg2) = (m ((c.tc : Thread nD τ).loc main_arg2)) :=
  (by keeps : after ops3 (B3 m c) (Proc.devRef .tc main_arg2) = (B3 m c) (Proc.devRef .tc main_arg2)).trans (arg2_3 m c)
theorem arg2_5 : B5 m c (Proc.devRef .tc main_arg2) = (m ((c.tc : Thread nD τ).loc main_arg2)) :=
  (by keeps : after ops4 (B4 m c) (Proc.devRef .tc main_arg2) = (B4 m c) (Proc.devRef .tc main_arg2)).trans (arg2_4 m c)
theorem arg2_6 : B6 m c (Proc.devRef .tc main_arg2) = (m ((c.tc : Thread nD τ).loc main_arg2)) :=
  (by keeps : after ops5 (B5 m c) (Proc.devRef .tc main_arg2) = (B5 m c) (Proc.devRef .tc main_arg2)).trans (arg2_5 m c)
theorem arg2_7 : B7 m c (Proc.devRef .tc main_arg2) = (m ((c.tc : Thread nD τ).loc main_arg2)) :=
  (by keeps : after ops6 (B6 m c) (Proc.devRef .tc main_arg2) = (B6 m c) (Proc.devRef .tc main_arg2)).trans (arg2_6 m c)
theorem arg2_8 : B8 m c (Proc.devRef .tc main_arg2) = (m ((c.tc : Thread nD τ).loc main_arg2)) :=
  (by keeps : after ops7 (B7 m c) (Proc.devRef .tc main_arg2) = (B7 m c) (Proc.devRef .tc main_arg2)).trans (arg2_7 m c)
theorem arg2_9 : B9 m c (Proc.devRef .tc main_arg2) = (m ((c.tc : Thread nD τ).loc main_arg2)) :=
  (by keeps : after ops8 (B8 m c) (Proc.devRef .tc main_arg2) = (B8 m c) (Proc.devRef .tc main_arg2)).trans (arg2_8 m c)
theorem arg2_10 : B10 m c (Proc.devRef .tc main_arg2) = (m ((c.tc : Thread nD τ).loc main_arg2)) :=
  (by keeps : after ops9 (B9 m c) (Proc.devRef .tc main_arg2) = (B9 m c) (Proc.devRef .tc main_arg2)).trans (arg2_9 m c)
theorem arg2_11 : B11 m c (Proc.devRef .tc main_arg2) = (m ((c.tc : Thread nD τ).loc main_arg2)) :=
  (by keeps : after ops10 (B10 m c) (Proc.devRef .tc main_arg2) = (B10 m c) (Proc.devRef .tc main_arg2)).trans (arg2_10 m c)
theorem arg3_1 : B1 m c (Proc.devRef .tc main_arg3) = (m ((c.tc : Thread nD τ).loc main_arg3)) :=
  (by keeps : after ops0 (launchContents m c) (Proc.devRef .tc main_arg3) = (launchContents m c) (Proc.devRef .tc main_arg3)).trans rfl
theorem arg3_2 : B2 m c (Proc.devRef .tc main_arg3) = (m ((c.tc : Thread nD τ).loc main_arg3)) :=
  (by keeps : after ops1 (B1 m c) (Proc.devRef .tc main_arg3) = (B1 m c) (Proc.devRef .tc main_arg3)).trans (arg3_1 m c)
theorem arg3_3 : B3 m c (Proc.devRef .tc main_arg3) = (m ((c.tc : Thread nD τ).loc main_arg3)) :=
  (by keeps : after ops2 (B2 m c) (Proc.devRef .tc main_arg3) = (B2 m c) (Proc.devRef .tc main_arg3)).trans (arg3_2 m c)
theorem arg3_4 : B4 m c (Proc.devRef .tc main_arg3) = (m ((c.tc : Thread nD τ).loc main_arg3)) :=
  (by keeps : after ops3 (B3 m c) (Proc.devRef .tc main_arg3) = (B3 m c) (Proc.devRef .tc main_arg3)).trans (arg3_3 m c)
theorem arg3_5 : B5 m c (Proc.devRef .tc main_arg3) = (m ((c.tc : Thread nD τ).loc main_arg3)) :=
  (by keeps : after ops4 (B4 m c) (Proc.devRef .tc main_arg3) = (B4 m c) (Proc.devRef .tc main_arg3)).trans (arg3_4 m c)
theorem arg3_6 : B6 m c (Proc.devRef .tc main_arg3) = (m ((c.tc : Thread nD τ).loc main_arg3)) :=
  (by keeps : after ops5 (B5 m c) (Proc.devRef .tc main_arg3) = (B5 m c) (Proc.devRef .tc main_arg3)).trans (arg3_5 m c)
theorem arg3_7 : B7 m c (Proc.devRef .tc main_arg3) = (m ((c.tc : Thread nD τ).loc main_arg3)) :=
  (by keeps : after ops6 (B6 m c) (Proc.devRef .tc main_arg3) = (B6 m c) (Proc.devRef .tc main_arg3)).trans (arg3_6 m c)
theorem arg3_8 : B8 m c (Proc.devRef .tc main_arg3) = (m ((c.tc : Thread nD τ).loc main_arg3)) :=
  (by keeps : after ops7 (B7 m c) (Proc.devRef .tc main_arg3) = (B7 m c) (Proc.devRef .tc main_arg3)).trans (arg3_7 m c)
theorem arg3_9 : B9 m c (Proc.devRef .tc main_arg3) = (m ((c.tc : Thread nD τ).loc main_arg3)) :=
  (by keeps : after ops8 (B8 m c) (Proc.devRef .tc main_arg3) = (B8 m c) (Proc.devRef .tc main_arg3)).trans (arg3_8 m c)
theorem arg3_10 : B10 m c (Proc.devRef .tc main_arg3) = (m ((c.tc : Thread nD τ).loc main_arg3)) :=
  (by keeps : after ops9 (B9 m c) (Proc.devRef .tc main_arg3) = (B9 m c) (Proc.devRef .tc main_arg3)).trans (arg3_9 m c)
theorem arg3_11 : B11 m c (Proc.devRef .tc main_arg3) = (m ((c.tc : Thread nD τ).loc main_arg3)) :=
  (by keeps : after ops10 (B10 m c) (Proc.devRef .tc main_arg3) = (B10 m c) (Proc.devRef .tc main_arg3)).trans (arg3_10 m c)
theorem arg4_1 : B1 m c (Proc.devRef .tc main_arg4) = (m ((c.tc : Thread nD τ).loc main_arg4)) :=
  (by keeps : after ops0 (launchContents m c) (Proc.devRef .tc main_arg4) = (launchContents m c) (Proc.devRef .tc main_arg4)).trans rfl
theorem arg4_2 : B2 m c (Proc.devRef .tc main_arg4) = (m ((c.tc : Thread nD τ).loc main_arg4)) :=
  (by keeps : after ops1 (B1 m c) (Proc.devRef .tc main_arg4) = (B1 m c) (Proc.devRef .tc main_arg4)).trans (arg4_1 m c)
theorem arg4_3 : B3 m c (Proc.devRef .tc main_arg4) = (m ((c.tc : Thread nD τ).loc main_arg4)) :=
  (by keeps : after ops2 (B2 m c) (Proc.devRef .tc main_arg4) = (B2 m c) (Proc.devRef .tc main_arg4)).trans (arg4_2 m c)
theorem arg4_4 : B4 m c (Proc.devRef .tc main_arg4) = (m ((c.tc : Thread nD τ).loc main_arg4)) :=
  (by keeps : after ops3 (B3 m c) (Proc.devRef .tc main_arg4) = (B3 m c) (Proc.devRef .tc main_arg4)).trans (arg4_3 m c)
theorem arg4_5 : B5 m c (Proc.devRef .tc main_arg4) = (m ((c.tc : Thread nD τ).loc main_arg4)) :=
  (by keeps : after ops4 (B4 m c) (Proc.devRef .tc main_arg4) = (B4 m c) (Proc.devRef .tc main_arg4)).trans (arg4_4 m c)
theorem arg4_6 : B6 m c (Proc.devRef .tc main_arg4) = (m ((c.tc : Thread nD τ).loc main_arg4)) :=
  (by keeps : after ops5 (B5 m c) (Proc.devRef .tc main_arg4) = (B5 m c) (Proc.devRef .tc main_arg4)).trans (arg4_5 m c)
theorem arg4_7 : B7 m c (Proc.devRef .tc main_arg4) = (m ((c.tc : Thread nD τ).loc main_arg4)) :=
  (by keeps : after ops6 (B6 m c) (Proc.devRef .tc main_arg4) = (B6 m c) (Proc.devRef .tc main_arg4)).trans (arg4_6 m c)
theorem arg4_8 : B8 m c (Proc.devRef .tc main_arg4) = (m ((c.tc : Thread nD τ).loc main_arg4)) :=
  (by keeps : after ops7 (B7 m c) (Proc.devRef .tc main_arg4) = (B7 m c) (Proc.devRef .tc main_arg4)).trans (arg4_7 m c)
theorem arg4_9 : B9 m c (Proc.devRef .tc main_arg4) = (m ((c.tc : Thread nD τ).loc main_arg4)) :=
  (by keeps : after ops8 (B8 m c) (Proc.devRef .tc main_arg4) = (B8 m c) (Proc.devRef .tc main_arg4)).trans (arg4_8 m c)
theorem arg4_10 : B10 m c (Proc.devRef .tc main_arg4) = (m ((c.tc : Thread nD τ).loc main_arg4)) :=
  (by keeps : after ops9 (B9 m c) (Proc.devRef .tc main_arg4) = (B9 m c) (Proc.devRef .tc main_arg4)).trans (arg4_9 m c)
theorem arg4_11 : B11 m c (Proc.devRef .tc main_arg4) = (m ((c.tc : Thread nD τ).loc main_arg4)) :=
  (by keeps : after ops10 (B10 m c) (Proc.devRef .tc main_arg4) = (B10 m c) (Proc.devRef .tc main_arg4)).trans (arg4_10 m c)
theorem arg5_1 : B1 m c (Proc.devRef .tc main_arg5) = (m ((c.tc : Thread nD τ).loc main_arg5)) :=
  (by keeps : after ops0 (launchContents m c) (Proc.devRef .tc main_arg5) = (launchContents m c) (Proc.devRef .tc main_arg5)).trans rfl
theorem arg5_2 : B2 m c (Proc.devRef .tc main_arg5) = (m ((c.tc : Thread nD τ).loc main_arg5)) :=
  (by keeps : after ops1 (B1 m c) (Proc.devRef .tc main_arg5) = (B1 m c) (Proc.devRef .tc main_arg5)).trans (arg5_1 m c)
theorem arg5_3 : B3 m c (Proc.devRef .tc main_arg5) = (m ((c.tc : Thread nD τ).loc main_arg5)) :=
  (by keeps : after ops2 (B2 m c) (Proc.devRef .tc main_arg5) = (B2 m c) (Proc.devRef .tc main_arg5)).trans (arg5_2 m c)
theorem arg5_4 : B4 m c (Proc.devRef .tc main_arg5) = (m ((c.tc : Thread nD τ).loc main_arg5)) :=
  (by keeps : after ops3 (B3 m c) (Proc.devRef .tc main_arg5) = (B3 m c) (Proc.devRef .tc main_arg5)).trans (arg5_3 m c)
theorem arg5_5 : B5 m c (Proc.devRef .tc main_arg5) = (m ((c.tc : Thread nD τ).loc main_arg5)) :=
  (by keeps : after ops4 (B4 m c) (Proc.devRef .tc main_arg5) = (B4 m c) (Proc.devRef .tc main_arg5)).trans (arg5_4 m c)
theorem arg5_6 : B6 m c (Proc.devRef .tc main_arg5) = (m ((c.tc : Thread nD τ).loc main_arg5)) :=
  (by keeps : after ops5 (B5 m c) (Proc.devRef .tc main_arg5) = (B5 m c) (Proc.devRef .tc main_arg5)).trans (arg5_5 m c)
theorem arg5_7 : B7 m c (Proc.devRef .tc main_arg5) = (m ((c.tc : Thread nD τ).loc main_arg5)) :=
  (by keeps : after ops6 (B6 m c) (Proc.devRef .tc main_arg5) = (B6 m c) (Proc.devRef .tc main_arg5)).trans (arg5_6 m c)
theorem arg5_8 : B8 m c (Proc.devRef .tc main_arg5) = (m ((c.tc : Thread nD τ).loc main_arg5)) :=
  (by keeps : after ops7 (B7 m c) (Proc.devRef .tc main_arg5) = (B7 m c) (Proc.devRef .tc main_arg5)).trans (arg5_7 m c)
theorem arg5_9 : B9 m c (Proc.devRef .tc main_arg5) = (m ((c.tc : Thread nD τ).loc main_arg5)) :=
  (by keeps : after ops8 (B8 m c) (Proc.devRef .tc main_arg5) = (B8 m c) (Proc.devRef .tc main_arg5)).trans (arg5_8 m c)
theorem arg5_10 : B10 m c (Proc.devRef .tc main_arg5) = (m ((c.tc : Thread nD τ).loc main_arg5)) :=
  (by keeps : after ops9 (B9 m c) (Proc.devRef .tc main_arg5) = (B9 m c) (Proc.devRef .tc main_arg5)).trans (arg5_9 m c)
theorem arg5_11 : B11 m c (Proc.devRef .tc main_arg5) = (m ((c.tc : Thread nD τ).loc main_arg5)) :=
  (by keeps : after ops10 (B10 m c) (Proc.devRef .tc main_arg5) = (B10 m c) (Proc.devRef .tc main_arg5)).trans (arg5_10 m c)
theorem arg6_1 : B1 m c (Proc.devRef .tc main_arg6) = (m ((c.tc : Thread nD τ).loc main_arg6)) :=
  (by keeps : after ops0 (launchContents m c) (Proc.devRef .tc main_arg6) = (launchContents m c) (Proc.devRef .tc main_arg6)).trans rfl
theorem arg6_2 : B2 m c (Proc.devRef .tc main_arg6) = (m ((c.tc : Thread nD τ).loc main_arg6)) :=
  (by keeps : after ops1 (B1 m c) (Proc.devRef .tc main_arg6) = (B1 m c) (Proc.devRef .tc main_arg6)).trans (arg6_1 m c)
theorem arg6_3 : B3 m c (Proc.devRef .tc main_arg6) = (m ((c.tc : Thread nD τ).loc main_arg6)) :=
  (by keeps : after ops2 (B2 m c) (Proc.devRef .tc main_arg6) = (B2 m c) (Proc.devRef .tc main_arg6)).trans (arg6_2 m c)
theorem arg6_4 : B4 m c (Proc.devRef .tc main_arg6) = (m ((c.tc : Thread nD τ).loc main_arg6)) :=
  (by keeps : after ops3 (B3 m c) (Proc.devRef .tc main_arg6) = (B3 m c) (Proc.devRef .tc main_arg6)).trans (arg6_3 m c)
theorem arg6_5 : B5 m c (Proc.devRef .tc main_arg6) = (m ((c.tc : Thread nD τ).loc main_arg6)) :=
  (by keeps : after ops4 (B4 m c) (Proc.devRef .tc main_arg6) = (B4 m c) (Proc.devRef .tc main_arg6)).trans (arg6_4 m c)
theorem arg6_6 : B6 m c (Proc.devRef .tc main_arg6) = (m ((c.tc : Thread nD τ).loc main_arg6)) :=
  (by keeps : after ops5 (B5 m c) (Proc.devRef .tc main_arg6) = (B5 m c) (Proc.devRef .tc main_arg6)).trans (arg6_5 m c)
theorem arg6_7 : B7 m c (Proc.devRef .tc main_arg6) = (m ((c.tc : Thread nD τ).loc main_arg6)) :=
  (by keeps : after ops6 (B6 m c) (Proc.devRef .tc main_arg6) = (B6 m c) (Proc.devRef .tc main_arg6)).trans (arg6_6 m c)
theorem arg6_8 : B8 m c (Proc.devRef .tc main_arg6) = (m ((c.tc : Thread nD τ).loc main_arg6)) :=
  (by keeps : after ops7 (B7 m c) (Proc.devRef .tc main_arg6) = (B7 m c) (Proc.devRef .tc main_arg6)).trans (arg6_7 m c)
theorem arg6_9 : B9 m c (Proc.devRef .tc main_arg6) = (m ((c.tc : Thread nD τ).loc main_arg6)) :=
  (by keeps : after ops8 (B8 m c) (Proc.devRef .tc main_arg6) = (B8 m c) (Proc.devRef .tc main_arg6)).trans (arg6_8 m c)
theorem arg6_10 : B10 m c (Proc.devRef .tc main_arg6) = (m ((c.tc : Thread nD τ).loc main_arg6)) :=
  (by keeps : after ops9 (B9 m c) (Proc.devRef .tc main_arg6) = (B9 m c) (Proc.devRef .tc main_arg6)).trans (arg6_9 m c)
theorem arg6_11 : B11 m c (Proc.devRef .tc main_arg6) = (m ((c.tc : Thread nD τ).loc main_arg6)) :=
  (by keeps : after ops10 (B10 m c) (Proc.devRef .tc main_arg6) = (B10 m c) (Proc.devRef .tc main_arg6)).trans (arg6_10 m c)
theorem arg7_1 : B1 m c (Proc.devRef .tc main_arg7) = (m ((c.tc : Thread nD τ).loc main_arg7)) :=
  (by keeps : after ops0 (launchContents m c) (Proc.devRef .tc main_arg7) = (launchContents m c) (Proc.devRef .tc main_arg7)).trans rfl
theorem arg7_2 : B2 m c (Proc.devRef .tc main_arg7) = (m ((c.tc : Thread nD τ).loc main_arg7)) :=
  (by keeps : after ops1 (B1 m c) (Proc.devRef .tc main_arg7) = (B1 m c) (Proc.devRef .tc main_arg7)).trans (arg7_1 m c)
theorem arg7_3 : B3 m c (Proc.devRef .tc main_arg7) = (m ((c.tc : Thread nD τ).loc main_arg7)) :=
  (by keeps : after ops2 (B2 m c) (Proc.devRef .tc main_arg7) = (B2 m c) (Proc.devRef .tc main_arg7)).trans (arg7_2 m c)
theorem arg7_4 : B4 m c (Proc.devRef .tc main_arg7) = (m ((c.tc : Thread nD τ).loc main_arg7)) :=
  (by keeps : after ops3 (B3 m c) (Proc.devRef .tc main_arg7) = (B3 m c) (Proc.devRef .tc main_arg7)).trans (arg7_3 m c)
theorem arg7_5 : B5 m c (Proc.devRef .tc main_arg7) = (m ((c.tc : Thread nD τ).loc main_arg7)) :=
  (by keeps : after ops4 (B4 m c) (Proc.devRef .tc main_arg7) = (B4 m c) (Proc.devRef .tc main_arg7)).trans (arg7_4 m c)
theorem arg7_6 : B6 m c (Proc.devRef .tc main_arg7) = (m ((c.tc : Thread nD τ).loc main_arg7)) :=
  (by keeps : after ops5 (B5 m c) (Proc.devRef .tc main_arg7) = (B5 m c) (Proc.devRef .tc main_arg7)).trans (arg7_5 m c)
theorem arg7_7 : B7 m c (Proc.devRef .tc main_arg7) = (m ((c.tc : Thread nD τ).loc main_arg7)) :=
  (by keeps : after ops6 (B6 m c) (Proc.devRef .tc main_arg7) = (B6 m c) (Proc.devRef .tc main_arg7)).trans (arg7_6 m c)
theorem arg7_8 : B8 m c (Proc.devRef .tc main_arg7) = (m ((c.tc : Thread nD τ).loc main_arg7)) :=
  (by keeps : after ops7 (B7 m c) (Proc.devRef .tc main_arg7) = (B7 m c) (Proc.devRef .tc main_arg7)).trans (arg7_7 m c)
theorem arg7_9 : B9 m c (Proc.devRef .tc main_arg7) = (m ((c.tc : Thread nD τ).loc main_arg7)) :=
  (by keeps : after ops8 (B8 m c) (Proc.devRef .tc main_arg7) = (B8 m c) (Proc.devRef .tc main_arg7)).trans (arg7_8 m c)
theorem arg7_10 : B10 m c (Proc.devRef .tc main_arg7) = (m ((c.tc : Thread nD τ).loc main_arg7)) :=
  (by keeps : after ops9 (B9 m c) (Proc.devRef .tc main_arg7) = (B9 m c) (Proc.devRef .tc main_arg7)).trans (arg7_9 m c)
theorem arg7_11 : B11 m c (Proc.devRef .tc main_arg7) = (m ((c.tc : Thread nD τ).loc main_arg7)) :=
  (by keeps : after ops10 (B10 m c) (Proc.devRef .tc main_arg7) = (B10 m c) (Proc.devRef .tc main_arg7)).trans (arg7_10 m c)
theorem arg8_1 : B1 m c (Proc.devRef .tc main_arg8) = (m ((c.tc : Thread nD τ).loc main_arg8)) :=
  (by keeps : after ops0 (launchContents m c) (Proc.devRef .tc main_arg8) = (launchContents m c) (Proc.devRef .tc main_arg8)).trans rfl
theorem arg8_2 : B2 m c (Proc.devRef .tc main_arg8) = (m ((c.tc : Thread nD τ).loc main_arg8)) :=
  (by keeps : after ops1 (B1 m c) (Proc.devRef .tc main_arg8) = (B1 m c) (Proc.devRef .tc main_arg8)).trans (arg8_1 m c)
theorem arg8_3 : B3 m c (Proc.devRef .tc main_arg8) = (m ((c.tc : Thread nD τ).loc main_arg8)) :=
  (by keeps : after ops2 (B2 m c) (Proc.devRef .tc main_arg8) = (B2 m c) (Proc.devRef .tc main_arg8)).trans (arg8_2 m c)
theorem arg8_4 : B4 m c (Proc.devRef .tc main_arg8) = (m ((c.tc : Thread nD τ).loc main_arg8)) :=
  (by keeps : after ops3 (B3 m c) (Proc.devRef .tc main_arg8) = (B3 m c) (Proc.devRef .tc main_arg8)).trans (arg8_3 m c)
theorem arg8_5 : B5 m c (Proc.devRef .tc main_arg8) = (m ((c.tc : Thread nD τ).loc main_arg8)) :=
  (by keeps : after ops4 (B4 m c) (Proc.devRef .tc main_arg8) = (B4 m c) (Proc.devRef .tc main_arg8)).trans (arg8_4 m c)
theorem arg8_6 : B6 m c (Proc.devRef .tc main_arg8) = (m ((c.tc : Thread nD τ).loc main_arg8)) :=
  (by keeps : after ops5 (B5 m c) (Proc.devRef .tc main_arg8) = (B5 m c) (Proc.devRef .tc main_arg8)).trans (arg8_5 m c)
theorem arg8_7 : B7 m c (Proc.devRef .tc main_arg8) = (m ((c.tc : Thread nD τ).loc main_arg8)) :=
  (by keeps : after ops6 (B6 m c) (Proc.devRef .tc main_arg8) = (B6 m c) (Proc.devRef .tc main_arg8)).trans (arg8_6 m c)
theorem arg8_8 : B8 m c (Proc.devRef .tc main_arg8) = (m ((c.tc : Thread nD τ).loc main_arg8)) :=
  (by keeps : after ops7 (B7 m c) (Proc.devRef .tc main_arg8) = (B7 m c) (Proc.devRef .tc main_arg8)).trans (arg8_7 m c)
theorem arg8_9 : B9 m c (Proc.devRef .tc main_arg8) = (m ((c.tc : Thread nD τ).loc main_arg8)) :=
  (by keeps : after ops8 (B8 m c) (Proc.devRef .tc main_arg8) = (B8 m c) (Proc.devRef .tc main_arg8)).trans (arg8_8 m c)
theorem arg8_10 : B10 m c (Proc.devRef .tc main_arg8) = (m ((c.tc : Thread nD τ).loc main_arg8)) :=
  (by keeps : after ops9 (B9 m c) (Proc.devRef .tc main_arg8) = (B9 m c) (Proc.devRef .tc main_arg8)).trans (arg8_9 m c)
theorem arg8_11 : B11 m c (Proc.devRef .tc main_arg8) = (m ((c.tc : Thread nD τ).loc main_arg8)) :=
  (by keeps : after ops10 (B10 m c) (Proc.devRef .tc main_arg8) = (B10 m c) (Proc.devRef .tc main_arg8)).trans (arg8_10 m c)
theorem arg9_1 : B1 m c (Proc.devRef .tc main_arg9) = (m ((c.tc : Thread nD τ).loc main_arg9)) :=
  (by keeps : after ops0 (launchContents m c) (Proc.devRef .tc main_arg9) = (launchContents m c) (Proc.devRef .tc main_arg9)).trans rfl
theorem arg9_2 : B2 m c (Proc.devRef .tc main_arg9) = (m ((c.tc : Thread nD τ).loc main_arg9)) :=
  (by keeps : after ops1 (B1 m c) (Proc.devRef .tc main_arg9) = (B1 m c) (Proc.devRef .tc main_arg9)).trans (arg9_1 m c)
theorem arg9_3 : B3 m c (Proc.devRef .tc main_arg9) = (m ((c.tc : Thread nD τ).loc main_arg9)) :=
  (by keeps : after ops2 (B2 m c) (Proc.devRef .tc main_arg9) = (B2 m c) (Proc.devRef .tc main_arg9)).trans (arg9_2 m c)
theorem arg9_4 : B4 m c (Proc.devRef .tc main_arg9) = (m ((c.tc : Thread nD τ).loc main_arg9)) :=
  (by keeps : after ops3 (B3 m c) (Proc.devRef .tc main_arg9) = (B3 m c) (Proc.devRef .tc main_arg9)).trans (arg9_3 m c)
theorem arg9_5 : B5 m c (Proc.devRef .tc main_arg9) = (m ((c.tc : Thread nD τ).loc main_arg9)) :=
  (by keeps : after ops4 (B4 m c) (Proc.devRef .tc main_arg9) = (B4 m c) (Proc.devRef .tc main_arg9)).trans (arg9_4 m c)
theorem arg9_6 : B6 m c (Proc.devRef .tc main_arg9) = (m ((c.tc : Thread nD τ).loc main_arg9)) :=
  (by keeps : after ops5 (B5 m c) (Proc.devRef .tc main_arg9) = (B5 m c) (Proc.devRef .tc main_arg9)).trans (arg9_5 m c)
theorem arg9_7 : B7 m c (Proc.devRef .tc main_arg9) = (m ((c.tc : Thread nD τ).loc main_arg9)) :=
  (by keeps : after ops6 (B6 m c) (Proc.devRef .tc main_arg9) = (B6 m c) (Proc.devRef .tc main_arg9)).trans (arg9_6 m c)
theorem arg9_8 : B8 m c (Proc.devRef .tc main_arg9) = (m ((c.tc : Thread nD τ).loc main_arg9)) :=
  (by keeps : after ops7 (B7 m c) (Proc.devRef .tc main_arg9) = (B7 m c) (Proc.devRef .tc main_arg9)).trans (arg9_7 m c)
theorem arg9_9 : B9 m c (Proc.devRef .tc main_arg9) = (m ((c.tc : Thread nD τ).loc main_arg9)) :=
  (by keeps : after ops8 (B8 m c) (Proc.devRef .tc main_arg9) = (B8 m c) (Proc.devRef .tc main_arg9)).trans (arg9_8 m c)
theorem arg9_10 : B10 m c (Proc.devRef .tc main_arg9) = (m ((c.tc : Thread nD τ).loc main_arg9)) :=
  (by keeps : after ops9 (B9 m c) (Proc.devRef .tc main_arg9) = (B9 m c) (Proc.devRef .tc main_arg9)).trans (arg9_9 m c)
theorem arg9_11 : B11 m c (Proc.devRef .tc main_arg9) = (m ((c.tc : Thread nD τ).loc main_arg9)) :=
  (by keeps : after ops10 (B10 m c) (Proc.devRef .tc main_arg9) = (B10 m c) (Proc.devRef .tc main_arg9)).trans (arg9_10 m c)
theorem arg10_1 : B1 m c (Proc.devRef .tc main_arg10) = (m ((c.tc : Thread nD τ).loc main_arg10)) :=
  (by keeps : after ops0 (launchContents m c) (Proc.devRef .tc main_arg10) = (launchContents m c) (Proc.devRef .tc main_arg10)).trans rfl
theorem arg10_2 : B2 m c (Proc.devRef .tc main_arg10) = (m ((c.tc : Thread nD τ).loc main_arg10)) :=
  (by keeps : after ops1 (B1 m c) (Proc.devRef .tc main_arg10) = (B1 m c) (Proc.devRef .tc main_arg10)).trans (arg10_1 m c)
theorem arg10_3 : B3 m c (Proc.devRef .tc main_arg10) = (m ((c.tc : Thread nD τ).loc main_arg10)) :=
  (by keeps : after ops2 (B2 m c) (Proc.devRef .tc main_arg10) = (B2 m c) (Proc.devRef .tc main_arg10)).trans (arg10_2 m c)
theorem arg10_4 : B4 m c (Proc.devRef .tc main_arg10) = (m ((c.tc : Thread nD τ).loc main_arg10)) :=
  (by keeps : after ops3 (B3 m c) (Proc.devRef .tc main_arg10) = (B3 m c) (Proc.devRef .tc main_arg10)).trans (arg10_3 m c)
theorem arg10_5 : B5 m c (Proc.devRef .tc main_arg10) = (m ((c.tc : Thread nD τ).loc main_arg10)) :=
  (by keeps : after ops4 (B4 m c) (Proc.devRef .tc main_arg10) = (B4 m c) (Proc.devRef .tc main_arg10)).trans (arg10_4 m c)
theorem arg10_6 : B6 m c (Proc.devRef .tc main_arg10) = (m ((c.tc : Thread nD τ).loc main_arg10)) :=
  (by keeps : after ops5 (B5 m c) (Proc.devRef .tc main_arg10) = (B5 m c) (Proc.devRef .tc main_arg10)).trans (arg10_5 m c)
theorem arg10_7 : B7 m c (Proc.devRef .tc main_arg10) = (m ((c.tc : Thread nD τ).loc main_arg10)) :=
  (by keeps : after ops6 (B6 m c) (Proc.devRef .tc main_arg10) = (B6 m c) (Proc.devRef .tc main_arg10)).trans (arg10_6 m c)
theorem arg10_8 : B8 m c (Proc.devRef .tc main_arg10) = (m ((c.tc : Thread nD τ).loc main_arg10)) :=
  (by keeps : after ops7 (B7 m c) (Proc.devRef .tc main_arg10) = (B7 m c) (Proc.devRef .tc main_arg10)).trans (arg10_7 m c)
theorem arg10_9 : B9 m c (Proc.devRef .tc main_arg10) = (m ((c.tc : Thread nD τ).loc main_arg10)) :=
  (by keeps : after ops8 (B8 m c) (Proc.devRef .tc main_arg10) = (B8 m c) (Proc.devRef .tc main_arg10)).trans (arg10_8 m c)
theorem arg10_10 : B10 m c (Proc.devRef .tc main_arg10) = (m ((c.tc : Thread nD τ).loc main_arg10)) :=
  (by keeps : after ops9 (B9 m c) (Proc.devRef .tc main_arg10) = (B9 m c) (Proc.devRef .tc main_arg10)).trans (arg10_9 m c)
theorem arg10_11 : B11 m c (Proc.devRef .tc main_arg10) = (m ((c.tc : Thread nD τ).loc main_arg10)) :=
  (by keeps : after ops10 (B10 m c) (Proc.devRef .tc main_arg10) = (B10 m c) (Proc.devRef .tc main_arg10)).trans (arg10_10 m c)
theorem arg11_1 : B1 m c (Proc.devRef .tc main_arg11) = (m ((c.tc : Thread nD τ).loc main_arg11)) :=
  (by keeps : after ops0 (launchContents m c) (Proc.devRef .tc main_arg11) = (launchContents m c) (Proc.devRef .tc main_arg11)).trans rfl
theorem arg11_2 : B2 m c (Proc.devRef .tc main_arg11) = (m ((c.tc : Thread nD τ).loc main_arg11)) :=
  (by keeps : after ops1 (B1 m c) (Proc.devRef .tc main_arg11) = (B1 m c) (Proc.devRef .tc main_arg11)).trans (arg11_1 m c)
theorem arg11_3 : B3 m c (Proc.devRef .tc main_arg11) = (m ((c.tc : Thread nD τ).loc main_arg11)) :=
  (by keeps : after ops2 (B2 m c) (Proc.devRef .tc main_arg11) = (B2 m c) (Proc.devRef .tc main_arg11)).trans (arg11_2 m c)
theorem arg11_4 : B4 m c (Proc.devRef .tc main_arg11) = (m ((c.tc : Thread nD τ).loc main_arg11)) :=
  (by keeps : after ops3 (B3 m c) (Proc.devRef .tc main_arg11) = (B3 m c) (Proc.devRef .tc main_arg11)).trans (arg11_3 m c)
theorem arg11_5 : B5 m c (Proc.devRef .tc main_arg11) = (m ((c.tc : Thread nD τ).loc main_arg11)) :=
  (by keeps : after ops4 (B4 m c) (Proc.devRef .tc main_arg11) = (B4 m c) (Proc.devRef .tc main_arg11)).trans (arg11_4 m c)
theorem arg11_6 : B6 m c (Proc.devRef .tc main_arg11) = (m ((c.tc : Thread nD τ).loc main_arg11)) :=
  (by keeps : after ops5 (B5 m c) (Proc.devRef .tc main_arg11) = (B5 m c) (Proc.devRef .tc main_arg11)).trans (arg11_5 m c)
theorem arg11_7 : B7 m c (Proc.devRef .tc main_arg11) = (m ((c.tc : Thread nD τ).loc main_arg11)) :=
  (by keeps : after ops6 (B6 m c) (Proc.devRef .tc main_arg11) = (B6 m c) (Proc.devRef .tc main_arg11)).trans (arg11_6 m c)
theorem arg11_8 : B8 m c (Proc.devRef .tc main_arg11) = (m ((c.tc : Thread nD τ).loc main_arg11)) :=
  (by keeps : after ops7 (B7 m c) (Proc.devRef .tc main_arg11) = (B7 m c) (Proc.devRef .tc main_arg11)).trans (arg11_7 m c)
theorem arg11_9 : B9 m c (Proc.devRef .tc main_arg11) = (m ((c.tc : Thread nD τ).loc main_arg11)) :=
  (by keeps : after ops8 (B8 m c) (Proc.devRef .tc main_arg11) = (B8 m c) (Proc.devRef .tc main_arg11)).trans (arg11_8 m c)
theorem arg11_10 : B10 m c (Proc.devRef .tc main_arg11) = (m ((c.tc : Thread nD τ).loc main_arg11)) :=
  (by keeps : after ops9 (B9 m c) (Proc.devRef .tc main_arg11) = (B9 m c) (Proc.devRef .tc main_arg11)).trans (arg11_9 m c)
theorem arg11_11 : B11 m c (Proc.devRef .tc main_arg11) = (m ((c.tc : Thread nD τ).loc main_arg11)) :=
  (by keeps : after ops10 (B10 m c) (Proc.devRef .tc main_arg11) = (B10 m c) (Proc.devRef .tc main_arg11)).trans (arg11_10 m c)
theorem arg12_1 : B1 m c (Proc.devRef .tc main_arg12) = (m ((c.tc : Thread nD τ).loc main_arg12)) :=
  (by keeps : after ops0 (launchContents m c) (Proc.devRef .tc main_arg12) = (launchContents m c) (Proc.devRef .tc main_arg12)).trans rfl
theorem arg12_2 : B2 m c (Proc.devRef .tc main_arg12) = (m ((c.tc : Thread nD τ).loc main_arg12)) :=
  (by keeps : after ops1 (B1 m c) (Proc.devRef .tc main_arg12) = (B1 m c) (Proc.devRef .tc main_arg12)).trans (arg12_1 m c)
theorem arg12_3 : B3 m c (Proc.devRef .tc main_arg12) = (m ((c.tc : Thread nD τ).loc main_arg12)) :=
  (by keeps : after ops2 (B2 m c) (Proc.devRef .tc main_arg12) = (B2 m c) (Proc.devRef .tc main_arg12)).trans (arg12_2 m c)
theorem arg12_4 : B4 m c (Proc.devRef .tc main_arg12) = (m ((c.tc : Thread nD τ).loc main_arg12)) :=
  (by keeps : after ops3 (B3 m c) (Proc.devRef .tc main_arg12) = (B3 m c) (Proc.devRef .tc main_arg12)).trans (arg12_3 m c)
theorem arg12_5 : B5 m c (Proc.devRef .tc main_arg12) = (m ((c.tc : Thread nD τ).loc main_arg12)) :=
  (by keeps : after ops4 (B4 m c) (Proc.devRef .tc main_arg12) = (B4 m c) (Proc.devRef .tc main_arg12)).trans (arg12_4 m c)
theorem arg12_6 : B6 m c (Proc.devRef .tc main_arg12) = (m ((c.tc : Thread nD τ).loc main_arg12)) :=
  (by keeps : after ops5 (B5 m c) (Proc.devRef .tc main_arg12) = (B5 m c) (Proc.devRef .tc main_arg12)).trans (arg12_5 m c)
theorem arg12_7 : B7 m c (Proc.devRef .tc main_arg12) = (m ((c.tc : Thread nD τ).loc main_arg12)) :=
  (by keeps : after ops6 (B6 m c) (Proc.devRef .tc main_arg12) = (B6 m c) (Proc.devRef .tc main_arg12)).trans (arg12_6 m c)
theorem arg12_8 : B8 m c (Proc.devRef .tc main_arg12) = (m ((c.tc : Thread nD τ).loc main_arg12)) :=
  (by keeps : after ops7 (B7 m c) (Proc.devRef .tc main_arg12) = (B7 m c) (Proc.devRef .tc main_arg12)).trans (arg12_7 m c)
theorem arg12_9 : B9 m c (Proc.devRef .tc main_arg12) = (m ((c.tc : Thread nD τ).loc main_arg12)) :=
  (by keeps : after ops8 (B8 m c) (Proc.devRef .tc main_arg12) = (B8 m c) (Proc.devRef .tc main_arg12)).trans (arg12_8 m c)
theorem arg12_10 : B10 m c (Proc.devRef .tc main_arg12) = (m ((c.tc : Thread nD τ).loc main_arg12)) :=
  (by keeps : after ops9 (B9 m c) (Proc.devRef .tc main_arg12) = (B9 m c) (Proc.devRef .tc main_arg12)).trans (arg12_9 m c)
theorem arg12_11 : B11 m c (Proc.devRef .tc main_arg12) = (m ((c.tc : Thread nD τ).loc main_arg12)) :=
  (by keeps : after ops10 (B10 m c) (Proc.devRef .tc main_arg12) = (B10 m c) (Proc.devRef .tc main_arg12)).trans (arg12_10 m c)
theorem arg13_1 : B1 m c (Proc.devRef .tc main_arg13) = (m ((c.tc : Thread nD τ).loc main_arg13)) :=
  (by keeps : after ops0 (launchContents m c) (Proc.devRef .tc main_arg13) = (launchContents m c) (Proc.devRef .tc main_arg13)).trans rfl
theorem arg13_2 : B2 m c (Proc.devRef .tc main_arg13) = (m ((c.tc : Thread nD τ).loc main_arg13)) :=
  (by keeps : after ops1 (B1 m c) (Proc.devRef .tc main_arg13) = (B1 m c) (Proc.devRef .tc main_arg13)).trans (arg13_1 m c)
theorem arg13_3 : B3 m c (Proc.devRef .tc main_arg13) = (m ((c.tc : Thread nD τ).loc main_arg13)) :=
  (by keeps : after ops2 (B2 m c) (Proc.devRef .tc main_arg13) = (B2 m c) (Proc.devRef .tc main_arg13)).trans (arg13_2 m c)
theorem arg13_4 : B4 m c (Proc.devRef .tc main_arg13) = (m ((c.tc : Thread nD τ).loc main_arg13)) :=
  (by keeps : after ops3 (B3 m c) (Proc.devRef .tc main_arg13) = (B3 m c) (Proc.devRef .tc main_arg13)).trans (arg13_3 m c)
theorem arg13_5 : B5 m c (Proc.devRef .tc main_arg13) = (m ((c.tc : Thread nD τ).loc main_arg13)) :=
  (by keeps : after ops4 (B4 m c) (Proc.devRef .tc main_arg13) = (B4 m c) (Proc.devRef .tc main_arg13)).trans (arg13_4 m c)
theorem arg13_6 : B6 m c (Proc.devRef .tc main_arg13) = (m ((c.tc : Thread nD τ).loc main_arg13)) :=
  (by keeps : after ops5 (B5 m c) (Proc.devRef .tc main_arg13) = (B5 m c) (Proc.devRef .tc main_arg13)).trans (arg13_5 m c)
theorem arg13_7 : B7 m c (Proc.devRef .tc main_arg13) = (m ((c.tc : Thread nD τ).loc main_arg13)) :=
  (by keeps : after ops6 (B6 m c) (Proc.devRef .tc main_arg13) = (B6 m c) (Proc.devRef .tc main_arg13)).trans (arg13_6 m c)
theorem arg13_8 : B8 m c (Proc.devRef .tc main_arg13) = (m ((c.tc : Thread nD τ).loc main_arg13)) :=
  (by keeps : after ops7 (B7 m c) (Proc.devRef .tc main_arg13) = (B7 m c) (Proc.devRef .tc main_arg13)).trans (arg13_7 m c)
theorem arg13_9 : B9 m c (Proc.devRef .tc main_arg13) = (m ((c.tc : Thread nD τ).loc main_arg13)) :=
  (by keeps : after ops8 (B8 m c) (Proc.devRef .tc main_arg13) = (B8 m c) (Proc.devRef .tc main_arg13)).trans (arg13_8 m c)
theorem arg13_10 : B10 m c (Proc.devRef .tc main_arg13) = (m ((c.tc : Thread nD τ).loc main_arg13)) :=
  (by keeps : after ops9 (B9 m c) (Proc.devRef .tc main_arg13) = (B9 m c) (Proc.devRef .tc main_arg13)).trans (arg13_9 m c)
theorem arg13_11 : B11 m c (Proc.devRef .tc main_arg13) = (m ((c.tc : Thread nD τ).loc main_arg13)) :=
  (by keeps : after ops10 (B10 m c) (Proc.devRef .tc main_arg13) = (B10 m c) (Proc.devRef .tc main_arg13)).trans (arg13_10 m c)

end Cert.GNN.RefRun

end
-- ==== Proof.RefRun.lean ====
/-
  The reference program's two results are the generated stage functions of the launch arrays: walking the ten boundaries in order,
  each stretch's output is its stage function of what the earlier stretches left (the stage lemmas), and what a later stretch reads
  from an earlier one is still there because no stretch in between writes it.
-/
import proofs.«174392_j3315714752917_1_alg».proof.Proof.RefKeepArgs

noncomputable section

namespace Cert.GNN.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

theorem v8_1 : B1 m c (Proc.devRef .tc main_v8) = val_main_v8 (F := F) (m ((c.tc : Thread nD τ).loc main_arg0)) (m ((c.tc : Thread nD τ).loc main_arg2)) (m ((c.tc : Thread nD τ).loc main_arg3)) := in_v8 _ _ _ _ rfl rfl rfl
theorem v1_1 : B1 m c (Proc.devRef .tc main_v1) = val_main_v1 (F := F) (m ((c.tc : Thread nD τ).loc main_arg1)) := in_v1 _ _ rfl
theorem v3_1 : B1 m c (Proc.devRef .tc main_v3) = val_main_v3 (F := F) (m ((c.tc : Thread nD τ).loc main_arg1)) := in_v3 _ _ rfl
theorem v1_2 : B2 m c (Proc.devRef .tc main_v1) = val_main_v1 (F := F) (m ((c.tc : Thread nD τ).loc main_arg1)) :=
  (by keeps : after ops1 (B1 m c) (Proc.devRef .tc main_v1) = (B1 m c) (Proc.devRef .tc main_v1)).trans (v1_1 m c)
theorem v3_2 : B2 m c (Proc.devRef .tc main_v3) = val_main_v3 (F := F) (m ((c.tc : Thread nD τ).loc main_arg1)) :=
  (by keeps : after ops1 (B1 m c) (Proc.devRef .tc main_v3) = (B1 m c) (Proc.devRef .tc main_v3)).trans (v3_1 m c)
theorem v1_3 : B3 m c (Proc.devRef .tc main_v1) = val_main_v1 (F := F) (m ((c.tc : Thread nD τ).loc main_arg1)) :=
  (by keeps : after ops2 (B2 m c) (Proc.devRef .tc main_v1) = (B2 m c) (Proc.devRef .tc main_v1)).trans (v1_2 m c)
theorem v3_3 : B3 m c (Proc.devRef .tc main_v3) = val_main_v3 (F := F) (m ((c.tc : Thread nD τ).loc main_arg1)) :=
  (by keeps : after ops2 (B2 m c) (Proc.devRef .tc main_v3) = (B2 m c) (Proc.devRef .tc main_v3)).trans (v3_2 m c)
theorem v1_4 : B4 m c (Proc.devRef .tc main_v1) = val_main_v1 (F := F) (m ((c.tc : Thread nD τ).loc main_arg1)) :=
  (by keeps : after ops3 (B3 m c) (Proc.devRef .tc main_v1) = (B3 m c) (Proc.devRef .tc main_v1)).trans (v1_3 m c)
theorem v3_4 : B4 m c (Proc.devRef .tc main_v3) = val_main_v3 (F := F) (m ((c.tc : Thread nD τ).loc main_arg1)) :=
  (by keeps : after ops3 (B3 m c) (Proc.devRef .tc main_v3) = (B3 m c) (Proc.devRef .tc main_v3)).trans (v3_3 m c)
theorem v1_5 : B5 m c (Proc.devRef .tc main_v1) = val_main_v1 (F := F) (m ((c.tc : Thread nD τ).loc main_arg1)) :=
  (by keeps : after ops4 (B4 m c) (Proc.devRef .tc main_v1) = (B4 m c) (Proc.devRef .tc main_v1)).trans (v1_4 m c)
theorem v3_5 : B5 m c (Proc.devRef .tc main_v3) = val_main_v3 (F := F) (m ((c.tc : Thread nD τ).loc main_arg1)) :=
  (by keeps : after ops4 (B4 m c) (Proc.devRef .tc main_v3) = (B4 m c) (Proc.devRef .tc main_v3)).trans (v3_4 m c)
theorem v1_6 : B6 m c (Proc.devRef .tc main_v1) = val_main_v1 (F := F) (m ((c.tc : Thread nD τ).loc main_arg1)) :=
  (by keeps : after ops5 (B5 m c) (Proc.devRef .tc main_v1) = (B5 m c) (Proc.devRef .tc main_v1)).trans (v1_5 m c)
theorem v3_6 : B6 m c (Proc.devRef .tc main_v3) = val_main_v3 (F := F) (m ((c.tc : Thread nD τ).loc main_arg1)) :=
  (by keeps : after ops5 (B5 m c) (Proc.devRef .tc main_v3) = (B5 m c) (Proc.devRef .tc main_v3)).trans (v3_5 m c)
theorem v1_7 : B7 m c (Proc.devRef .tc main_v1) = val_main_v1 (F := F) (m ((c.tc : Thread nD τ).loc main_arg1)) :=
  (by keeps : after ops6 (B6 m c) (Proc.devRef .tc main_v1) = (B6 m c) (Proc.devRef .tc main_v1)).trans (v1_6 m c)
theorem v3_7 : B7 m c (Proc.devRef .tc main_v3) = val_main_v3 (F := F) (m ((c.tc : Thread nD τ).loc main_arg1)) :=
  (by keeps : after ops6 (B6 m c) (Proc.devRef .tc main_v3) = (B6 m c) (Proc.devRef .tc main_v3)).trans (v3_6 m c)
theorem v1_8 : B8 m c (Proc.devRef .tc main_v1) = val_main_v1 (F := F) (m ((c.tc : Thread nD τ).loc main_arg1)) :=
  (by keeps : after ops7 (B7 m c) (Proc.devRef .tc main_v1) = (B7 m c) (Proc.devRef .tc main_v1)).trans (v1_7 m c)
theorem v3_8 : B8 m c (Proc.devRef .tc main_v3) = val_main_v3 (F := F) (m ((c.tc : Thread nD τ).loc main_arg1)) :=
  (by keeps : after ops7 (B7 m c) (Proc.devRef .tc main_v3) = (B7 m c) (Proc.devRef .tc main_v3)).trans (v3_7 m c)
theorem v17_2 : B2 m c (Proc.devRef .tc main_v17) = val_main_v17 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  msg0 _ _ _ _ _ _ (v8_1 m c) (arg4_1 m c) (arg5_1 m c)
theorem v8_2 : B2 m c (Proc.devRef .tc main_v8) = val_main_v8 (F := F) (m ((c.tc : Thread nD τ).loc main_arg0)) (m ((c.tc : Thread nD τ).loc main_arg2)) (m ((c.tc : Thread nD τ).loc main_arg3)) :=
  (by keeps : after ops1 (B1 m c) (Proc.devRef .tc main_v8) = (B1 m c) (Proc.devRef .tc main_v8)).trans (v8_1 m c)
theorem v8_3 : B3 m c (Proc.devRef .tc main_v8) = val_main_v8 (F := F) (m ((c.tc : Thread nD τ).loc main_arg0)) (m ((c.tc : Thread nD τ).loc main_arg2)) (m ((c.tc : Thread nD τ).loc main_arg3)) :=
  (by keeps : after ops2 (B2 m c) (Proc.devRef .tc main_v8) = (B2 m c) (Proc.devRef .tc main_v8)).trans (v8_2 m c)
theorem v27_3 : B3 m c (Proc.devRef .tc main_v27) = val_main_v27 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  agg0 _ _ _ _ _ _ _ (v17_2 m c) (v1_2 m c) (v3_2 m c)
theorem v74_4 : B4 m c (Proc.devRef .tc main_v74) = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  gru0 _ _ _ _ _ _ _ _ _ _ _ (v27_3 m c) (v8_3 m c) (arg6_3 m c) (arg7_3 m c) (arg8_3 m c) (arg9_3 m c)
theorem v83_5 : B5 m c (Proc.devRef .tc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  msg1 _ _ _ _ _ _ _ _ _ _ _ (v74_4 m c) (arg4_4 m c) (arg5_4 m c)
theorem v74_5 : B5 m c (Proc.devRef .tc main_v74) = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (by keeps : after ops4 (B4 m c) (Proc.devRef .tc main_v74) = (B4 m c) (Proc.devRef .tc main_v74)).trans (v74_4 m c)
theorem v74_6 : B6 m c (Proc.devRef .tc main_v74) = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (by keeps : after ops5 (B5 m c) (Proc.devRef .tc main_v74) = (B5 m c) (Proc.devRef .tc main_v74)).trans (v74_5 m c)
theorem v93_6 : B6 m c (Proc.devRef .tc main_v93) = val_main_v93 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  agg1 _ _ _ _ _ _ _ _ _ _ _ (v83_5 m c) (v1_5 m c) (v3_5 m c)
theorem v140_7 : B7 m c (Proc.devRef .tc main_v140) = val_main_v140 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  gru1 _ _ _ _ _ _ _ _ _ _ _ (v93_6 m c) (v74_6 m c) (arg6_6 m c) (arg7_6 m c) (arg8_6 m c) (arg9_6 m c)
theorem v149_8 : B8 m c (Proc.devRef .tc main_v149) = val_main_v149 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  msg2 _ _ _ _ _ _ _ _ _ _ _ (v140_7 m c) (arg4_7 m c) (arg5_7 m c)
theorem v140_8 : B8 m c (Proc.devRef .tc main_v140) = val_main_v140 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (by keeps : after ops7 (B7 m c) (Proc.devRef .tc main_v140) = (B7 m c) (Proc.devRef .tc main_v140)).trans (v140_7 m c)
theorem v140_9 : B9 m c (Proc.devRef .tc main_v140) = val_main_v140 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (by keeps : after ops8 (B8 m c) (Proc.devRef .tc main_v140) = (B8 m c) (Proc.devRef .tc main_v140)).trans (v140_8 m c)
theorem v159_9 : B9 m c (Proc.devRef .tc main_v159) = val_main_v159 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  agg2 _ _ _ _ _ _ _ _ _ _ _ (v149_8 m c) (v1_8 m c) (v3_8 m c)
theorem v206_10 : B10 m c (Proc.devRef .tc main_v206) = val_main_v206 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  gru2 _ _ _ _ _ _ _ _ _ _ _ (v159_9 m c) (v140_9 m c) (arg6_9 m c) (arg7_9 m c) (arg8_9 m c) (arg9_9 m c)

/-- The whole list run from the launch memory is the eleven stretches run in order. -/
theorem after_ops : after (ops (F := F)) (launchContents m c) = B11 m c := by
  simp only [ops, after_append]

/-- The first result. -/
theorem mu : after (ops (F := F)) (launchContents m c) (Proc.devRef .tc main_v210) = val_main_v210 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [after_ops]
  exact out_mu _ _ _ _ _ _ _ _ _ _ _ _ _ (v206_10 m c) (arg10_10 m c) (arg11_10 m c)

/-- The second result. -/
theorem ls : after (ops (F := F)) (launchContents m c) (Proc.devRef .tc main_v214) = val_main_v214 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) := by
  rw [after_ops]
  exact out_ls _ _ _ _ _ _ _ _ _ _ _ _ _ (v206_10 m c) (arg12_10 m c) (arg13_10 m c)

/-- The arguments end as launched. -/
theorem args : after (ops (F := F)) (launchContents m c) (Proc.devRef .tc main_arg0) = (m ((c.tc : Thread nD τ).loc main_arg0))
    ∧ after (ops (F := F)) (launchContents m c) (Proc.devRef .tc main_arg1) = (m ((c.tc : Thread nD τ).loc main_arg1))
    ∧ after (ops (F := F)) (launchContents m c) (Proc.devRef .tc main_arg2) = (m ((c.tc : Thread nD τ).loc main_arg2))
    ∧ after (ops (F := F)) (launchContents m c) (Proc.devRef .tc main_arg3) = (m ((c.tc : Thread nD τ).loc main_arg3))
    ∧ after (ops (F := F)) (launchContents m c) (Proc.devRef .tc main_arg4) = (m ((c.tc : Thread nD τ).loc main_arg4))
    ∧ after (ops (F := F)) (launchContents m c) (Proc.devRef .tc main_arg5) = (m ((c.tc : Thread nD τ).loc main_arg5))
    ∧ after (ops (F := F)) (launchContents m c) (Proc.devRef .tc main_arg6) = (m ((c.tc : Thread nD τ).loc main_arg6))
    ∧ after (ops (F := F)) (launchContents m c) (Proc.devRef .tc main_arg7) = (m ((c.tc : Thread nD τ).loc main_arg7))
    ∧ after (ops (F := F)) (launchContents m c) (Proc.devRef .tc main_arg8) = (m ((c.tc : Thread nD τ).loc main_arg8))
    ∧ after (ops (F := F)) (launchContents m c) (Proc.devRef .tc main_arg9) = (m ((c.tc : Thread nD τ).loc main_arg9))
    ∧ after (ops (F := F)) (launchContents m c) (Proc.devRef .tc main_arg10) = (m ((c.tc : Thread nD τ).loc main_arg10))
    ∧ after (ops (F := F)) (launchContents m c) (Proc.devRef .tc main_arg11) = (m ((c.tc : Thread nD τ).loc main_arg11))
    ∧ after (ops (F := F)) (launchContents m c) (Proc.devRef .tc main_arg12) = (m ((c.tc : Thread nD τ).loc main_arg12))
    ∧ after (ops (F := F)) (launchContents m c) (Proc.devRef .tc main_arg13) = (m ((c.tc : Thread nD τ).loc main_arg13)) := by
  rw [after_ops]
  exact ⟨arg0_11 m c, arg1_11 m c, arg2_11 m c, arg3_11 m c, arg4_11 m c, arg5_11 m c, arg6_11 m c, arg7_11 m c, arg8_11 m c, arg9_11 m c, arg10_11 m c, arg11_11 m c, arg12_11 m c, arg13_11 m c⟩

end Cert.GNN.RefRun

end
-- ==== Proof.Spec.lean ====
/-
  The graph encoder as mathematics: every layer as a function of whole arrays over the extended reals, entry by entry.

  * an affine layer: out[n, j] = Σ_k x[n, k] · w[k, j] + b[j];
  * the rectifier: max(y, 0), with the zero written as the programs write it;
  * the gated recurrent update of one node's 32 states from the aggregated messages a and the state h:
      gi = a·Wi + bi, gh = h·Wh + bh (both of width 96, read as three column bands of width 32),
      r = σ(gi₀ + gh₀), z = σ(gi₁ + gh₁), n = tanh(gi₂ + r · gh₂), h' = h + ((1 − z) · n + z · h),
    with σ(t) = 1 / (1 + e^(−t));
  * the whole encoder: an input layer, three rounds of (message layer, aggregation over the edges, gated update),
    and two affine heads. The aggregation is a parameter: both programs apply the same gather and scatter-add to the
    messages, and nothing here depends on what it computes.

  Every layer acts on each row independently: an entry of the output at row n reads its row operands at row n only.
  The lemmas named "rows" say so; they are what lets a result computed on a block of rows be read as the rows of the
  result on the whole array.
-/
import Idealize.ShloMosaic.PureOps.Ideal
import Idealize.ShloMosaic.Lib.ValueIdx

noncomputable section

namespace Cert.GNN

open Idealize.ShloMosaic Idealize.ShloMosaic.ValueIdx

variable {N n K M : Nat}

/-- The zero the programs write (the all-zero f32 word). -/
abbrev zeroLit : EReal := Ideal.ofBits .f32 0x00000000#32
/-- The one the programs write (the f32 word of 1.0). -/
abbrev oneLit : EReal := Ideal.ofBits .f32 0x3F800000#32

/-- An affine layer: row n of x against column j of w, plus the bias at j. -/
def affine (x : FVec Ideal ⟨2, ![N, K]⟩ .f32) (w : FVec Ideal ⟨2, ![K, M]⟩ .f32) (b : FVec Ideal ⟨1, ![M]⟩ .f32) :
    FVec Ideal ⟨2, ![N, M]⟩ .f32 :=
  fun i => (∑ k : Fin K, x (ix2 (i 0) k) * w (ix2 k (i 1))) + b (ix1 (i 1))

theorem affine_apply (x : FVec Ideal ⟨2, ![N, K]⟩ .f32) (w : FVec Ideal ⟨2, ![K, M]⟩ .f32) (b : FVec Ideal ⟨1, ![M]⟩ .f32)
    (p : Fin N) (q : Fin M) :
    affine x w b (ix2 p q) = (∑ k : Fin K, x (ix2 p k) * w (ix2 k q)) + b (ix1 q) := rfl

/-- The rectifier, entry by entry. -/
def relu (y : FVec Ideal ⟨2, ![N, M]⟩ .f32) : FVec Ideal ⟨2, ![N, M]⟩ .f32 := fun i => max (y i) zeroLit

/-- A rectified affine layer. -/
def layer (x : FVec Ideal ⟨2, ![N, K]⟩ .f32) (w : FVec Ideal ⟨2, ![K, M]⟩ .f32) (b : FVec Ideal ⟨1, ![M]⟩ .f32) :
    FVec Ideal ⟨2, ![N, M]⟩ .f32 := relu (affine x w b)

theorem layer_apply (x : FVec Ideal ⟨2, ![N, K]⟩ .f32) (w : FVec Ideal ⟨2, ![K, M]⟩ .f32) (b : FVec Ideal ⟨1, ![M]⟩ .f32)
    (p : Fin N) (q : Fin M) :
    layer x w b (ix2 p q) = max ((∑ k : Fin K, x (ix2 p k) * w (ix2 k q)) + b (ix1 q)) zeroLit := rfl

/-- Round r's matrix out of a stack of three: entry (k, j) of slab r. -/
def slab (r : Fin 3) (W : FVec Ideal ⟨3, ![3, K, M]⟩ .f32) : FVec Ideal ⟨2, ![K, M]⟩ .f32 :=
  fun i => W (ix3 r (i 0) (i 1))
/-- Round r's matrix out of a stack of three, transposed: entry (k, j) is entry (j, k) of slab r. -/
def slabT (r : Fin 3) (W : FVec Ideal ⟨3, ![3, M, K]⟩ .f32) : FVec Ideal ⟨2, ![K, M]⟩ .f32 :=
  fun i => W (ix3 r (i 1) (i 0))
/-- Round r's bias out of a stack of three. -/
def row (r : Fin 3) (b : FVec Ideal ⟨2, ![3, M]⟩ .f32) : FVec Ideal ⟨1, ![M]⟩ .f32 :=
  fun i => b (ix2 r (i 0))

theorem slab_apply (r : Fin 3) (W : FVec Ideal ⟨3, ![3, K, M]⟩ .f32) (k : Fin K) (j : Fin M) :
    slab r W (ix2 k j) = W (ix3 r k j) := rfl
theorem slabT_apply (r : Fin 3) (W : FVec Ideal ⟨3, ![3, M, K]⟩ .f32) (k : Fin K) (j : Fin M) :
    slabT r W (ix2 k j) = W (ix3 r j k) := rfl
theorem row_apply (r : Fin 3) (b : FVec Ideal ⟨2, ![3, M]⟩ .f32) (j : Fin M) : row r b (ix1 j) = b (ix2 r j) := rfl

/-- Column c + j of a width-96 row, for a band offset c ∈ {0, 32, 64}. -/
abbrev band (c : Nat) (hc : c + 32 ≤ 96) (j : Fin 32) : Fin 96 := ⟨c + j.val, by have := j.isLt; omega⟩

/-- One entry of the gated update, from the two width-96 pre-activations and the state at that node. -/
def gruCell (gi gh : Fin 96 → EReal) (h : EReal) (j : Fin 32) : EReal :=
  h + ((oneLit - Ideal.logistic (gi (band 32 (by omega) j) + gh (band 32 (by omega) j)))
        * Ideal.tanh (gi (band 64 (by omega) j)
            + Ideal.logistic (gi (band 0 (by omega) j) + gh (band 0 (by omega) j)) * gh (band 64 (by omega) j))
      + Ideal.logistic (gi (band 32 (by omega) j) + gh (band 32 (by omega) j)) * h)

/-- The gated recurrent update of every node. -/
def gru (a h : FVec Ideal ⟨2, ![N, 32]⟩ .f32) (wi wh : FVec Ideal ⟨2, ![32, 96]⟩ .f32) (bi bh : FVec Ideal ⟨1, ![96]⟩ .f32) :
    FVec Ideal ⟨2, ![N, 32]⟩ .f32 :=
  fun i => gruCell (fun c => affine a wi bi (ix2 (i 0) c)) (fun c => affine h wh bh (ix2 (i 0) c)) (h i) (i 1)

theorem gru_apply (a h : FVec Ideal ⟨2, ![N, 32]⟩ .f32) (wi wh : FVec Ideal ⟨2, ![32, 96]⟩ .f32) (bi bh : FVec Ideal ⟨1, ![96]⟩ .f32)
    (p : Fin N) (q : Fin 32) :
    gru a h wi wh bi bh (ix2 p q)
      = gruCell (fun c => affine a wi bi (ix2 p c)) (fun c => affine h wh bh (ix2 p c)) (h (ix2 p q)) q := rfl

/-! ## Rows: a layer's entry at a row reads its row operands at that row only -/

theorem affine_rows (X : FVec Ideal ⟨2, ![N, K]⟩ .f32) (x : FVec Ideal ⟨2, ![n, K]⟩ .f32)
    (w : FVec Ideal ⟨2, ![K, M]⟩ .f32) (b : FVec Ideal ⟨1, ![M]⟩ .f32) (P : Fin N) (p : Fin n)
    (hx : ∀ k : Fin K, x (ix2 p k) = X (ix2 P k)) (q : Fin M) :
    affine x w b (ix2 p q) = affine X w b (ix2 P q) := by
  rw [affine_apply, affine_apply]
  exact congrArg (· + b (ix1 q)) (Finset.sum_congr rfl fun k _ => by rw [hx k])

theorem layer_rows (X : FVec Ideal ⟨2, ![N, K]⟩ .f32) (x : FVec Ideal ⟨2, ![n, K]⟩ .f32)
    (w : FVec Ideal ⟨2, ![K, M]⟩ .f32) (b : FVec Ideal ⟨1, ![M]⟩ .f32) (P : Fin N) (p : Fin n)
    (hx : ∀ k : Fin K, x (ix2 p k) = X (ix2 P k)) (q : Fin M) :
    layer x w b (ix2 p q) = layer X w b (ix2 P q) :=
  congrArg (max · zeroLit) (affine_rows X x w b P p hx q)

theorem gru_rows (A H : FVec Ideal ⟨2, ![N, 32]⟩ .f32) (a h : FVec Ideal ⟨2, ![n, 32]⟩ .f32)
    (wi wh : FVec Ideal ⟨2, ![32, 96]⟩ .f32) (bi bh : FVec Ideal ⟨1, ![96]⟩ .f32) (P : Fin N) (p : Fin n)
    (ha : ∀ k : Fin 32, a (ix2 p k) = A (ix2 P k)) (hh : ∀ k : Fin 32, h (ix2 p k) = H (ix2 P k)) (q : Fin 32) :
    gru a h wi wh bi bh (ix2 p q) = gru A H wi wh bi bh (ix2 P q) := by
  rw [gru_apply, gru_apply, hh q]
  have e1 : (fun c => affine a wi bi (ix2 p c)) = fun c => affine A wi bi (ix2 P c) :=
    funext fun c => affine_rows A a wi bi P p ha c
  have e2 : (fun c => affine h wh bh (ix2 p c)) = fun c => affine H wh bh (ix2 P c) :=
    funext fun c => affine_rows H h wh bh P p hh c
  rw [e1, e2]

/-! ## The encoder -/

section Encoder

variable (agg : FVec Ideal ⟨2, ![N, 32]⟩ .f32 → FVec Ideal ⟨2, ![N, 32]⟩ .f32)
variable (x : FVec Ideal ⟨2, ![N, 7]⟩ .f32) (W_in : FVec Ideal ⟨2, ![7, 32]⟩ .f32) (b_in : FVec Ideal ⟨1, ![32]⟩ .f32)
  (msg_W : FVec Ideal ⟨3, ![3, 32, 32]⟩ .f32) (msg_b : FVec Ideal ⟨2, ![3, 32]⟩ .f32)
  (wih whh : FVec Ideal ⟨3, ![3, 96, 32]⟩ .f32) (bih bhh : FVec Ideal ⟨2, ![3, 96]⟩ .f32)

/-- The node states before any round. -/
def state0 : FVec Ideal ⟨2, ![N, 32]⟩ .f32 := layer x W_in b_in

/-- One round from the states h: messages, their aggregation, the gated update. -/
def round (r : Fin 3) (h : FVec Ideal ⟨2, ![N, 32]⟩ .f32) : FVec Ideal ⟨2, ![N, 32]⟩ .f32 :=
  gru (agg (layer h (slab r msg_W) (row r msg_b))) h (slabT r wih) (slabT r whh) (row r bih) (row r bhh)

/-- The node states after the three rounds. -/
def state3 : FVec Ideal ⟨2, ![N, 32]⟩ .f32 :=
  round agg msg_W msg_b wih whh bih bhh 2
    (round agg msg_W msg_b wih whh bih bhh 1
      (round agg msg_W msg_b wih whh bih bhh 0 (state0 x W_in b_in)))

end Encoder

end Cert.GNN

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Payload.lean ====
/-
  What each kernel body computes on one block of 2000 rows is the matching layer of the specification, applied to the
  block: the input and message bodies are a rectified affine layer, the update body is the gated recurrent update, the
  two head bodies are affine layers. Over the extended reals the roundings to bf16 on the way into a matrix product are
  the identity, a product into a zero accumulator is the sum of products, a bias row broadcast over the block reads the
  bias at the column, and a column band of a width-96 block reads the column shifted by the band's offset.
-/
import proofs.«174392_j3315714752917_1_alg».proof.Proof.Gen.KernelIdeal.Skeleton
import proofs.«174392_j3315714752917_1_alg».proof.Proof.Spec
import proofs.«174392_j3315714752917_1_alg».proof.Proof.LibMatmulNN
import Idealize.ShloMosaic.Lib.Pipeline.Value
import Idealize.ShloMosaic.Lib.ValueLayout

noncomputable section

namespace Cert.GNN.Payload

open Idealize.ShloMosaic Idealize.ShloMosaic.ValueIdx Cert.KernelIdeal Cert.KernelIdeal.Gen Cert.GNN

/-- A bias vector, given a leading unit axis and broadcast over the rows of a block, reads the bias at the column. -/
theorem bias_apply {a b : Nat} (v : FVec Ideal ⟨1, ![b]⟩ .f32) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) := by
  rw [broadcastTo_1b_ab_apply, shapeCast_a_1a_apply]

/-- The same through an identity cast of the bias first. -/
theorem bias_cast_apply {a b : Nat} (v : FVec Ideal ⟨1, ![b]⟩ .f32) (h0 : (⟨1, ![b]⟩ : Shape).ShapeCasts ⟨1, ![b]⟩)
    (h1 : (⟨1, ![b]⟩ : Shape).ShapeCasts ⟨2, ![1, b]⟩) (h2 : (⟨2, ![1, b]⟩ : Shape).Broadcasts ⟨2, ![a, b]⟩) (p : Fin a) (q : Fin b) :
    broadcastTo ⟨2, ![a, b]⟩ (shapeCast ⟨2, ![1, b]⟩ (shapeCast ⟨1, ![b]⟩ v h0) h1) h2 (ix2 p q) = v (ix1 q) := by
  rw [shapeCast_self]
  exact bias_apply v h1 h2 p q

/-- A matrix product into zeros of two operands each passed through an identity cast and a rounding to bf16 (both the
    identity over the extended reals), at entry (p, q): the inner product of row p with column q. -/
theorem matmul_cast_apply {M K N : Nat} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32)
    (hx : (⟨2, ![M, K]⟩ : Shape).ShapeCasts ⟨2, ![M, K]⟩) (hw : (⟨2, ![K, N]⟩ : Shape).ShapeCasts ⟨2, ![K, N]⟩)
    (hb : FTy.bits .bf16 < FTy.bits .f32) (p : Fin M) (q : Fin N) :
    FloatOps.matmul D none (truncf .bf16 (shapeCast ⟨2, ![M, K]⟩ x hx) hb) (truncf .bf16 (shapeCast ⟨2, ![K, N]⟩ w hw) hb)
        (constant (F := Ideal) ⟨2, ![M, N]⟩ .f32 0x00000000#32) (ix2 p q)
      = ∑ k : Fin K, x (ix2 p k) * w (ix2 k q) := by
  rw [shapeCast_self, shapeCast_self]
  exact Cert.MatmulNN.matmul_zero_apply D hD none _ _ p q

/-- The same with the cast on the left operand only. -/
theorem matmul_castL_apply {M K N : Nat} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32)
    (hx : (⟨2, ![M, K]⟩ : Shape).ShapeCasts ⟨2, ![M, K]⟩)
    (hb : FTy.bits .bf16 < FTy.bits .f32) (p : Fin M) (q : Fin N) :
    FloatOps.matmul D none (truncf .bf16 (shapeCast ⟨2, ![M, K]⟩ x hx) hb) (truncf .bf16 w hb)
        (constant (F := Ideal) ⟨2, ![M, N]⟩ .f32 0x00000000#32) (ix2 p q)
      = ∑ k : Fin K, x (ix2 p k) * w (ix2 k q) := by
  rw [shapeCast_self]
  exact Cert.MatmulNN.matmul_zero_apply D hD none _ _ p q

/-- The input body on a block: the rectified affine layer of the block's rows. -/
theorem input_eq (x0 : Vec Ideal S2000x7 .f32) (x1 : Vec Ideal S7x32 .f32) (x2 : Vec Ideal S32 .f32) :
    k0_pay1 x0 x1 x2 = layer x0 x1 x2 := by
  funext j
  obtain ⟨p, q, rfl⟩ : ∃ (p : Fin 2000) (q : Fin 32), j = ix2 p q := ⟨j 0, j 1, eq_ix2 j⟩
  rw [layer_apply]
  have hm := Cert.MatmulNN.matmul_zero_apply dot_S2000x7_S7x32_S2000x32_1_0_0_1_n_n rfl none
    (truncf .bf16 x0 bitsLt_bf16_f32) (truncf .bf16 x1 bitsLt_bf16_f32) p q
  have hb := bias_apply x2 shapeCasts_S32_S1x32 broadcasts_S1x32_S2000x32 p q
  exact congrArg₂ (fun a b => max (a + b) zeroLit) hm hb

/-- A message body on a block (the printed bodies of the three rounds are the same text): the rectified affine layer. -/
theorem message1_eq (x0 : Vec Ideal S2000x32 .f32) (x1 : Vec Ideal S32x32 .f32) (x2 : Vec Ideal S32 .f32) :
    k1_pay1 x0 x1 x2 = layer x0 x1 x2 := by
  funext j
  obtain ⟨p, q, rfl⟩ : ∃ (p : Fin 2000) (q : Fin 32), j = ix2 p q := ⟨j 0, j 1, eq_ix2 j⟩
  rw [layer_apply]
  have hm := matmul_cast_apply dot_S2000x32_S32x32_S2000x32_1_0_0_1_n_n rfl x0 x1
    shapeCasts_S2000x32_S2000x32 shapeCasts_S32x32_S32x32 bitsLt_bf16_f32 p q
  have hb := bias_cast_apply x2 shapeCasts_S32_S32 shapeCasts_S32_S1x32 broadcasts_S1x32_S2000x32 p q
  exact congrArg₂ (fun a b => max (a + b) zeroLit) hm hb

/-- A message body on a block (the printed bodies of the three rounds are the same text): the rectified affine layer. -/
theorem message3_eq (x0 : Vec Ideal S2000x32 .f32) (x1 : Vec Ideal S32x32 .f32) (x2 : Vec Ideal S32 .f32) :
    k3_pay1 x0 x1 x2 = layer x0 x1 x2 := by
  funext j
  obtain ⟨p, q, rfl⟩ : ∃ (p : Fin 2000) (q : Fin 32), j = ix2 p q := ⟨j 0, j 1, eq_ix2 j⟩
  rw [layer_apply]
  have hm := matmul_cast_apply dot_S2000x32_S32x32_S2000x32_1_0_0_1_n_n rfl x0 x1
    shapeCasts_S2000x32_S2000x32 shapeCasts_S32x32_S32x32 bitsLt_bf16_f32 p q
  have hb := bias_cast_apply x2 shapeCasts_S32_S32 shapeCasts_S32_S1x32 broadcasts_S1x32_S2000x32 p q
  exact congrArg₂ (fun a b => max (a + b) zeroLit) hm hb

/-- A message body on a block (the printed bodies of the three rounds are the same text): the rectified affine layer. -/
theorem message5_eq (x0 : Vec Ideal S2000x32 .f32) (x1 : Vec Ideal S32x32 .f32) (x2 : Vec Ideal S32 .f32) :
    k5_pay1 x0 x1 x2 = layer x0 x1 x2 := by
  funext j
  obtain ⟨p, q, rfl⟩ : ∃ (p : Fin 2000) (q : Fin 32), j = ix2 p q := ⟨j 0, j 1, eq_ix2 j⟩
  rw [layer_apply]
  have hm := matmul_cast_apply dot_S2000x32_S32x32_S2000x32_1_0_0_1_n_n rfl x0 x1
    shapeCasts_S2000x32_S2000x32 shapeCasts_S32x32_S32x32 bitsLt_bf16_f32 p q
  have hb := bias_cast_apply x2 shapeCasts_S32_S32 shapeCasts_S32_S1x32 broadcasts_S1x32_S2000x32 p q
  exact congrArg₂ (fun a b => max (a + b) zeroLit) hm hb

/-- A width-96 pre-activation block of the update body, as the body spells it. -/
def preact (x : Vec Ideal S2000x32 .f32) (w : Vec Ideal S32x96 .f32) (b : Vec Ideal S96 .f32) : FVec Ideal S2000x96 .f32 :=
  addf (matmul dot_S2000x32_S32x96_S2000x96_1_0_0_1_n_n none
          (truncf .bf16 (shapeCast S2000x32 x shapeCasts_S2000x32_S2000x32) bitsLt_bf16_f32)
          (truncf .bf16 (shapeCast S32x96 w shapeCasts_S32x96_S32x96) bitsLt_bf16_f32)
          (constant S2000x96 .f32 0x00000000#32))
        (broadcastTo S2000x96 (shapeCast S1x96 (shapeCast S96 b shapeCasts_S96_S96) shapeCasts_S96_S1x96) broadcasts_S1x96_S2000x96)

/-- At row p, column c it is the affine layer's entry. -/
theorem preact_apply (x : Vec Ideal S2000x32 .f32) (w : Vec Ideal S32x96 .f32) (b : Vec Ideal S96 .f32) (p : Fin 2000) (c : Fin 96) :
    preact x w b (ix2 p c) = affine x w b (ix2 p c) := by
  rw [affine_apply]
  have hm := matmul_cast_apply dot_S2000x32_S32x96_S2000x96_1_0_0_1_n_n rfl x w
    shapeCasts_S2000x32_S2000x32 shapeCasts_S32x96_S32x96 bitsLt_bf16_f32 p c
  have hb := bias_cast_apply b shapeCasts_S96_S96 shapeCasts_S96_S1x96 broadcasts_S1x96_S2000x96 p c
  exact congrArg₂ (fun a b => a + b) hm hb

/-- A column band of a width-96 block: column q of the band at offset o is column o + q of the block. -/
theorem band_apply (o : Nat) (ho : o + 32 ≤ 96) (g : FVec Ideal S2000x96 .f32) (h : S2000x96.Slices ![0, o] S2000x32) (p : Fin 2000) (q : Fin 32) :
    extractStridedSlice S2000x32 ![0, o] g h (ix2 p q) = g (ix2 p (band o ho q)) :=
  slice2_axis1_apply o g h p q (band o ho q) rfl

/-- One entry of an update body: the gated cell over the two pre-activation rows and the state entry. -/
theorem gate2_eq (x0 x1 : Vec Ideal S2000x32 .f32) (x2 x3 : Vec Ideal S32x96 .f32) (x4 x5 : Vec Ideal S96 .f32) (p : Fin 2000) (q : Fin 32) :
    k2_pay1 x0 x1 x2 x3 x4 x5 (ix2 p q)
      = gruCell (fun c => affine x0 x2 x4 (ix2 p c)) (fun c => affine x1 x3 x5 (ix2 p c)) (x1 (ix2 p q)) q := by
  show shapeCast S2000x32 x1 shapeCasts_S2000x32_S2000x32 (ix2 p q)
      + ((oneLit - Ideal.logistic (extractStridedSlice S2000x32 ![0, 32] (preact x0 x2 x4) slices_S2000x96_o0_32_S2000x32 (ix2 p q)
                                  + extractStridedSlice S2000x32 ![0, 32] (preact x1 x3 x5) slices_S2000x96_o0_32_S2000x32 (ix2 p q)))
          * Ideal.tanh (extractStridedSlice S2000x32 ![0, 64] (preact x0 x2 x4) slices_S2000x96_o0_64_S2000x32 (ix2 p q)
              + Ideal.logistic (extractStridedSlice S2000x32 ![0, 0] (preact x0 x2 x4) slices_S2000x96_o0_0_S2000x32 (ix2 p q)
                                + extractStridedSlice S2000x32 ![0, 0] (preact x1 x3 x5) slices_S2000x96_o0_0_S2000x32 (ix2 p q))
                * extractStridedSlice S2000x32 ![0, 64] (preact x1 x3 x5) slices_S2000x96_o0_64_S2000x32 (ix2 p q))
        + Ideal.logistic (extractStridedSlice S2000x32 ![0, 32] (preact x0 x2 x4) slices_S2000x96_o0_32_S2000x32 (ix2 p q)
                          + extractStridedSlice S2000x32 ![0, 32] (preact x1 x3 x5) slices_S2000x96_o0_32_S2000x32 (ix2 p q))
          * shapeCast S2000x32 x1 shapeCasts_S2000x32_S2000x32 (ix2 p q)) = _
  rw [shapeCast_self, band_apply 0 (by omega), band_apply 0 (by omega), band_apply 32 (by omega), band_apply 32 (by omega),
    band_apply 64 (by omega), band_apply 64 (by omega)]
  simp only [preact_apply]
  rfl

/-- An update body on a block (the three rounds' bodies are the same text): the gated recurrent update. -/
theorem update2_eq (x0 x1 : Vec Ideal S2000x32 .f32) (x2 x3 : Vec Ideal S32x96 .f32) (x4 x5 : Vec Ideal S96 .f32) :
    k2_pay1 x0 x1 x2 x3 x4 x5 = gru x0 x1 x2 x3 x4 x5 := by
  funext j
  obtain ⟨p, q, rfl⟩ : ∃ (p : Fin 2000) (q : Fin 32), j = ix2 p q := ⟨j 0, j 1, eq_ix2 j⟩
  rw [gru_apply]
  exact gate2_eq x0 x1 x2 x3 x4 x5 p q

/-- One entry of an update body: the gated cell over the two pre-activation rows and the state entry. -/
theorem gate4_eq (x0 x1 : Vec Ideal S2000x32 .f32) (x2 x3 : Vec Ideal S32x96 .f32) (x4 x5 : Vec Ideal S96 .f32) (p : Fin 2000) (q : Fin 32) :
    k4_pay1 x0 x1 x2 x3 x4 x5 (ix2 p q)
      = gruCell (fun c => affine x0 x2 x4 (ix2 p c)) (fun c => affine x1 x3 x5 (ix2 p c)) (x1 (ix2 p q)) q := by
  show shapeCast S2000x32 x1 shapeCasts_S2000x32_S2000x32 (ix2 p q)
      + ((oneLit - Ideal.logistic (extractStridedSlice S2000x32 ![0, 32] (preact x0 x2 x4) slices_S2000x96_o0_32_S2000x32 (ix2 p q)
                                  + extractStridedSlice S2000x32 ![0, 32] (preact x1 x3 x5) slices_S2000x96_o0_32_S2000x32 (ix2 p q)))
          * Ideal.tanh (extractStridedSlice S2000x32 ![0, 64] (preact x0 x2 x4) slices_S2000x96_o0_64_S2000x32 (ix2 p q)
              + Ideal.logistic (extractStridedSlice S2000x32 ![0, 0] (preact x0 x2 x4) slices_S2000x96_o0_0_S2000x32 (ix2 p q)
                                + extractStridedSlice S2000x32 ![0, 0] (preact x1 x3 x5) slices_S2000x96_o0_0_S2000x32 (ix2 p q))
                * extractStridedSlice S2000x32 ![0, 64] (preact x1 x3 x5) slices_S2000x96_o0_64_S2000x32 (ix2 p q))
        + Ideal.logistic (extractStridedSlice S2000x32 ![0, 32] (preact x0 x2 x4) slices_S2000x96_o0_32_S2000x32 (ix2 p q)
                          + extractStridedSlice S2000x32 ![0, 32] (preact x1 x3 x5) slices_S2000x96_o0_32_S2000x32 (ix2 p q))
          * shapeCast S2000x32 x1 shapeCasts_S2000x32_S2000x32 (ix2 p q)) = _
  rw [shapeCast_self, band_apply 0 (by omega), band_apply 0 (by omega), band_apply 32 (by omega), band_apply 32 (by omega),
    band_apply 64 (by omega), band_apply 64 (by omega)]
  simp only [preact_apply]
  rfl

/-- An update body on a block (the three rounds' bodies are the same text): the gated recurrent update. -/
theorem update4_eq (x0 x1 : Vec Ideal S2000x32 .f32) (x2 x3 : Vec Ideal S32x96 .f32) (x4 x5 : Vec Ideal S96 .f32) :
    k4_pay1 x0 x1 x2 x3 x4 x5 = gru x0 x1 x2 x3 x4 x5 := by
  funext j
  obtain ⟨p, q, rfl⟩ : ∃ (p : Fin 2000) (q : Fin 32), j = ix2 p q := ⟨j 0, j 1, eq_ix2 j⟩
  rw [gru_apply]
  exact gate4_eq x0 x1 x2 x3 x4 x5 p q

/-- One entry of an update body: the gated cell over the two pre-activation rows and the state entry. -/
theorem gate6_eq (x0 x1 : Vec Ideal S2000x32 .f32) (x2 x3 : Vec Ideal S32x96 .f32) (x4 x5 : Vec Ideal S96 .f32) (p : Fin 2000) (q : Fin 32) :
    k6_pay1 x0 x1 x2 x3 x4 x5 (ix2 p q)
      = gruCell (fun c => affine x0 x2 x4 (ix2 p c)) (fun c => affine x1 x3 x5 (ix2 p c)) (x1 (ix2 p q)) q := by
  show shapeCast S2000x32 x1 shapeCasts_S2000x32_S2000x32 (ix2 p q)
      + ((oneLit - Ideal.logistic (extractStridedSlice S2000x32 ![0, 32] (preact x0 x2 x4) slices_S2000x96_o0_32_S2000x32 (ix2 p q)
                                  + extractStridedSlice S2000x32 ![0, 32] (preact x1 x3 x5) slices_S2000x96_o0_32_S2000x32 (ix2 p q)))
          * Ideal.tanh (extractStridedSlice S2000x32 ![0, 64] (preact x0 x2 x4) slices_S2000x96_o0_64_S2000x32 (ix2 p q)
              + Ideal.logistic (extractStridedSlice S2000x32 ![0, 0] (preact x0 x2 x4) slices_S2000x96_o0_0_S2000x32 (ix2 p q)
                                + extractStridedSlice S2000x32 ![0, 0] (preact x1 x3 x5) slices_S2000x96_o0_0_S2000x32 (ix2 p q))
                * extractStridedSlice S2000x32 ![0, 64] (preact x1 x3 x5) slices_S2000x96_o0_64_S2000x32 (ix2 p q))
        + Ideal.logistic (extractStridedSlice S2000x32 ![0, 32] (preact x0 x2 x4) slices_S2000x96_o0_32_S2000x32 (ix2 p q)
                          + extractStridedSlice S2000x32 ![0, 32] (preact x1 x3 x5) slices_S2000x96_o0_32_S2000x32 (ix2 p q))
          * shapeCast S2000x32 x1 shapeCasts_S2000x32_S2000x32 (ix2 p q)) = _
  rw [shapeCast_self, band_apply 0 (by omega), band_apply 0 (by omega), band_apply 32 (by omega), band_apply 32 (by omega),
    band_apply 64 (by omega), band_apply 64 (by omega)]
  simp only [preact_apply]
  rfl

/-- An update body on a block (the three rounds' bodies are the same text): the gated recurrent update. -/
theorem update6_eq (x0 x1 : Vec Ideal S2000x32 .f32) (x2 x3 : Vec Ideal S32x96 .f32) (x4 x5 : Vec Ideal S96 .f32) :
    k6_pay1 x0 x1 x2 x3 x4 x5 = gru x0 x1 x2 x3 x4 x5 := by
  funext j
  obtain ⟨p, q, rfl⟩ : ∃ (p : Fin 2000) (q : Fin 32), j = ix2 p q := ⟨j 0, j 1, eq_ix2 j⟩
  rw [gru_apply]
  exact gate6_eq x0 x1 x2 x3 x4 x5 p q

/-- A head body on a block: the affine layer. -/
theorem head2_eq (x0 : Vec Ideal S2000x32 .f32) (x1 : Vec Ideal S32x16 .f32) (x2 : Vec Ideal S16 .f32) :
    k7_pay2 x0 x1 x2 = affine x0 x1 x2 := by
  funext j
  obtain ⟨p, q, rfl⟩ : ∃ (p : Fin 2000) (q : Fin 16), j = ix2 p q := ⟨j 0, j 1, eq_ix2 j⟩
  rw [affine_apply]
  have hm := matmul_castL_apply dot_S2000x32_S32x16_S2000x16_1_0_0_1_n_n rfl x0 x1
    shapeCasts_S2000x32_S2000x32 bitsLt_bf16_f32 p q
  have hb := bias_apply x2 shapeCasts_S16_S1x16 broadcasts_S1x16_S2000x16 p q
  exact congrArg₂ (fun a b => a + b) hm hb

/-- A head body on a block: the affine layer. -/
theorem head3_eq (x0 : Vec Ideal S2000x32 .f32) (x1 : Vec Ideal S32x16 .f32) (x2 : Vec Ideal S16 .f32) :
    k7_pay3 x0 x1 x2 = affine x0 x1 x2 := by
  funext j
  obtain ⟨p, q, rfl⟩ : ∃ (p : Fin 2000) (q : Fin 16), j = ix2 p q := ⟨j 0, j 1, eq_ix2 j⟩
  rw [affine_apply]
  have hm := matmul_castL_apply dot_S2000x32_S32x16_S2000x16_1_0_0_1_n_n rfl x0 x1
    shapeCasts_S2000x32_S2000x32 bitsLt_bf16_f32 p q
  have hb := bias_apply x2 shapeCasts_S16_S1x16 broadcasts_S1x16_S2000x16 p q
  exact congrArg₂ (fun a b => a + b) hm hb

end Cert.GNN.Payload

end
-- ==== Proof.Region0.lean ====
/-
  Region 0, the input layer: after its fifty grid points the output array is the rectified affine layer of the three operand arrays as
  the region finds them. Point t computes the layer on rows 2000·t … 2000·t + 1999 of the row operand (the weight and
  bias blocks are the whole arrays at every point) and writes those rows back; a layer's row depends on that row of the
  operand only, so what is written is the same rows of the layer on the whole array, and the fifty blocks cover it.
-/
import proofs.«174392_j3315714752917_1_alg».proof.Proof.Gen.KernelIdeal.Frame
import proofs.«174392_j3315714752917_1_alg».proof.Proof.Payload
import Idealize.ShloMosaic.Lib.Pipeline.Value

noncomputable section

namespace Cert.GNN.Region0

open Cert.KernelIdeal Cert.KernelIdeal.Gen Idealize.ShloMosaic Idealize.ShloMosaic.TcCoe Idealize.ShloMosaic.ValueIdx Idealize.SL.Sem Cert.GNN
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row windows sit at block t, the weight and bias windows at block 0. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 1) = 0 ∧ win0_3.index t (1 : Fin 2) = 0 ∧ win0_3.index t (0 : Fin 2) ≤ 49 :=
  (by decide +kernel : ∀ t : Fin grid0.N, _)

/-- Every row block is some point's. -/
theorem idx_onto : ∀ q0 : Fin 50, ∃ t : Fin cfg0.N, win0_3.index t = ![q0.val, 0] :=
  (by decide +kernel : ∀ q0 : Fin 50, ∃ t : Fin grid0.N, win0_3.index t = ![q0.val, 0])

/-- What point t writes back is block t of the layer on the whole arrays. -/
theorem flushed_eq (c : Dev nD) (t : Fin cfg0.N) :
    (dat0 V c).flushed 3 t
      = ((cfg0.win 3).blk t).view.read (Elt Ideal) (layer (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S2000x7) hz2, View.ld_unit_zero (S := S7x32) hz2, View.ld_unit_zero (S := S32) hz1]
  rw [Payload.input_eq]
  obtain ⟨e0, e1, e2, e3, e4, e5, e6⟩ := idx_facts t
  have hw : iblk0 V c 1 t = V c main_arg2 := by
    funext y
    show V c main_arg2 (((cfg0.win 1).blk t).view.emb y) = V c main_arg2 y
    refine congrArg _ (funext fun a => Fin.ext ?_)
    match a with
    | ⟨0, _⟩ => show win0_1.index t (0 : Fin 2) * 7 + 1 * (y 0).val = (y 0).val; omega
    | ⟨1, _⟩ => show win0_1.index t (1 : Fin 2) * 32 + 1 * (y 1).val = (y 1).val; omega
  have hb : iblk0 V c 2 t = V c main_arg3 := by
    funext y
    show V c main_arg3 (((cfg0.win 2).blk t).view.emb y) = V c main_arg3 y
    refine congrArg _ (funext fun a => Fin.ext ?_)
    match a with
    | ⟨0, _⟩ => show win0_2.index t (0 : Fin 1) * 32 + 1 * (y 0).val = (y 0).val; omega
  rw [hw, hb]
  funext y
  obtain ⟨p, q, rfl⟩ : ∃ (p : Fin 2000) (q : Fin 32), y = ix2 p q := ⟨y 0, y 1, eq_ix2 y⟩
  have hp : p.val < 2000 := p.isLt
  have hP : win0_3.index t (0 : Fin 2) * 2000 + p.val < 100000 := by omega
  have hemb : ((cfg0.win 3).blk t).view.emb (ix2 p q) = ix2 (⟨win0_3.index t (0 : Fin 2) * 2000 + p.val, hP⟩ : Fin 100000) q := by
    funext a; apply Fin.ext
    match a with
    | ⟨0, _⟩ => show win0_3.index t (0 : Fin 2) * 2000 + 1 * p.val = win0_3.index t (0 : Fin 2) * 2000 + p.val; omega
    | ⟨1, _⟩ => show win0_3.index t (1 : Fin 2) * 32 + 1 * q.val = q.val; omega
  show layer (iblk0 V c 0 t) (V c main_arg2) (V c main_arg3) (ix2 p q)
    = layer (V c main_arg0) (V c main_arg2) (V c main_arg3) (((cfg0.win 3).blk t).view.emb (ix2 p q))
  rw [hemb]
  refine layer_rows (V c main_arg0) (iblk0 V c 0 t) (V c main_arg2) (V c main_arg3) _ p (fun k => ?_) q
  show V c main_arg0 (((cfg0.win 0).blk t).view.emb (ix2 p k)) = _
  refine congrArg _ (funext fun a => Fin.ext ?_)
  match a with
  | ⟨0, _⟩ => show win0_0.index t (0 : Fin 2) * 2000 + 1 * p.val = win0_3.index t (0 : Fin 2) * 2000 + p.val; omega
  | ⟨1, _⟩ => show win0_0.index t (1 : Fin 2) * 7 + 1 * k.val = k.val; omega

/-- An index of the output array is in point t's block iff each coordinate is in the block's range on its axis. -/
theorem mem_blk (t : Fin cfg0.N) (i : S100000x32.Idx) :
    i ∈ ((cfg0.win 3).blk t).view.set ↔ ∀ a : Fin 2, win0_3.index t a * S2000x32.size a ≤ (i a).val ∧ (i a).val < win0_3.index t a * S2000x32.size a + S2000x32.size a := by
  show i ∈ ((View.whole main_v4).slice (win0_3.rect t)).set ↔ _
  rw [View.set_slice_whole, Rect.mem_set_unit]
  exact Iff.rfl

/-- The blocks cover the output array: row r is in block r / 2000. -/
theorem cover (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 32 ≤ (i 1).val ∧ (i 1).val < win0_3.index t (1 : Fin 2) * 32 + 32; omega

/-- The output array after the region. -/
theorem final (c : Dev nD) :
    (dat0 V c).arrAt 3 cfg0.N = layer (V c main_arg0) (V c main_arg2) (V c main_arg3) :=
  (dat0 V c).arrAt_eq_of_cover 3 _ (fun t _ => flushed_eq V c t) cover

end Cert.GNN.Region0

end
-- ==== Proof.Walk.lean ====
/-
  Buffers that live across segments of the kernel program. A stretch of host operations leaves alone every buffer none
  of its operations writes; a grid region leaves alone every buffer that is not one of its arrays, and leaves each of its
  input arrays as it found it. So a buffer read at a late segment boundary still holds what it held at the boundary where
  it was last written: the fourteen arguments hold the launch memory everywhere, the edge lists and the transposed
  weight stacks hold what the first host stretches computed, and each round's state array holds what its region left.
  This module has the one step over a host stretch; the modules beside it state those equalities, one per buffer and
  boundary where the value proof reads it, each by stepping back one segment at a time to the buffer's writer.
-/
import proofs.«174392_j3315714752917_1_alg».proof.Proof.Gen.KernelIdeal.Frame

noncomputable section

namespace Cert.GNN.Walk

open Cert.KernelIdeal Cert.KernelIdeal.Gen Idealize.ShloMosaic Idealize.ShloMosaic.TcCoe Idealize.SL.Sem

/-- One step back over a stretch of host operations none of which writes the buffer. -/
macro "host_step" : tactic =>
  `(tactic| (refine (StableHlo.after_of_forall_not_mem _ _ (List.forall_iff_forall_mem.mp (by
      simp only [Cert.KernelIdeal.Gen.hostOps0, Cert.KernelIdeal.Gen.hostOps1, Cert.KernelIdeal.Gen.hostOps2,
        Cert.KernelIdeal.Gen.hostOps3, Cert.KernelIdeal.Gen.hostOps4, Cert.KernelIdeal.Gen.hostOps5,
        Cert.KernelIdeal.Gen.hostOps6, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans ?_))

variable {F : FTy → Type} [FloatOps F]
variable (m : (ℓ : Loc nD τ sig) → Buf (Elt F) ℓ) (ρ : Dev nD → PrngReg) (c : Dev nD)

end Cert.GNN.Walk

end
-- ==== Proof.WalkArgs.lean ====
/-
  The arguments hold the launch memory at every segment boundary where the value proof reads them: no host
  operation writes an argument and no region writes one back.
-/
import proofs.«174392_j3315714752917_1_alg».proof.Proof.Walk

set_option Elab.async false

noncomputable section

namespace Cert.GNN.Walk

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem arg0_1 : W1 m ρ c (Proc.devRef .tc main_arg0) = m ((c : Thread nD τ).loc main_arg0) := by
  host_step
  exact rfl

theorem arg2_1 : W1 m ρ c (Proc.devRef .tc main_arg2) = m ((c : Thread nD τ).loc main_arg2) := by
  host_step
  exact rfl

theorem arg3_1 : W1 m ρ c (Proc.devRef .tc main_arg3) = m ((c : Thread nD τ).loc main_arg3) := by
  host_step
  exact rfl

theorem arg4_2 : W2 m ρ c (Proc.devRef .tc main_arg4) = m ((c : Thread nD τ).loc main_arg4) := by
  refine (W2_of_ne m ρ c _ (by decide)).trans ?_
  host_step
  exact rfl

theorem arg5_2 : W2 m ρ c (Proc.devRef .tc main_arg5) = m ((c : Thread nD τ).loc main_arg5) := by
  refine (W2_of_ne m ρ c _ (by decide)).trans ?_
  host_step
  exact rfl

theorem arg6_2 : W2 m ρ c (Proc.devRef .tc main_arg6) = m ((c : Thread nD τ).loc main_arg6) := by
  refine (W2_of_ne m ρ c _ (by decide)).trans ?_
  host_step
  exact rfl

theorem arg7_2 : W2 m ρ c (Proc.devRef .tc main_arg7) = m ((c : Thread nD τ).loc main_arg7) := by
  refine (W2_of_ne m ρ c _ (by decide)).trans ?_
  host_step
  exact rfl

theorem arg4_6 : W6 m ρ c (Proc.devRef .tc main_arg4) = m ((c : Thread nD τ).loc main_arg4) := by
  refine (W6_of_ne m ρ c _ (by decide)).trans ?_
  host_step
  refine (W4_of_ne m ρ c _ (by decide)).trans ?_
  host_step
  exact arg4_2 m ρ c

theorem arg4_10 : W10 m ρ c (Proc.devRef .tc main_arg4) = m ((c : Thread nD τ).loc main_arg4) := by
  refine (W10_of_ne m ρ c _ (by decide)).trans ?_
  host_step
  refine (W8_of_ne m ρ c _ (by decide)).trans ?_
  host_step
  exact arg4_6 m ρ c

theorem arg5_6 : W6 m ρ c (Proc.devRef .tc main_arg5) = m ((c : Thread nD τ).loc main_arg5) := by
  refine (W6_of_ne m ρ c _ (by decide)).trans ?_
  host_step
  refine (W4_of_ne m ρ c _ (by decide)).trans ?_
  host_step
  exact arg5_2 m ρ c

theorem arg5_10 : W10 m ρ c (Proc.devRef .tc main_arg5) = m ((c : Thread nD τ).loc main_arg5) := by
  refine (W10_of_ne m ρ c _ (by decide)).trans ?_
  host_step
  refine (W8_of_ne m ρ c _ (by decide)).trans ?_
  host_step
  exact arg5_6 m ρ c

theorem arg8_4 : W4 m ρ c (Proc.devRef .tc main_arg8) = m ((c : Thread nD τ).loc main_arg8) := by
  refine (W4_of_ne m ρ c _ (by decide)).trans ?_
  host_step
  refine (W2_of_ne m ρ c _ (by decide)).trans ?_
  host_step
  exact rfl

theorem arg8_8 : W8 m ρ c (Proc.devRef .tc main_arg8) = m ((c : Thread nD τ).loc main_arg8) := by
  refine (W8_of_ne m ρ c _ (by decide)).trans ?_
  host_step
  refine (W6_of_ne m ρ c _ (by decide)).trans ?_
  host_step
  exact arg8_4 m ρ c

theorem arg8_12 : W12 m ρ c (Proc.devRef .tc main_arg8) = m ((c : Thread nD τ).loc main_arg8) := by
  refine (W12_of_ne m ρ c _ (by decide)).trans ?_
  host_step
  refine (W10_of_ne m ρ c _ (by decide)).trans ?_
  host_step
  exact arg8_8 m ρ c

theorem arg9_4 : W4 m ρ c (Proc.devRef .tc main_arg9) = m ((c : Thread nD τ).loc main_arg9) := by
  refine (W4_of_ne m ρ c _ (by decide)).trans ?_
  host_step
  refine (W2_of_ne m ρ c _ (by decide)).trans ?_
  host_step
  exact rfl

theorem arg9_8 : W8 m ρ c (Proc.devRef .tc main_arg9) = m ((c : Thread nD τ).loc main_arg9) := by
  refine (W8_of_ne m ρ c _ (by decide)).trans ?_
  host_step
  refine (W6_of_ne m ρ c _ (by decide)).trans ?_
  host_step
  exact arg9_4 m ρ c

theorem arg9_12 : W12 m ρ c (Proc.devRef .tc main_arg9) = m ((c : Thread nD τ).loc main_arg9) := by
  refine (W12_of_ne m ρ c _ (by decide)).trans ?_
  host_step
  refine (W10_of_ne m ρ c _ (by decide)).trans ?_
  host_step
  exact arg9_8 m ρ c

theorem arg10_14 : W14 m ρ c (Proc.devRef .tc main_arg10) = m ((c : Thread nD τ).loc main_arg10) :=
  ((W15_arr m ρ c 1).trans (((dat7 (V14 m ρ) c).arrAt_in 1 rfl _).trans (A_eq7 (V14 m ρ) c 1))).symm.trans (W15_main_arg10 m ρ c)

theorem arg11_14 : W14 m ρ c (Proc.devRef .tc main_arg11) = m ((c : Thread nD τ).loc main_arg11) :=
  ((W15_arr m ρ c 2).trans (((dat7 (V14 m ρ) c).arrAt_in 2 rfl _).trans (A_eq7 (V14 m ρ) c 2))).symm.trans (W15_main_arg11 m ρ c)

theorem arg12_14 : W14 m ρ c (Proc.devRef .tc main_arg12) = m ((c : Thread nD τ).loc main_arg12) :=
  ((W15_arr m ρ c 3).trans (((dat7 (V14 m ρ) c).arrAt_in 3 rfl _).trans (A_eq7 (V14 m ρ) c 3))).symm.trans (W15_main_arg12 m ρ c)

theorem arg13_14 : W14 m ρ c (Proc.devRef .tc main_arg13) = m ((c : Thread nD τ).loc main_arg13) :=
  ((W15_arr m ρ c 4).trans (((dat7 (V14 m ρ) c).arrAt_in 4 rfl _).trans (A_eq7 (V14 m ρ) c 4))).symm.trans (W15_main_arg13 m ρ c)

end Cert.GNN.Walk

end
-- ==== Proof.KStage0.lean ====
/-
  The input region of the kernel program: its three operands are the arguments x, W_in and b_in as launched, so it
  leaves the specification's initial states.
-/
import proofs.«174392_j3315714752917_1_alg».proof.Proof.Region0
import proofs.«174392_j3315714752917_1_alg».proof.Proof.WalkArgs

noncomputable section

namespace Cert.GNN.KStage0

open Cert.KernelIdeal Cert.KernelIdeal.Gen Idealize.ShloMosaic Idealize.ShloMosaic.TcCoe Idealize.SL.Sem Cert.GNN

variable (m : (ℓ : Loc nD τ sig) → Buf (Elt Ideal) ℓ) (ρ : Dev nD → PrngReg) (c : Dev nD)

theorem state0 : W2 m ρ c (Proc.devRef .tc main_v4) = Cert.GNN.state0 (m ((c : Thread nD τ).loc main_arg0)) (m ((c : Thread nD τ).loc main_arg2)) (m ((c : Thread nD τ).loc main_arg3)) := by
  refine (W2_arr m ρ c 3).trans ((Region0.final (V1 m ρ) c).trans ?_)
  show layer (W1 m ρ c (Proc.devRef .tc main_arg0)) (W1 m ρ c (Proc.devRef .tc main_arg2)) (W1 m ρ c (Proc.devRef .tc main_arg3)) = _
  rw [Walk.arg0_1 m ρ c, Walk.arg2_1 m ρ c, Walk.arg3_1 m ρ c]
  rfl

end Cert.GNN.KStage0

end
-- ==== Proof.Region1.lean ====
/-
  Region 1, the first round's message layer: after its fifty grid points the output array is the rectified affine layer of the three operand arrays as
  the region finds them. Point t computes the layer on rows 2000·t … 2000·t + 1999 of the row operand (the weight and
  bias blocks are the whole arrays at every point) and writes those rows back; a layer's row depends on that row of the
  operand only, so what is written is the same rows of the layer on the whole array, and the fifty blocks cover it.
-/
import proofs.«174392_j3315714752917_1_alg».proof.Proof.Gen.KernelIdeal.Frame
import proofs.«174392_j3315714752917_1_alg».proof.Proof.Payload
import Idealize.ShloMosaic.Lib.Pipeline.Value

noncomputable section

namespace Cert.GNN.Region1

open Cert.KernelIdeal Cert.KernelIdeal.Gen Idealize.ShloMosaic Idealize.ShloMosaic.TcCoe Idealize.ShloMosaic.ValueIdx Idealize.SL.Sem Cert.GNN
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row windows sit at block t, the weight and bias windows at block 0. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 1) = 0 ∧ win1_3.index t (1 : Fin 2) = 0 ∧ win1_3.index t (0 : Fin 2) ≤ 49 :=
  (by decide +kernel : ∀ t : Fin grid1.N, _)

/-- Every row block is some point's. -/
theorem idx_onto : ∀ q0 : Fin 50, ∃ t : Fin cfg1.N, win1_3.index t = ![q0.val, 0] :=
  (by decide +kernel : ∀ q0 : Fin 50, ∃ t : Fin grid1.N, win1_3.index t = ![q0.val, 0])

/-- What point t writes back is block t of the layer on the whole arrays. -/
theorem flushed_eq (c : Dev nD) (t : Fin cfg1.N) :
    (dat1 V c).flushed 3 t
      = ((cfg1.win 3).blk t).view.read (Elt Ideal) (layer (V c main_v4) (V c main_v8) (V c main_v10)) := by
  show (cfg1.win 3).cut (grid1.coords t) ((dat1 V c).after 3 t) = _
  rw [after1_3]
  unfold out1_3
  rw [View.canon_unit_zero hz2]
  simp only [View.ld_unit_zero (S := S2000x32) hz2, View.ld_unit_zero (S := S32x32) hz2, View.ld_unit_zero (S := S32) hz1]
  rw [Payload.message1_eq]
  obtain ⟨e0, e1, e2, e3, e4, e5, e6⟩ := idx_facts t
  have hw : iblk1 V c 1 t = V c main_v8 := by
    funext y
    show V c main_v8 (((cfg1.win 1).blk t).view.emb y) = V c main_v8 y
    refine congrArg _ (funext fun a => Fin.ext ?_)
    match a with
    | ⟨0, _⟩ => show win1_1.index t (0 : Fin 2) * 32 + 1 * (y 0).val = (y 0).val; omega
    | ⟨1, _⟩ => show win1_1.index t (1 : Fin 2) * 32 + 1 * (y 1).val = (y 1).val; omega
  have hb : iblk1 V c 2 t = V c main_v10 := by
    funext y
    show V c main_v10 (((cfg1.win 2).blk t).view.emb y) = V c main_v10 y
    refine congrArg _ (funext fun a => Fin.ext ?_)
    match a with
    | ⟨0, _⟩ => show win1_2.index t (0 : Fin 1) * 32 + 1 * (y 0).val = (y 0).val; omega
  rw [hw, hb]
  funext y
  obtain ⟨p, q, rfl⟩ : ∃ (p : Fin 2000) (q : Fin 32), y = ix2 p q := ⟨y 0, y 1, eq_ix2 y⟩
  have hp : p.val < 2000 := p.isLt
  have hP : win1_3.index t (0 : Fin 2) * 2000 + p.val < 100000 := by omega
  have hemb : ((cfg1.win 3).blk t).view.emb (ix2 p q) = ix2 (⟨win1_3.index t (0 : Fin 2) * 2000 + p.val, hP⟩ : Fin 100000) q := by
    funext a; apply Fin.ext
    match a with
    | ⟨0, _⟩ => show win1_3.index t (0 : Fin 2) * 2000 + 1 * p.val = win1_3.index t (0 : Fin 2) * 2000 + p.val; omega
    | ⟨1, _⟩ => show win1_3.index t (1 : Fin 2) * 32 + 1 * q.val = q.val; omega
  show layer (iblk1 V c 0 t) (V c main_v8) (V c main_v10) (ix2 p q)
    = layer (V c main_v4) (V c main_v8) (V c main_v10) (((cfg1.win 3).blk t).view.emb (ix2 p q))
  rw [hemb]
  refine layer_rows (V c main_v4) (iblk1 V c 0 t) (V c main_v8) (V c main_v10) _ p (fun k => ?_) q
  show V c main_v4 (((cfg1.win 0).blk t).view.emb (ix2 p k)) = _
  refine congrArg _ (funext fun a => Fin.ext ?_)
  match a with
  | ⟨0, _⟩ => show win1_0.index t (0 : Fin 2) * 2000 + 1 * p.val = win1_3.index t (0 : Fin 2) * 2000 + p.val; omega
  | ⟨1, _⟩ => show win1_0.index t (1 : Fin 2) * 32 + 1 * k.val = k.val; omega

/-- An index of the output array is in point t's block iff each coordinate is in the block's range on its axis. -/
theorem mem_blk (t : Fin cfg1.N) (i : S100000x32.Idx) :
    i ∈ ((cfg1.win 3).blk t).view.set ↔ ∀ a : Fin 2, win1_3.index t a * S2000x32.size a ≤ (i a).val ∧ (i a).val < win1_3.index t a * S2000x32.size a + S2000x32.size a := by
  show i ∈ ((View.whole main_v11).slice (win1_3.rect t)).set ↔ _
  rw [View.set_slice_whole, Rect.mem_set_unit]
  exact Iff.rfl

/-- The blocks cover the output array: row r is in block r / 2000. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 32 ≤ (i 1).val ∧ (i 1).val < win1_3.index t (1 : Fin 2) * 32 + 32; omega

/-- The output array after the region. -/
theorem final (c : Dev nD) :
    (dat1 V c).arrAt 3 cfg1.N = layer (V c main_v4) (V c main_v8) (V c main_v10) :=
  (dat1 V c).arrAt_eq_of_cover 3 _ (fun t _ => flushed_eq V c t) cover

end Cert.GNN.Region1

end
-- ==== Proof.Region2.lean ====
/-
  Region 2, the first round's gated update: after its fifty grid points the output array is the gated recurrent update of the six operand arrays as the
  region finds them. Point t computes the update on rows 2000·t … 2000·t + 1999 of the aggregated messages and of the
  states (the two weight blocks and the two bias blocks are the whole arrays at every point) and writes those rows back;
  the update of a node reads that node's rows only, so what is written is the same rows of the update on the whole
  arrays, and the fifty blocks cover the output.
-/
import proofs.«174392_j3315714752917_1_alg».proof.Proof.Gen.KernelIdeal.Frame
import proofs.«174392_j3315714752917_1_alg».proof.Proof.Payload
import Idealize.ShloMosaic.Lib.Pipeline.Value

noncomputable section

namespace Cert.GNN.Region2

open Cert.KernelIdeal Cert.KernelIdeal.Gen Idealize.ShloMosaic Idealize.ShloMosaic.TcCoe Idealize.ShloMosaic.ValueIdx Idealize.SL.Sem Cert.GNN
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row windows sit at block t, the weight and bias windows at block 0. -/
theorem idx_facts : ∀ t : Fin cfg2.N, win2_0.index t (0 : Fin 2) = win2_6.index t (0 : Fin 2)
    ∧ win2_0.index t (1 : Fin 2) = 0 ∧ win2_1.index t (0 : Fin 2) = win2_6.index t (0 : Fin 2)
    ∧ win2_1.index t (1 : Fin 2) = 0 ∧ win2_2.index t (0 : Fin 2) = 0 ∧ win2_2.index t (1 : Fin 2) = 0
    ∧ win2_3.index t (0 : Fin 2) = 0 ∧ win2_3.index t (1 : Fin 2) = 0 ∧ win2_4.index t (0 : Fin 1) = 0
    ∧ win2_5.index t (0 : Fin 1) = 0 ∧ win2_6.index t (1 : Fin 2) = 0 ∧ win2_6.index t (0 : Fin 2) ≤ 49 :=
  (by decide +kernel : ∀ t : Fin grid2.N, _)

/-- Every row block is some point's. -/
theorem idx_onto : ∀ q0 : Fin 50, ∃ t : Fin cfg2.N, win2_6.index t = ![q0.val, 0] :=
  (by decide +kernel : ∀ q0 : Fin 50, ∃ t : Fin grid2.N, win2_6.index t = ![q0.val, 0])

/-- A block-sized array that agrees row by row with rows 2000·t … of an array is that array's block t, read back. -/
theorem block_of_rows (t : Fin cfg2.N) (g : FVec Ideal S2000x32 .f32) (G : FVec Ideal S100000x32 .f32)
    (hrow : ∀ (p : Fin 2000) (q : Fin 32) (hP : win2_6.index t (0 : Fin 2) * 2000 + p.val < 100000),
      g (ix2 p q) = G (ix2 (⟨win2_6.index t (0 : Fin 2) * 2000 + p.val, hP⟩ : Fin 100000) q)) :
    (cfg2.win 6).cut (grid2.coords t) g = ((cfg2.win 6).blk t).view.read (Elt Ideal) G := by
  obtain ⟨e0, e1, e2, e3, e4, e5, e6, e7, e8, e9, e10, e11⟩ := idx_facts t
  funext y
  obtain ⟨p, q, rfl⟩ : ∃ (p : Fin 2000) (q : Fin 32), y = ix2 p q := ⟨y 0, y 1, eq_ix2 y⟩
  have hp : p.val < 2000 := p.isLt
  have hP : win2_6.index t (0 : Fin 2) * 2000 + p.val < 100000 := by omega
  have hemb : ((cfg2.win 6).blk t).view.emb (ix2 p q) = ix2 (⟨win2_6.index t (0 : Fin 2) * 2000 + p.val, hP⟩ : Fin 100000) q := by
    funext a; apply Fin.ext
    match a with
    | ⟨0, _⟩ => show win2_6.index t (0 : Fin 2) * 2000 + 1 * p.val = win2_6.index t (0 : Fin 2) * 2000 + p.val; omega
    | ⟨1, _⟩ => show win2_6.index t (1 : Fin 2) * 32 + 1 * q.val = q.val; omega
  show g (ix2 p q) = G (((cfg2.win 6).blk t).view.emb (ix2 p q))
  rw [hemb]
  exact hrow p q hP

/-- What point t writes back is block t of the update on the whole arrays. -/
theorem flushed_eq (c : Dev nD) (t : Fin cfg2.N) :
    (dat2 V c).flushed 6 t
      = ((cfg2.win 6).blk t).view.read (Elt Ideal)
          (gru (V c main_v21) (V c main_v4) (V c main_v23) (V c main_v25) (V c main_v27) (V c main_v29)) := by
  show (cfg2.win 6).cut (grid2.coords t) ((dat2 V c).after 6 t) = _
  rw [after2_6]
  unfold out2_6
  rw [View.canon_unit_zero hz2]
  simp only [View.ld_unit_zero (S := S2000x32) hz2, View.ld_unit_zero (S := S32x96) hz2, View.ld_unit_zero (S := S96) hz1]
  rw [Payload.update2_eq]
  obtain ⟨e0, e1, e2, e3, e4, e5, e6, e7, e8, e9, e10, e11⟩ := idx_facts t
  have hwi : iblk2 V c 2 t = V c main_v23 := by
    funext y
    show V c main_v23 (((cfg2.win 2).blk t).view.emb y) = V c main_v23 y
    refine congrArg _ (funext fun a => Fin.ext ?_)
    match a with
    | ⟨0, _⟩ => show win2_2.index t (0 : Fin 2) * 32 + 1 * (y 0).val = (y 0).val; omega
    | ⟨1, _⟩ => show win2_2.index t (1 : Fin 2) * 96 + 1 * (y 1).val = (y 1).val; omega
  have hwh : iblk2 V c 3 t = V c main_v25 := by
    funext y
    show V c main_v25 (((cfg2.win 3).blk t).view.emb y) = V c main_v25 y
    refine congrArg _ (funext fun a => Fin.ext ?_)
    match a with
    | ⟨0, _⟩ => show win2_3.index t (0 : Fin 2) * 32 + 1 * (y 0).val = (y 0).val; omega
    | ⟨1, _⟩ => show win2_3.index t (1 : Fin 2) * 96 + 1 * (y 1).val = (y 1).val; omega
  have hbi : iblk2 V c 4 t = V c main_v27 := by
    funext y
    show V c main_v27 (((cfg2.win 4).blk t).view.emb y) = V c main_v27 y
    refine congrArg _ (funext fun a => Fin.ext ?_)
    match a with
    | ⟨0, _⟩ => show win2_4.index t (0 : Fin 1) * 96 + 1 * (y 0).val = (y 0).val; omega
  have hbh : iblk2 V c 5 t = V c main_v29 := by
    funext y
    show V c main_v29 (((cfg2.win 5).blk t).view.emb y) = V c main_v29 y
    refine congrArg _ (funext fun a => Fin.ext ?_)
    match a with
    | ⟨0, _⟩ => show win2_5.index t (0 : Fin 1) * 96 + 1 * (y 0).val = (y 0).val; omega
  rw [hwi, hwh, hbi, hbh]
  refine block_of_rows t _ _ (fun p q hP => ?_)
  refine gru_rows (V c main_v21) (V c main_v4) (iblk2 V c 0 t) (iblk2 V c 1 t) (V c main_v23) (V c main_v25) (V c main_v27) (V c main_v29) _ p
    (fun k => ?_) (fun k => ?_) q
  · show V c main_v21 (((cfg2.win 0).blk t).view.emb (ix2 p k)) = _
    refine congrArg _ (funext fun a => Fin.ext ?_)
    match a with
    | ⟨0, _⟩ => show win2_0.index t (0 : Fin 2) * 2000 + 1 * p.val = win2_6.index t (0 : Fin 2) * 2000 + p.val; omega
    | ⟨1, _⟩ => show win2_0.index t (1 : Fin 2) * 32 + 1 * k.val = k.val; omega
  · show V c main_v4 (((cfg2.win 1).blk t).view.emb (ix2 p k)) = _
    refine congrArg _ (funext fun a => Fin.ext ?_)
    match a with
    | ⟨0, _⟩ => show win2_1.index t (0 : Fin 2) * 2000 + 1 * p.val = win2_6.index t (0 : Fin 2) * 2000 + p.val; omega
    | ⟨1, _⟩ => show win2_1.index t (1 : Fin 2) * 32 + 1 * k.val = k.val; omega

/-- An index of the output array is in point t's block iff each coordinate is in the block's range on its axis. -/
theorem mem_blk (t : Fin cfg2.N) (i : S100000x32.Idx) :
    i ∈ ((cfg2.win 6).blk t).view.set ↔ ∀ a : Fin 2, win2_6.index t a * S2000x32.size a ≤ (i a).val ∧ (i a).val < win2_6.index t a * S2000x32.size a + S2000x32.size a := by
  show i ∈ ((View.whole main_v30).slice (win2_6.rect t)).set ↔ _
  rw [View.set_slice_whole, Rect.mem_set_unit]
  exact Iff.rfl

/-- The blocks cover the output array: row r is in block r / 2000. -/
theorem cover (i : S100000x32.Idx) : ∃ t : Fin cfg2.N, (cfg2.win 6).flush t = true ∧ i ∈ ((cfg2.win 6).blk t).view.set := by
  have hi0 : (i 0).val < 100000 := (i 0).isLt
  have hi1 : (i 1).val < 32 := (i 1).isLt
  obtain ⟨t, ht⟩ := idx_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 32 ≤ (i 1).val ∧ (i 1).val < win2_6.index t (1 : Fin 2) * 32 + 32; omega

/-- The output array after the region. -/
theorem final (c : Dev nD) :
    (dat2 V c).arrAt 6 cfg2.N = gru (V c main_v21) (V c main_v4) (V c main_v23) (V c main_v25) (V c main_v27) (V c main_v29) :=
  (dat2 V c).arrAt_eq_of_cover 6 _ (fun t _ => flushed_eq V c t) cover

end Cert.GNN.Region2

end
-- ==== Proof.WalkHost.lean ====
/-
  The edge lists (written by the first host stretch) and the two transposed weight stacks (written by the second) are
  read again in each round's host stretch; no later operation writes them and no region has them as an array, so at
  those boundaries they still hold what their writers left.
-/
import proofs.«174392_j3315714752917_1_alg».proof.Proof.Walk

set_option Elab.async false

noncomputable section

namespace Cert.GNN.Walk

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem v1_4 : W4 m ρ c (Proc.devRef .tc main_v1) = W1 m ρ c (Proc.devRef .tc main_v1) := by
  refine (W4_of_ne m ρ c _ (by decide)).trans ?_
  host_step
  refine (W2_of_ne m ρ c _ (by decide)).trans ?_
  exact rfl

theorem v1_8 : W8 m ρ c (Proc.devRef .tc main_v1) = W1 m ρ c (Proc.devRef .tc main_v1) := by
  refine (W8_of_ne m ρ c _ (by decide)).trans ?_
  host_step
  refine (W6_of_ne m ρ c _ (by decide)).trans ?_
  host_step
  exact v1_4 m ρ c

theorem v1_12 : W12 m ρ c (Proc.devRef .tc main_v1) = W1 m ρ c (Proc.devRef .tc main_v1) := by
  refine (W12_of_ne m ρ c _ (by decide)).trans ?_
  host_step
  refine (W10_of_ne m ρ c _ (by decide)).trans ?_
  host_step
  exact v1_8 m ρ c

theorem v3_4 : W4 m ρ c (Proc.devRef .tc main_v3) = W1 m ρ c (Proc.devRef .tc main_v3) := by
  refine (W4_of_ne m ρ c _ (by decide)).trans ?_
  host_step
  refine (W2_of_ne m ρ c _ (by decide)).trans ?_
  exact rfl

theorem v3_8 : W8 m ρ c (Proc.devRef .tc main_v3) = W1 m ρ c (Proc.devRef .tc main_v3) := by
  refine (W8_of_ne m ρ c _ (by decide)).trans ?_
  host_step
  refine (W6_of_ne m ρ c _ (by decide)).trans ?_
  host_step
  exact v3_4 m ρ c

theorem v3_12 : W12 m ρ c (Proc.devRef .tc main_v3) = W1 m ρ c (Proc.devRef .tc main_v3) := by
  refine (W12_of_ne m ρ c _ (by decide)).trans ?_
  host_step
  refine (W10_of_ne m ρ c _ (by decide)).trans ?_
  host_step
  exact v3_8 m ρ c

theorem v5_4 : W4 m ρ c (Proc.devRef .tc main_v5) = W3 m ρ c (Proc.devRef .tc main_v5) := by
  refine (W4_of_ne m ρ c _ (by decide)).trans ?_
  exact rfl

theorem v5_8 : W8 m ρ c (Proc.devRef .tc main_v5) = W3 m ρ c (Proc.devRef .tc main_v5) := by
  refine (W8_of_ne m ρ c _ (by decide)).trans ?_
  host_step
  refine (W6_of_ne m ρ c _ (by decide)).trans ?_
  host_step
  exact v5_4 m ρ c

theorem v5_12 : W12 m ρ c (Proc.devRef .tc main_v5) = W3 m ρ c (Proc.devRef .tc main_v5) := by
  refine (W12_of_ne m ρ c _ (by decide)).trans ?_
  host_step
  refine (W10_of_ne m ρ c _ (by decide)).trans ?_
  host_step
  exact v5_8 m ρ c

theorem v6_4 : W4 m ρ c (Proc.devRef .tc main_v6) = W3 m ρ c (Proc.devRef .tc main_v6) := by
  refine (W4_of_ne m ρ c _ (by decide)).trans ?_
  exact rfl

theorem v6_8 : W8 m ρ c (Proc.devRef .tc main_v6) = W3 m ρ c (Proc.devRef .tc main_v6) := by
  refine (W8_of_ne m ρ c _ (by decide)).trans ?_
  host_step
  refine (W6_of_ne m ρ c _ (by decide)).trans ?_
  host_step
  exact v6_4 m ρ c

theorem v6_12 : W12 m ρ c (Proc.devRef .tc main_v6) = W3 m ρ c (Proc.devRef .tc main_v6) := by
  refine (W12_of_ne m ρ c _ (by decide)).trans ?_
  host_step
  refine (W10_of_ne m ρ c _ (by decide)).trans ?_
  host_step
  exact v6_8 m ρ c

end Cert.GNN.Walk

end
-- ==== Proof.WalkState.lean ====
/-
  A round's state array is written by the region before the round and read by the round's two regions: the message
  region has it as its row input and leaves it as found, the host stretches between do not write it.
-/
import proofs.«174392_j3315714752917_1_alg».proof.Proof.Walk

set_option Elab.async false

noncomputable section

namespace Cert.GNN.Walk

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem v4_3 : W3 m ρ c (Proc.devRef .tc main_v4) = W2 m ρ c (Proc.devRef .tc main_v4) := by
  host_step
  exact rfl

theorem v4_5 : W5 m ρ c (Proc.devRef .tc main_v4) = W2 m ρ c (Proc.devRef .tc main_v4) := by
  host_step
  refine ((W4_arr m ρ c 0).trans (((dat1 (V3 m ρ) c).arrAt_in 0 rfl _).trans (A_eq1 (V3 m ρ) c 0))).trans ?_
  exact v4_3 m ρ c

theorem v30_7 : W7 m ρ c (Proc.devRef .tc main_v30) = W6 m ρ c (Proc.devRef .tc main_v30) := by
  host_step
  exact rfl

theorem v30_9 : W9 m ρ c (Proc.devRef .tc main_v30) = W6 m ρ c (Proc.devRef .tc main_v30) := by
  host_step
  refine ((W8_arr m ρ c 0).trans (((dat3 (V7 m ρ) c).arrAt_in 0 rfl _).trans (A_eq3 (V7 m ρ) c 0))).trans ?_
  exact v30_7 m ρ c

theorem v54_11 : W11 m ρ c (Proc.devRef .tc main_v54) = W10 m ρ c (Proc.devRef .tc main_v54) := by
  host_step
  exact rfl

theorem v54_13 : W13 m ρ c (Proc.devRef .tc main_v54) = W10 m ρ c (Proc.devRef .tc main_v54) := by
  host_step
  refine ((W12_arr m ρ c 0).trans (((dat5 (V11 m ρ) c).arrAt_in 0 rfl _).trans (A_eq5 (V11 m ρ) c 0))).trans ?_
  exact v54_11 m ρ c

end Cert.GNN.Walk

end
-- ==== Proof.Aggregate.lean ====
/-
  The aggregation of messages along the edges, as the host computes it: from the edge list e (row 0 the source node of
  each edge, row 1 its destination; a negative source index counted from the end), gather each edge's message row
  from its source node and add it into its destination node's row of a zero array. Both programs run exactly these
  operations on their messages, so nothing is ever asked about what they compute: the term is carried whole.
-/
import proofs.«174392_j3315714752917_1_alg».proof.Proof.Gen.KernelIdeal
import Idealize.ShloMosaic.PureOps.Ideal

noncomputable section

namespace Cert.GNN

open Idealize.ShloMosaic Cert.KernelIdeal Cert.KernelIdeal.Facts₀

/-- Edge sources (row 0 of the edge list). -/
def edgeSrc (e : (⟨S2x6400000, .i32⟩ : BufTy).Contents (Elt Ideal)) : (⟨S6400000, .i32⟩ : BufTy).Contents (Elt Ideal) :=
  shapeCast S6400000 (extractStridedSlice S1x6400000 ![0, 0] e slices_S2x6400000_S1x6400000_0_0) shapeCasts_S1x6400000_S6400000

/-- Edge destinations (row 1 of the edge list). -/
def edgeDst (e : (⟨S2x6400000, .i32⟩ : BufTy).Contents (Elt Ideal)) : (⟨S6400000, .i32⟩ : BufTy).Contents (Elt Ideal) :=
  shapeCast S6400000 (extractStridedSlice S1x6400000 ![1, 0] e slices_S2x6400000_S1x6400000_1_0) shapeCasts_S1x6400000_S6400000

/-- Gather at the (wrapped) sources, scatter-add at the destinations into zeros. -/
def aggregateOf (src dst : (⟨S6400000, .i32⟩ : BufTy).Contents (Elt Ideal))
    (msg : (⟨S100000x32, .f32⟩ : BufTy).Contents (Elt Ideal)) : (⟨S100000x32, .f32⟩ : BufTy).Contents (Elt Ideal) :=
  Host.scatterAdd scatter_S100000x32_S6400000x1_S6400000x32_1_0_0_1
    (broadcastInDim S100000x32 ![] bcast_S_S100000x32 (constant (F := Ideal) S_ .f32 0x00000000#32))
    (broadcastInDim S6400000x1 ![0] bcast_S6400000_S6400000x1_0 dst)
    (Host.gather gather_S100000x32_S6400000x1_S6400000x32_1_0_n_n_0_1_132 msg
      (broadcastInDim S6400000x1 ![0] bcast_S6400000_S6400000x1_0
        (select (cmpi .slt src (broadcastInDim S6400000 ![] bcast_S_S6400000 (constantI S_ 32 0#32)))
          (addi src (broadcastInDim S6400000 ![] bcast_S_S6400000 (constantI S_ 32 100000#32))) src)))

/-- The aggregation operator of an edge list. -/
def aggregate (e : (⟨S2x6400000, .i32⟩ : BufTy).Contents (Elt Ideal))
    (msg : (⟨S100000x32, .f32⟩ : BufTy).Contents (Elt Ideal)) : (⟨S100000x32, .f32⟩ : BufTy).Contents (Elt Ideal) :=
  aggregateOf (edgeSrc e) (edgeDst e) msg

end Cert.GNN

end
-- ==== Proof.HostEdges.lean ====
/-
  What the first two host stretches of the kernel program leave: the edge sources and destinations (rows 0 and 1 of the
  edge list, as vectors) and the two update weight stacks with each matrix transposed.
-/
import proofs.«174392_j3315714752917_1_alg».proof.Proof.WalkArgs
import proofs.«174392_j3315714752917_1_alg».proof.Proof.Aggregate

noncomputable section

namespace Cert.GNN.HostEdges

open Cert.KernelIdeal Cert.KernelIdeal.Gen Idealize.ShloMosaic Idealize.ShloMosaic.TcCoe Idealize.SL.Sem
open Idealize.ShloMosaic.StableHlo Cert.GNN

variable (m : (ℓ : Loc nD τ sig) → Buf (Elt Ideal) ℓ) (ρ : Dev nD → PrngReg) (c : Dev nD)

theorem src : W1 m ρ c (Proc.devRef .tc main_v1) = edgeSrc (m ((c : Thread nD τ).loc main_arg1)) := by
  show StableHlo.after hostOps0 (W0 m ρ c) (Proc.devRef .tc main_v1) = _
  after_results
  rfl

theorem dst : W1 m ρ c (Proc.devRef .tc main_v3) = edgeDst (m ((c : Thread nD τ).loc main_arg1)) := by
  show StableHlo.after hostOps0 (W0 m ρ c) (Proc.devRef .tc main_v3) = _
  after_results
  rfl

theorem wihT : W3 m ρ c (Proc.devRef .tc main_v5)
    = transpose S3x32x96 [0, 2, 1] (m ((c : Thread nD τ).loc main_arg6)) transposes_S3x96x32_S3x32x96_0_2_1 := by
  show StableHlo.after hostOps1 (W2 m ρ c) (Proc.devRef .tc main_v5) = _
  after_results
  rw [Walk.arg6_2 m ρ c]

theorem whhT : W3 m ρ c (Proc.devRef .tc main_v6)
    = transpose S3x32x96 [0, 2, 1] (m ((c : Thread nD τ).loc main_arg7)) transposes_S3x96x32_S3x32x96_0_2_1 := by
  show StableHlo.after hostOps1 (W2 m ρ c) (Proc.devRef .tc main_v6) = _
  after_results
  rw [Walk.arg7_2 m ρ c]

end Cert.GNN.HostEdges

end
-- ==== Proof.HostVals.lean ====
/-
  The weight operands the host prepares for a round, read entry by entry: round r's matrix is slice r of the stack of
  three with its unit axis dropped; round r's bias is row r of the stack of biases; and the update's two matrices are
  slice r of the stack after each matrix in it has been transposed, which is the transposed slab.
-/
import proofs.«174392_j3315714752917_1_alg».proof.Proof.Spec
import Idealize.ShloMosaic.Lib.Pipeline.Value
import Idealize.ShloMosaic.Lib.ValueLayout

noncomputable section

namespace Cert.GNN.HostVals

open Idealize.ShloMosaic Idealize.ShloMosaic.ValueIdx Cert.GNN

variable {A B : Nat}

/-- Slice o of a stack of three matrices, unit axis dropped: the slab. -/
theorem slab_eq (o : Nat) (r : Fin 3) (hr : r.val = o) (X : FVec Ideal ⟨3, ![3, A, B]⟩ .f32)
    (h1 : (⟨3, ![3, A, B]⟩ : Shape).Slices ![o, 0, 0] ⟨3, ![1, A, B]⟩)
    (h2 : (⟨3, ![1, A, B]⟩ : Shape).ShapeCasts ⟨2, ![A, B]⟩) :
    shapeCast ⟨2, ![A, B]⟩ (extractStridedSlice ⟨3, ![1, A, B]⟩ ![o, 0, 0] X h1) h2 = slab r X := by
  funext i
  obtain ⟨k, j, rfl⟩ : ∃ (k : Fin A) (j : Fin B), i = ix2 k j := ⟨i 0, i 1, eq_ix2 i⟩
  rw [shapeCast_1ab_ab_apply, slab_apply]
  exact extractStridedSlice_apply _ _ _ _ _ (fun ax => by
    match ax with
    | ⟨0, _⟩ => show r.val = o + 0; omega
    | ⟨1, _⟩ => exact (Nat.zero_add _).symm
    | ⟨2, _⟩ => exact (Nat.zero_add _).symm)

/-- Row o of a stack of three bias vectors, unit axis dropped. -/
theorem row_eq (o : Nat) (r : Fin 3) (hr : r.val = o) (b : FVec Ideal ⟨2, ![3, B]⟩ .f32)
    (h1 : (⟨2, ![3, B]⟩ : Shape).Slices ![o, 0] ⟨2, ![1, B]⟩)
    (h2 : (⟨2, ![1, B]⟩ : Shape).ShapeCasts ⟨1, ![B]⟩) :
    shapeCast ⟨1, ![B]⟩ (extractStridedSlice ⟨2, ![1, B]⟩ ![o, 0] b h1) h2 = row r b := by
  funext i
  obtain ⟨j, rfl⟩ : ∃ j : Fin B, i = ix1 j := ⟨i 0, eq_ix1 i⟩
  rw [shapeCast_1a_a_apply, row_apply]
  exact extractStridedSlice_apply _ _ _ _ _ (fun ax => by
    match ax with
    | ⟨0, _⟩ => show r.val = o + 0; omega
    | ⟨1, _⟩ => exact (Nat.zero_add _).symm)

/-- Slice o of the stack of transposed matrices, unit axis dropped: the transposed slab. -/
theorem slabT_eq (o : Nat) (r : Fin 3) (hr : r.val = o) (X : FVec Ideal ⟨3, ![3, B, A]⟩ .f32)
    (ht : (⟨3, ![3, B, A]⟩ : Shape).Transposes [0, 2, 1] ⟨3, ![3, A, B]⟩)
    (h1 : (⟨3, ![3, A, B]⟩ : Shape).Slices ![o, 0, 0] ⟨3, ![1, A, B]⟩)
    (h2 : (⟨3, ![1, A, B]⟩ : Shape).ShapeCasts ⟨2, ![A, B]⟩) :
    shapeCast ⟨2, ![A, B]⟩ (extractStridedSlice ⟨3, ![1, A, B]⟩ ![o, 0, 0] (transpose ⟨3, ![3, A, B]⟩ [0, 2, 1] X ht) h1) h2
      = slabT r X := by
  rw [slab_eq o r hr]
  funext i
  obtain ⟨k, j, rfl⟩ : ∃ (k : Fin A) (j : Fin B), i = ix2 k j := ⟨i 0, i 1, eq_ix2 i⟩
  rw [slab_apply, slabT_apply, transpose_ix3_021_apply]

end Cert.GNN.HostVals

end
-- ==== Proof.KRound0.lean ====
/-
  The first round of the kernel program. Given the state array h the round finds, the message region's weight
  operands are slab 0 and row 0 of the message stacks, so its output is the message layer of h; the host stretch
  that follows gathers and scatter-adds those messages along the edge lists (held since the first host stretch) and
  slices the transposed update stacks (held since the second) and the update biases; the update region then leaves the
  gated update of the aggregated messages and h. Together: the round function of the specification applied to h.
-/
import proofs.«174392_j3315714752917_1_alg».proof.Proof.Region1
import proofs.«174392_j3315714752917_1_alg».proof.Proof.Region2
import proofs.«174392_j3315714752917_1_alg».proof.Proof.WalkArgs
import proofs.«174392_j3315714752917_1_alg».proof.Proof.WalkHost
import proofs.«174392_j3315714752917_1_alg».proof.Proof.WalkState
import proofs.«174392_j3315714752917_1_alg».proof.Proof.HostEdges
import proofs.«174392_j3315714752917_1_alg».proof.Proof.HostVals

noncomputable section

namespace Cert.GNN.KRound0

open Cert.KernelIdeal Cert.KernelIdeal.Gen Idealize.ShloMosaic Idealize.ShloMosaic.TcCoe Idealize.ShloMosaic.ValueIdx Idealize.SL.Sem
open Idealize.ShloMosaic.StableHlo Cert.GNN

variable (m : (ℓ : Loc nD τ sig) → Buf (Elt Ideal) ℓ) (ρ : Dev nD → PrngReg) (c : Dev nD)

/-- The message region's matrix operand is slab 0 of the message matrices. -/
theorem msgW : V3 m ρ c main_v8 = slab 0 (m ((c : Thread nD τ).loc main_arg4)) := by
  show StableHlo.after hostOps1 (W2 m ρ c) (Proc.devRef .tc main_v8) = _
  after_results
  show shapeCast S32x32 (extractStridedSlice S1x32x32 ![0, 0, 0] (W2 m ρ c (Proc.devRef .tc main_arg4)) slices_S3x32x32_S1x32x32_0_0_0) shapeCasts_S1x32x32_S32x32 = _
  rw [Walk.arg4_2 m ρ c]
  exact HostVals.slab_eq 0 0 rfl _ _ _

/-- The message region's bias operand is row 0 of the message biases. -/
theorem msgB : V3 m ρ c main_v10 = row 0 (m ((c : Thread nD τ).loc main_arg5)) := by
  show StableHlo.after hostOps1 (W2 m ρ c) (Proc.devRef .tc main_v10) = _
  after_results
  show shapeCast S32 (extractStridedSlice S1x32 ![0, 0] (W2 m ρ c (Proc.devRef .tc main_arg5)) slices_S3x32_S1x32_0_0) shapeCasts_S1x32_S32 = _
  rw [Walk.arg5_2 m ρ c]
  exact HostVals.row_eq 0 0 rfl _ _ _

set_option maxHeartbeats 1000000 in
/-- The host stretch before the update region, run from any buffer contents, leaves in the aggregated-messages buffer the
    aggregation of the messages along the two edge lists as it finds them. -/
theorem agg_of (V : Valuation τ sig (Elt Ideal)) :
    StableHlo.after hostOps2 V (Proc.devRef .tc main_v21)
      = aggregateOf (V (Proc.devRef .tc main_v1)) (V (Proc.devRef .tc main_v3)) (V (Proc.devRef .tc main_v11)) := by
  after_results
  unfold aggregateOf
  rfl

/-- The update region's aggregated-messages operand is the aggregation of the message region's output. -/
theorem aggV : V5 m ρ c main_v21
    = aggregate (m ((c : Thread nD τ).loc main_arg1)) (W4 m ρ c (Proc.devRef .tc main_v11)) :=
  (agg_of (W4 m ρ c)).trans
    (congrArg₂ (fun s d => aggregateOf s d (W4 m ρ c (Proc.devRef .tc main_v11)))
      ((Walk.v1_4 m ρ c).trans (HostEdges.src m ρ c)) ((Walk.v3_4 m ρ c).trans (HostEdges.dst m ρ c)))

/-- The update region's two matrix operands are the transposed slabs 0 of the update stacks. -/
theorem wihV : V5 m ρ c main_v23 = slabT 0 (m ((c : Thread nD τ).loc main_arg6)) := by
  show StableHlo.after hostOps2 (W4 m ρ c) (Proc.devRef .tc main_v23) = _
  after_results
  show shapeCast S32x96 (extractStridedSlice S1x32x96 ![0, 0, 0] (W4 m ρ c (Proc.devRef .tc main_v5)) slices_S3x32x96_S1x32x96_0_0_0) shapeCasts_S1x32x96_S32x96 = _
  rw [Walk.v5_4 m ρ c, HostEdges.wihT m ρ c]
  exact HostVals.slabT_eq 0 0 rfl _ _ _ _
theorem whhV : V5 m ρ c main_v25 = slabT 0 (m ((c : Thread nD τ).loc main_arg7)) := by
  show StableHlo.after hostOps2 (W4 m ρ c) (Proc.devRef .tc main_v25) = _
  after_results
  show shapeCast S32x96 (extractStridedSlice S1x32x96 ![0, 0, 0] (W4 m ρ c (Proc.devRef .tc main_v6)) slices_S3x32x96_S1x32x96_0_0_0) shapeCasts_S1x32x96_S32x96 = _
  rw [Walk.v6_4 m ρ c, HostEdges.whhT m ρ c]
  exact HostVals.slabT_eq 0 0 rfl _ _ _ _

/-- The update region's two bias operands are rows 0 of the update biases. -/
theorem bihV : V5 m ρ c main_v27 = row 0 (m ((c : Thread nD τ).loc main_arg8)) := by
  show StableHlo.after hostOps2 (W4 m ρ c) (Proc.devRef .tc main_v27) = _
  after_results
  show shapeCast S96 (extractStridedSlice S1x96 ![0, 0] (W4 m ρ c (Proc.devRef .tc main_arg8)) slices_S3x96_S1x96_0_0) shapeCasts_S1x96_S96 = _
  rw [Walk.arg8_4 m ρ c]
  exact HostVals.row_eq 0 0 rfl _ _ _
theorem bhhV : V5 m ρ c main_v29 = row 0 (m ((c : Thread nD τ).loc main_arg9)) := by
  show StableHlo.after hostOps2 (W4 m ρ c) (Proc.devRef .tc main_v29) = _
  after_results
  show shapeCast S96 (extractStridedSlice S1x96 ![0, 0] (W4 m ρ c (Proc.devRef .tc main_arg9)) slices_S3x96_S1x96_0_0) shapeCasts_S1x96_S96 = _
  rw [Walk.arg9_4 m ρ c]
  exact HostVals.row_eq 0 0 rfl _ _ _

/-- The round: from the state array h it finds to the state array it leaves. -/
theorem round (h : FVec Ideal ⟨2, ![100000, 32]⟩ .f32) (hS : W2 m ρ c (Proc.devRef .tc main_v4) = h) :
    W6 m ρ c (Proc.devRef .tc main_v30)
      = Cert.GNN.round (aggregate (m ((c : Thread nD τ).loc main_arg1)))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) 0 h := by
  have hmsg : W4 m ρ c (Proc.devRef .tc main_v11)
      = layer h (slab 0 (m ((c : Thread nD τ).loc main_arg4))) (row 0 (m ((c : Thread nD τ).loc main_arg5))) := by
    refine (W4_arr m ρ c 3).trans ((Region1.final (V3 m ρ) c).trans ?_)
    rw [msgW m ρ c, msgB m ρ c]
    show layer (W3 m ρ c (Proc.devRef .tc main_v4)) _ _ = _
    rw [Walk.v4_3 m ρ c, hS]
  refine (W6_arr m ρ c 6).trans ((Region2.final (V5 m ρ) c).trans ?_)
  rw [aggV m ρ c, wihV m ρ c, whhV m ρ c, bihV m ρ c, bhhV m ρ c, hmsg]
  show gru _ (W5 m ρ c (Proc.devRef .tc main_v4)) _ _ _ _ = _
  rw [Walk.v4_5 m ρ c, hS]
  rfl

end Cert.GNN.KRound0

end
-- ==== Proof.Region3.lean ====
/-
  Region 3, the second round's message layer: after its fifty grid points the output array is the rectified affine layer of the three operand arrays as
  the region finds them. Point t computes the layer on rows 2000·t … 2000·t + 1999 of the row operand (the weight and
  bias blocks are the whole arrays at every point) and writes those rows back; a layer's row depends on that row of the
  operand only, so what is written is the same rows of the layer on the whole array, and the fifty blocks cover it.
-/
import proofs.«174392_j3315714752917_1_alg».proof.Proof.Gen.KernelIdeal.Frame
import proofs.«174392_j3315714752917_1_alg».proof.Proof.Payload
import Idealize.ShloMosaic.Lib.Pipeline.Value

noncomputable section

namespace Cert.GNN.Region3

open Cert.KernelIdeal Cert.KernelIdeal.Gen Idealize.ShloMosaic Idealize.ShloMosaic.TcCoe Idealize.ShloMosaic.ValueIdx Idealize.SL.Sem Cert.GNN
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row windows sit at block t, the weight and bias windows at block 0. -/
theorem idx_facts : ∀ t : Fin cfg3.N, win3_0.index t (0 : Fin 2) = win3_3.index t (0 : Fin 2)
    ∧ win3_0.index t (1 : Fin 2) = 0 ∧ win3_1.index t (0 : Fin 2) = 0 ∧ win3_1.index t (1 : Fin 2) = 0
    ∧ win3_2.index t (0 : Fin 1) = 0 ∧ win3_3.index t (1 : Fin 2) = 0 ∧ win3_3.index t (0 : Fin 2) ≤ 49 :=
  (by decide +kernel : ∀ t : Fin grid3.N, _)

/-- Every row block is some point's. -/
theorem idx_onto : ∀ q0 : Fin 50, ∃ t : Fin cfg3.N, win3_3.index t = ![q0.val, 0] :=
  (by decide +kernel : ∀ q0 : Fin 50, ∃ t : Fin grid3.N, win3_3.index t = ![q0.val, 0])

/-- What point t writes back is block t of the layer on the whole arrays. -/
theorem flushed_eq (c : Dev nD) (t : Fin cfg3.N) :
    (dat3 V c).flushed 3 t
      = ((cfg3.win 3).blk t).view.read (Elt Ideal) (layer (V c main_v30) (V c main_v32) (V c main_v34)) := by
  show (cfg3.win 3).cut (grid3.coords t) ((dat3 V c).after 3 t) = _
  rw [after3_3]
  unfold out3_3
  rw [View.canon_unit_zero hz2]
  simp only [View.ld_unit_zero (S := S2000x32) hz2, View.ld_unit_zero (S := S32x32) hz2, View.ld_unit_zero (S := S32) hz1]
  rw [Payload.message3_eq]
  obtain ⟨e0, e1, e2, e3, e4, e5, e6⟩ := idx_facts t
  have hw : iblk3 V c 1 t = V c main_v32 := by
    funext y
    show V c main_v32 (((cfg3.win 1).blk t).view.emb y) = V c main_v32 y
    refine congrArg _ (funext fun a => Fin.ext ?_)
    match a with
    | ⟨0, _⟩ => show win3_1.index t (0 : Fin 2) * 32 + 1 * (y 0).val = (y 0).val; omega
    | ⟨1, _⟩ => show win3_1.index t (1 : Fin 2) * 32 + 1 * (y 1).val = (y 1).val; omega
  have hb : iblk3 V c 2 t = V c main_v34 := by
    funext y
    show V c main_v34 (((cfg3.win 2).blk t).view.emb y) = V c main_v34 y
    refine congrArg _ (funext fun a => Fin.ext ?_)
    match a with
    | ⟨0, _⟩ => show win3_2.index t (0 : Fin 1) * 32 + 1 * (y 0).val = (y 0).val; omega
  rw [hw, hb]
  funext y
  obtain ⟨p, q, rfl⟩ : ∃ (p : Fin 2000) (q : Fin 32), y = ix2 p q := ⟨y 0, y 1, eq_ix2 y⟩
  have hp : p.val < 2000 := p.isLt
  have hP : win3_3.index t (0 : Fin 2) * 2000 + p.val < 100000 := by omega
  have hemb : ((cfg3.win 3).blk t).view.emb (ix2 p q) = ix2 (⟨win3_3.index t (0 : Fin 2) * 2000 + p.val, hP⟩ : Fin 100000) q := by
    funext a; apply Fin.ext
    match a with
    | ⟨0, _⟩ => show win3_3.index t (0 : Fin 2) * 2000 + 1 * p.val = win3_3.index t (0 : Fin 2) * 2000 + p.val; omega
    | ⟨1, _⟩ => show win3_3.index t (1 : Fin 2) * 32 + 1 * q.val = q.val; omega
  show layer (iblk3 V c 0 t) (V c main_v32) (V c main_v34) (ix2 p q)
    = layer (V c main_v30) (V c main_v32) (V c main_v34) (((cfg3.win 3).blk t).view.emb (ix2 p q))
  rw [hemb]
  refine layer_rows (V c main_v30) (iblk3 V c 0 t) (V c main_v32) (V c main_v34) _ p (fun k => ?_) q
  show V c main_v30 (((cfg3.win 0).blk t).view.emb (ix2 p k)) = _
  refine congrArg _ (funext fun a => Fin.ext ?_)
  match a with
  | ⟨0, _⟩ => show win3_0.index t (0 : Fin 2) * 2000 + 1 * p.val = win3_3.index t (0 : Fin 2) * 2000 + p.val; omega
  | ⟨1, _⟩ => show win3_0.index t (1 : Fin 2) * 32 + 1 * k.val = k.val; omega

/-- An index of the output array is in point t's block iff each coordinate is in the block's range on its axis. -/
theorem mem_blk (t : Fin cfg3.N) (i : S100000x32.Idx) :
    i ∈ ((cfg3.win 3).blk t).view.set ↔ ∀ a : Fin 2, win3_3.index t a * S2000x32.size a ≤ (i a).val ∧ (i a).val < win3_3.index t a * S2000x32.size a + S2000x32.size a := by
  show i ∈ ((View.whole main_v35).slice (win3_3.rect t)).set ↔ _
  rw [View.set_slice_whole, Rect.mem_set_unit]
  exact Iff.rfl

/-- The blocks cover the output array: row r is in block r / 2000. -/
theorem cover (i : S100000x32.Idx) : ∃ t : Fin cfg3.N, (cfg3.win 3).flush t = true ∧ i ∈ ((cfg3.win 3).blk t).view.set := by
  have hi0 : (i 0).val < 100000 := (i 0).isLt
  have hi1 : (i 1).val < 32 := (i 1).isLt
  obtain ⟨t, ht⟩ := idx_onto ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 32 ≤ (i 1).val ∧ (i 1).val < win3_3.index t (1 : Fin 2) * 32 + 32; omega

/-- The output array after the region. -/
theorem final (c : Dev nD) :
    (dat3 V c).arrAt 3 cfg3.N = layer (V c main_v30) (V c main_v32) (V c main_v34) :=
  (dat3 V c).arrAt_eq_of_cover 3 _ (fun t _ => flushed_eq V c t) cover

end Cert.GNN.Region3

end
-- ==== Proof.Region4.lean ====
/-
  Region 4, the second round's gated update: after its fifty grid points the output array is the gated recurrent update of the six operand arrays as the
  region finds them. Point t computes the update on rows 2000·t … 2000·t + 1999 of the aggregated messages and of the
  states (the two weight blocks and the two bias blocks are the whole arrays at every point) and writes those rows back;
  the update of a node reads that node's rows only, so what is written is the same rows of the update on the whole
  arrays, and the fifty blocks cover the output.
-/
import proofs.«174392_j3315714752917_1_alg».proof.Proof.Gen.KernelIdeal.Frame
import proofs.«174392_j3315714752917_1_alg».proof.Proof.Payload
import Idealize.ShloMosaic.Lib.Pipeline.Value

noncomputable section

namespace Cert.GNN.Region4

open Cert.KernelIdeal Cert.KernelIdeal.Gen Idealize.ShloMosaic Idealize.ShloMosaic.TcCoe Idealize.ShloMosaic.ValueIdx Idealize.SL.Sem Cert.GNN
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row windows sit at block t, the weight and bias windows at block 0. -/
theorem idx_facts : ∀ t : Fin cfg4.N, win4_0.index t (0 : Fin 2) = win4_6.index t (0 : Fin 2)
    ∧ win4_0.index t (1 : Fin 2) = 0 ∧ win4_1.index t (0 : Fin 2) = win4_6.index t (0 : Fin 2)
    ∧ win4_1.index t (1 : Fin 2) = 0 ∧ win4_2.index t (0 : Fin 2) = 0 ∧ win4_2.index t (1 : Fin 2) = 0
    ∧ win4_3.index t (0 : Fin 2) = 0 ∧ win4_3.index t (1 : Fin 2) = 0 ∧ win4_4.index t (0 : Fin 1) = 0
    ∧ win4_5.index t (0 : Fin 1) = 0 ∧ win4_6.index t (1 : Fin 2) = 0 ∧ win4_6.index t (0 : Fin 2) ≤ 49 :=
  (by decide +kernel : ∀ t : Fin grid4.N, _)

/-- Every row block is some point's. -/
theorem idx_onto : ∀ q0 : Fin 50, ∃ t : Fin cfg4.N, win4_6.index t = ![q0.val, 0] :=
  (by decide +kernel : ∀ q0 : Fin 50, ∃ t : Fin grid4.N, win4_6.index t = ![q0.val, 0])

/-- A block-sized array that agrees row by row with rows 2000·t … of an array is that array's block t, read back. -/
theorem block_of_rows (t : Fin cfg4.N) (g : FVec Ideal S2000x32 .f32) (G : FVec Ideal S100000x32 .f32)
    (hrow : ∀ (p : Fin 2000) (q : Fin 32) (hP : win4_6.index t (0 : Fin 2) * 2000 + p.val < 100000),
      g (ix2 p q) = G (ix2 (⟨win4_6.index t (0 : Fin 2) * 2000 + p.val, hP⟩ : Fin 100000) q)) :
    (cfg4.win 6).cut (grid4.coords t) g = ((cfg4.win 6).blk t).view.read (Elt Ideal) G := by
  obtain ⟨e0, e1, e2, e3, e4, e5, e6, e7, e8, e9, e10, e11⟩ := idx_facts t
  funext y
  obtain ⟨p, q, rfl⟩ : ∃ (p : Fin 2000) (q : Fin 32), y = ix2 p q := ⟨y 0, y 1, eq_ix2 y⟩
  have hp : p.val < 2000 := p.isLt
  have hP : win4_6.index t (0 : Fin 2) * 2000 + p.val < 100000 := by omega
  have hemb : ((cfg4.win 6).blk t).view.emb (ix2 p q) = ix2 (⟨win4_6.index t (0 : Fin 2) * 2000 + p.val, hP⟩ : Fin 100000) q := by
    funext a; apply Fin.ext
    match a with
    | ⟨0, _⟩ => show win4_6.index t (0 : Fin 2) * 2000 + 1 * p.val = win4_6.index t (0 : Fin 2) * 2000 + p.val; omega
    | ⟨1, _⟩ => show win4_6.index t (1 : Fin 2) * 32 + 1 * q.val = q.val; omega
  show g (ix2 p q) = G (((cfg4.win 6).blk t).view.emb (ix2 p q))
  rw [hemb]
  exact hrow p q hP

/-- What point t writes back is block t of the update on the whole arrays. -/
theorem flushed_eq (c : Dev nD) (t : Fin cfg4.N) :
    (dat4 V c).flushed 6 t
      = ((cfg4.win 6).blk t).view.read (Elt Ideal)
          (gru (V c main_v45) (V c main_v30) (V c main_v47) (V c main_v49) (V c main_v51) (V c main_v53)) := by
  show (cfg4.win 6).cut (grid4.coords t) ((dat4 V c).after 6 t) = _
  rw [after4_6]
  unfold out4_6
  rw [View.canon_unit_zero hz2]
  simp only [View.ld_unit_zero (S := S2000x32) hz2, View.ld_unit_zero (S := S32x96) hz2, View.ld_unit_zero (S := S96) hz1]
  rw [Payload.update4_eq]
  obtain ⟨e0, e1, e2, e3, e4, e5, e6, e7, e8, e9, e10, e11⟩ := idx_facts t
  have hwi : iblk4 V c 2 t = V c main_v47 := by
    funext y
    show V c main_v47 (((cfg4.win 2).blk t).view.emb y) = V c main_v47 y
    refine congrArg _ (funext fun a => Fin.ext ?_)
    match a with
    | ⟨0, _⟩ => show win4_2.index t (0 : Fin 2) * 32 + 1 * (y 0).val = (y 0).val; omega
    | ⟨1, _⟩ => show win4_2.index t (1 : Fin 2) * 96 + 1 * (y 1).val = (y 1).val; omega
  have hwh : iblk4 V c 3 t = V c main_v49 := by
    funext y
    show V c main_v49 (((cfg4.win 3).blk t).view.emb y) = V c main_v49 y
    refine congrArg _ (funext fun a => Fin.ext ?_)
    match a with
    | ⟨0, _⟩ => show win4_3.index t (0 : Fin 2) * 32 + 1 * (y 0).val = (y 0).val; omega
    | ⟨1, _⟩ => show win4_3.index t (1 : Fin 2) * 96 + 1 * (y 1).val = (y 1).val; omega
  have hbi : iblk4 V c 4 t = V c main_v51 := by
    funext y
    show V c main_v51 (((cfg4.win 4).blk t).view.emb y) = V c main_v51 y
    refine congrArg _ (funext fun a => Fin.ext ?_)
    match a with
    | ⟨0, _⟩ => show win4_4.index t (0 : Fin 1) * 96 + 1 * (y 0).val = (y 0).val; omega
  have hbh : iblk4 V c 5 t = V c main_v53 := by
    funext y
    show V c main_v53 (((cfg4.win 5).blk t).view.emb y) = V c main_v53 y
    refine congrArg _ (funext fun a => Fin.ext ?_)
    match a with
    | ⟨0, _⟩ => show win4_5.index t (0 : Fin 1) * 96 + 1 * (y 0).val = (y 0).val; omega
  rw [hwi, hwh, hbi, hbh]
  refine block_of_rows t _ _ (fun p q hP => ?_)
  refine gru_rows (V c main_v45) (V c main_v30) (iblk4 V c 0 t) (iblk4 V c 1 t) (V c main_v47) (V c main_v49) (V c main_v51) (V c main_v53) _ p
    (fun k => ?_) (fun k => ?_) q
  · show V c main_v45 (((cfg4.win 0).blk t).view.emb (ix2 p k)) = _
    refine congrArg _ (funext fun a => Fin.ext ?_)
    match a with
    | ⟨0, _⟩ => show win4_0.index t (0 : Fin 2) * 2000 + 1 * p.val = win4_6.index t (0 : Fin 2) * 2000 + p.val; omega
    | ⟨1, _⟩ => show win4_0.index t (1 : Fin 2) * 32 + 1 * k.val = k.val; omega
  · show V c main_v30 (((cfg4.win 1).blk t).view.emb (ix2 p k)) = _
    refine congrArg _ (funext fun a => Fin.ext ?_)
    match a with
    | ⟨0, _⟩ => show win4_1.index t (0 : Fin 2) * 2000 + 1 * p.val = win4_6.index t (0 : Fin 2) * 2000 + p.val; omega
    | ⟨1, _⟩ => show win4_1.index t (1 : Fin 2) * 32 + 1 * k.val = k.val; omega

/-- An index of the output array is in point t's block iff each coordinate is in the block's range on its axis. -/
theorem mem_blk (t : Fin cfg4.N) (i : S100000x32.Idx) :
    i ∈ ((cfg4.win 6).blk t).view.set ↔ ∀ a : Fin 2, win4_6.index t a * S2000x32.size a ≤ (i a).val ∧ (i a).val < win4_6.index t a * S2000x32.size a + S2000x32.size a := by
  show i ∈ ((View.whole main_v54).slice (win4_6.rect t)).set ↔ _
  rw [View.set_slice_whole, Rect.mem_set_unit]
  exact Iff.rfl

/-- The blocks cover the output array: row r is in block r / 2000. -/
theorem cover (i : S100000x32.Idx) : ∃ t : Fin cfg4.N, (cfg4.win 6).flush t = true ∧ i ∈ ((cfg4.win 6).blk t).view.set := by
  have hi0 : (i 0).val < 100000 := (i 0).isLt
  have hi1 : (i 1).val < 32 := (i 1).isLt
  obtain ⟨t, ht⟩ := idx_onto ⟨(i 0).val / 2000, by omega⟩
  have q0 : win4_6.index t (0 : Fin 2) = (i 0).val / 2000 := congrFun ht 0
  have q1 : win4_6.index t (1 : Fin 2) = 0 := congrFun ht 1
  refine ⟨t, flush4_6 t, ?_⟩
  rw [mem_blk]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 32 ≤ (i 1).val ∧ (i 1).val < win4_6.index t (1 : Fin 2) * 32 + 32; omega

/-- The output array after the region. -/
theorem final (c : Dev nD) :
    (dat4 V c).arrAt 6 cfg4.N = gru (V c main_v45) (V c main_v30) (V c main_v47) (V c main_v49) (V c main_v51) (V c main_v53) :=
  (dat4 V c).arrAt_eq_of_cover 6 _ (fun t _ => flushed_eq V c t) cover

end Cert.GNN.Region4

end
-- ==== Proof.KRound1.lean ====
/-
  The second round of the kernel program. Given the state array h the round finds, the message region's weight
  operands are slab 1 and row 1 of the message stacks, so its output is the message layer of h; the host stretch
  that follows gathers and scatter-adds those messages along the edge lists (held since the first host stretch) and
  slices the transposed update stacks (held since the second) and the update biases; the update region then leaves the
  gated update of the aggregated messages and h. Together: the round function of the specification applied to h.
-/
import proofs.«174392_j3315714752917_1_alg».proof.Proof.Region3
import proofs.«174392_j3315714752917_1_alg».proof.Proof.Region4
import proofs.«174392_j3315714752917_1_alg».proof.Proof.WalkArgs
import proofs.«174392_j3315714752917_1_alg».proof.Proof.WalkHost
import proofs.«174392_j3315714752917_1_alg».proof.Proof.WalkState
import proofs.«174392_j3315714752917_1_alg».proof.Proof.HostEdges
import proofs.«174392_j3315714752917_1_alg».proof.Proof.HostVals

noncomputable section

namespace Cert.GNN.KRound1

open Cert.KernelIdeal Cert.KernelIdeal.Gen Idealize.ShloMosaic Idealize.ShloMosaic.TcCoe Idealize.ShloMosaic.ValueIdx Idealize.SL.Sem
open Idealize.ShloMosaic.StableHlo Cert.GNN

variable (m : (ℓ : Loc nD τ sig) → Buf (Elt Ideal) ℓ) (ρ : Dev nD → PrngReg) (c : Dev nD)

/-- The message region's matrix operand is slab 1 of the message matrices. -/
theorem msgW : V7 m ρ c main_v32 = slab 1 (m ((c : Thread nD τ).loc main_arg4)) := by
  show StableHlo.after hostOps3 (W6 m ρ c) (Proc.devRef .tc main_v32) = _
  after_results
  show shapeCast S32x32 (extractStridedSlice S1x32x32 ![1, 0, 0] (W6 m ρ c (Proc.devRef .tc main_arg4)) slices_S3x32x32_S1x32x32_1_0_0) shapeCasts_S1x32x32_S32x32 = _
  rw [Walk.arg4_6 m ρ c]
  exact HostVals.slab_eq 1 1 rfl _ _ _

/-- The message region's bias operand is row 1 of the message biases. -/
theorem msgB : V7 m ρ c main_v34 = row 1 (m ((c : Thread nD τ).loc main_arg5)) := by
  show StableHlo.after hostOps3 (W6 m ρ c) (Proc.devRef .tc main_v34) = _
  after_results
  show shapeCast S32 (extractStridedSlice S1x32 ![1, 0] (W6 m ρ c (Proc.devRef .tc main_arg5)) slices_S3x32_S1x32_1_0) shapeCasts_S1x32_S32 = _
  rw [Walk.arg5_6 m ρ c]
  exact HostVals.row_eq 1 1 rfl _ _ _

set_option maxHeartbeats 1000000 in
/-- The host stretch before the update region, run from any buffer contents, leaves in the aggregated-messages buffer the
    aggregation of the messages along the two edge lists as it finds them. -/
theorem agg_of (V : Valuation τ sig (Elt Ideal)) :
    StableHlo.after hostOps4 V (Proc.devRef .tc main_v45)
      = aggregateOf (V (Proc.devRef .tc main_v1)) (V (Proc.devRef .tc main_v3)) (V (Proc.devRef .tc main_v35)) := by
  after_results
  unfold aggregateOf
  rfl

/-- The update region's aggregated-messages operand is the aggregation of the message region's output. -/
theorem aggV : V9 m ρ c main_v45
    = aggregate (m ((c : Thread nD τ).loc main_arg1)) (W8 m ρ c (Proc.devRef .tc main_v35)) :=
  (agg_of (W8 m ρ c)).trans
    (congrArg₂ (fun s d => aggregateOf s d (W8 m ρ c (Proc.devRef .tc main_v35)))
      ((Walk.v1_8 m ρ c).trans (HostEdges.src m ρ c)) ((Walk.v3_8 m ρ c).trans (HostEdges.dst m ρ c)))

/-- The update region's two matrix operands are the transposed slabs 1 of the update stacks. -/
theorem wihV : V9 m ρ c main_v47 = slabT 1 (m ((c : Thread nD τ).loc main_arg6)) := by
  show StableHlo.after hostOps4 (W8 m ρ c) (Proc.devRef .tc main_v47) = _
  after_results
  show shapeCast S32x96 (extractStridedSlice S1x32x96 ![1, 0, 0] (W8 m ρ c (Proc.devRef .tc main_v5)) slices_S3x32x96_S1x32x96_1_0_0) shapeCasts_S1x32x96_S32x96 = _
  rw [Walk.v5_8 m ρ c, HostEdges.wihT m ρ c]
  exact HostVals.slabT_eq 1 1 rfl _ _ _ _
theorem whhV : V9 m ρ c main_v49 = slabT 1 (m ((c : Thread nD τ).loc main_arg7)) := by
  show StableHlo.after hostOps4 (W8 m ρ c) (Proc.devRef .tc main_v49) = _
  after_results
  show shapeCast S32x96 (extractStridedSlice S1x32x96 ![1, 0, 0] (W8 m ρ c (Proc.devRef .tc main_v6)) slices_S3x32x96_S1x32x96_1_0_0) shapeCasts_S1x32x96_S32x96 = _
  rw [Walk.v6_8 m ρ c, HostEdges.whhT m ρ c]
  exact HostVals.slabT_eq 1 1 rfl _ _ _ _

/-- The update region's two bias operands are rows 1 of the update biases. -/
theorem bihV : V9 m ρ c main_v51 = row 1 (m ((c : Thread nD τ).loc main_arg8)) := by
  show StableHlo.after hostOps4 (W8 m ρ c) (Proc.devRef .tc main_v51) = _
  after_results
  show shapeCast S96 (extractStridedSlice S1x96 ![1, 0] (W8 m ρ c (Proc.devRef .tc main_arg8)) slices_S3x96_S1x96_1_0) shapeCasts_S1x96_S96 = _
  rw [Walk.arg8_8 m ρ c]
  exact HostVals.row_eq 1 1 rfl _ _ _
theorem bhhV : V9 m ρ c main_v53 = row 1 (m ((c : Thread nD τ).loc main_arg9)) := by
  show StableHlo.after hostOps4 (W8 m ρ c) (Proc.devRef .tc main_v53) = _
  after_results
  show shapeCast S96 (extractStridedSlice S1x96 ![1, 0] (W8 m ρ c (Proc.devRef .tc main_arg9)) slices_S3x96_S1x96_1_0) shapeCasts_S1x96_S96 = _
  rw [Walk.arg9_8 m ρ c]
  exact HostVals.row_eq 1 1 rfl _ _ _

/-- The round: from the state array h it finds to the state array it leaves. -/
theorem round (h : FVec Ideal ⟨2, ![100000, 32]⟩ .f32) (hS : W6 m ρ c (Proc.devRef .tc main_v30) = h) :
    W10 m ρ c (Proc.devRef .tc main_v54)
      = Cert.GNN.round (aggregate (m ((c : Thread nD τ).loc main_arg1)))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) 1 h := by
  have hmsg : W8 m ρ c (Proc.devRef .tc main_v35)
      = layer h (slab 1 (m ((c : Thread nD τ).loc main_arg4))) (row 1 (m ((c : Thread nD τ).loc main_arg5))) := by
    refine (W8_arr m ρ c 3).trans ((Region3.final (V7 m ρ) c).trans ?_)
    rw [msgW m ρ c, msgB m ρ c]
    show layer (W7 m ρ c (Proc.devRef .tc main_v30)) _ _ = _
    rw [Walk.v30_7 m ρ c, hS]
  refine (W10_arr m ρ c 6).trans ((Region4.final (V9 m ρ) c).trans ?_)
  rw [aggV m ρ c, wihV m ρ c, whhV m ρ c, bihV m ρ c, bhhV m ρ c, hmsg]
  show gru _ (W9 m ρ c (Proc.devRef .tc main_v30)) _ _ _ _ = _
  rw [Walk.v30_9 m ρ c, hS]
  rfl

end Cert.GNN.KRound1

end
-- ==== Proof.Region5.lean ====
/-
  Region 5, the third round's message layer: after its fifty grid points the output array is the rectified affine layer of the three operand arrays as
  the region finds them. Point t computes the layer on rows 2000·t … 2000·t + 1999 of the row operand (the weight and
  bias blocks are the whole arrays at every point) and writes those rows back; a layer's row depends on that row of the
  operand only, so what is written is the same rows of the layer on the whole array, and the fifty blocks cover it.
-/
import proofs.«174392_j3315714752917_1_alg».proof.Proof.Gen.KernelIdeal.Frame
import proofs.«174392_j3315714752917_1_alg».proof.Proof.Payload
import Idealize.ShloMosaic.Lib.Pipeline.Value

noncomputable section

namespace Cert.GNN.Region5

open Cert.KernelIdeal Cert.KernelIdeal.Gen Idealize.ShloMosaic Idealize.ShloMosaic.TcCoe Idealize.ShloMosaic.ValueIdx Idealize.SL.Sem Cert.GNN
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row windows sit at block t, the weight and bias windows at block 0. -/
theorem idx_facts : ∀ t : Fin cfg5.N, win5_0.index t (0 : Fin 2) = win5_3.index t (0 : Fin 2)
    ∧ win5_0.index t (1 : Fin 2) = 0 ∧ win5_1.index t (0 : Fin 2) = 0 ∧ win5_1.index t (1 : Fin 2) = 0
    ∧ win5_2.index t (0 : Fin 1) = 0 ∧ win5_3.index t (1 : Fin 2) = 0 ∧ win5_3.index t (0 : Fin 2) ≤ 49 :=
  (by decide +kernel : ∀ t : Fin grid5.N, _)

/-- Every row block is some point's. -/
theorem idx_onto : ∀ q0 : Fin 50, ∃ t : Fin cfg5.N, win5_3.index t = ![q0.val, 0] :=
  (by decide +kernel : ∀ q0 : Fin 50, ∃ t : Fin grid5.N, win5_3.index t = ![q0.val, 0])

/-- What point t writes back is block t of the layer on the whole arrays. -/
theorem flushed_eq (c : Dev nD) (t : Fin cfg5.N) :
    (dat5 V c).flushed 3 t
      = ((cfg5.win 3).blk t).view.read (Elt Ideal) (layer (V c main_v54) (V c main_v56) (V c main_v58)) := by
  show (cfg5.win 3).cut (grid5.coords t) ((dat5 V c).after 3 t) = _
  rw [after5_3]
  unfold out5_3
  rw [View.canon_unit_zero hz2]
  simp only [View.ld_unit_zero (S := S2000x32) hz2, View.ld_unit_zero (S := S32x32) hz2, View.ld_unit_zero (S := S32) hz1]
  rw [Payload.message5_eq]
  obtain ⟨e0, e1, e2, e3, e4, e5, e6⟩ := idx_facts t
  have hw : iblk5 V c 1 t = V c main_v56 := by
    funext y
    show V c main_v56 (((cfg5.win 1).blk t).view.emb y) = V c main_v56 y
    refine congrArg _ (funext fun a => Fin.ext ?_)
    match a with
    | ⟨0, _⟩ => show win5_1.index t (0 : Fin 2) * 32 + 1 * (y 0).val = (y 0).val; omega
    | ⟨1, _⟩ => show win5_1.index t (1 : Fin 2) * 32 + 1 * (y 1).val = (y 1).val; omega
  have hb : iblk5 V c 2 t = V c main_v58 := by
    funext y
    show V c main_v58 (((cfg5.win 2).blk t).view.emb y) = V c main_v58 y
    refine congrArg _ (funext fun a => Fin.ext ?_)
    match a with
    | ⟨0, _⟩ => show win5_2.index t (0 : Fin 1) * 32 + 1 * (y 0).val = (y 0).val; omega
  rw [hw, hb]
  funext y
  obtain ⟨p, q, rfl⟩ : ∃ (p : Fin 2000) (q : Fin 32), y = ix2 p q := ⟨y 0, y 1, eq_ix2 y⟩
  have hp : p.val < 2000 := p.isLt
  have hP : win5_3.index t (0 : Fin 2) * 2000 + p.val < 100000 := by omega
  have hemb : ((cfg5.win 3).blk t).view.emb (ix2 p q) = ix2 (⟨win5_3.index t (0 : Fin 2) * 2000 + p.val, hP⟩ : Fin 100000) q := by
    funext a; apply Fin.ext
    match a with
    | ⟨0, _⟩ => show win5_3.index t (0 : Fin 2) * 2000 + 1 * p.val = win5_3.index t (0 : Fin 2) * 2000 + p.val; omega
    | ⟨1, _⟩ => show win5_3.index t (1 : Fin 2) * 32 + 1 * q.val = q.val; omega
  show layer (iblk5 V c 0 t) (V c main_v56) (V c main_v58) (ix2 p q)
    = layer (V c main_v54) (V c main_v56) (V c main_v58) (((cfg5.win 3).blk t).view.emb (ix2 p q))
  rw [hemb]
  refine layer_rows (V c main_v54) (iblk5 V c 0 t) (V c main_v56) (V c main_v58) _ p (fun k => ?_) q
  show V c main_v54 (((cfg5.win 0).blk t).view.emb (ix2 p k)) = _
  refine congrArg _ (funext fun a => Fin.ext ?_)
  match a with
  | ⟨0, _⟩ => show win5_0.index t (0 : Fin 2) * 2000 + 1 * p.val = win5_3.index t (0 : Fin 2) * 2000 + p.val; omega
  | ⟨1, _⟩ => show win5_0.index t (1 : Fin 2) * 32 + 1 * k.val = k.val; omega

/-- An index of the output array is in point t's block iff each coordinate is in the block's range on its axis. -/
theorem mem_blk (t : Fin cfg5.N) (i : S100000x32.Idx) :
    i ∈ ((cfg5.win 3).blk t).view.set ↔ ∀ a : Fin 2, win5_3.index t a * S2000x32.size a ≤ (i a).val ∧ (i a).val < win5_3.index t a * S2000x32.size a + S2000x32.size a := by
  show i ∈ ((View.whole main_v59).slice (win5_3.rect t)).set ↔ _
  rw [View.set_slice_whole, Rect.mem_set_unit]
  exact Iff.rfl

/-- The blocks cover the output array: row r is in block r / 2000. -/
theorem cover (i : S100000x32.Idx) : ∃ t : Fin cfg5.N, (cfg5.win 3).flush t = true ∧ i ∈ ((cfg5.win 3).blk t).view.set := by
  have hi0 : (i 0).val < 100000 := (i 0).isLt
  have hi1 : (i 1).val < 32 := (i 1).isLt
  obtain ⟨t, ht⟩ := idx_onto ⟨(i 0).val / 2000, by omega⟩
  have q0 : win5_3.index t (0 : Fin 2) = (i 0).val / 2000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 32 ≤ (i 1).val ∧ (i 1).val < win5_3.index t (1 : Fin 2) * 32 + 32; omega

/-- The output array after the region. -/
theorem final (c : Dev nD) :
    (dat5 V c).arrAt 3 cfg5.N = layer (V c main_v54) (V c main_v56) (V c main_v58) :=
  (dat5 V c).arrAt_eq_of_cover 3 _ (fun t _ => flushed_eq V c t) cover

end Cert.GNN.Region5

end
-- ==== Proof.Region6.lean ====
/-
  Region 6, the third round's gated update: after its fifty grid points the output array is the gated recurrent update of the six operand arrays as the
  region finds them. Point t computes the update on rows 2000·t … 2000·t + 1999 of the aggregated messages and of the
  states (the two weight blocks and the two bias blocks are the whole arrays at every point) and writes those rows back;
  the update of a node reads that node's rows only, so what is written is the same rows of the update on the whole
  arrays, and the fifty blocks cover the output.
-/
import proofs.«174392_j3315714752917_1_alg».proof.Proof.Gen.KernelIdeal.Frame
import proofs.«174392_j3315714752917_1_alg».proof.Proof.Payload
import Idealize.ShloMosaic.Lib.Pipeline.Value

noncomputable section

namespace Cert.GNN.Region6

open Cert.KernelIdeal Cert.KernelIdeal.Gen Idealize.ShloMosaic Idealize.ShloMosaic.TcCoe Idealize.ShloMosaic.ValueIdx Idealize.SL.Sem Cert.GNN
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row windows sit at block t, the weight and bias windows at block 0. -/
theorem idx_facts : ∀ t : Fin cfg6.N, win6_0.index t (0 : Fin 2) = win6_6.index t (0 : Fin 2)
    ∧ win6_0.index t (1 : Fin 2) = 0 ∧ win6_1.index t (0 : Fin 2) = win6_6.index t (0 : Fin 2)
    ∧ win6_1.index t (1 : Fin 2) = 0 ∧ win6_2.index t (0 : Fin 2) = 0 ∧ win6_2.index t (1 : Fin 2) = 0
    ∧ win6_3.index t (0 : Fin 2) = 0 ∧ win6_3.index t (1 : Fin 2) = 0 ∧ win6_4.index t (0 : Fin 1) = 0
    ∧ win6_5.index t (0 : Fin 1) = 0 ∧ win6_6.index t (1 : Fin 2) = 0 ∧ win6_6.index t (0 : Fin 2) ≤ 49 :=
  (by decide +kernel : ∀ t : Fin grid6.N, _)

/-- Every row block is some point's. -/
theorem idx_onto : ∀ q0 : Fin 50, ∃ t : Fin cfg6.N, win6_6.index t = ![q0.val, 0] :=
  (by decide +kernel : ∀ q0 : Fin 50, ∃ t : Fin grid6.N, win6_6.index t = ![q0.val, 0])

/-- A block-sized array that agrees row by row with rows 2000·t … of an array is that array's block t, read back. -/
theorem block_of_rows (t : Fin cfg6.N) (g : FVec Ideal S2000x32 .f32) (G : FVec Ideal S100000x32 .f32)
    (hrow : ∀ (p : Fin 2000) (q : Fin 32) (hP : win6_6.index t (0 : Fin 2) * 2000 + p.val < 100000),
      g (ix2 p q) = G (ix2 (⟨win6_6.index t (0 : Fin 2) * 2000 + p.val, hP⟩ : Fin 100000) q)) :
    (cfg6.win 6).cut (grid6.coords t) g = ((cfg6.win 6).blk t).view.read (Elt Ideal) G := by
  obtain ⟨e0, e1, e2, e3, e4, e5, e6, e7, e8, e9, e10, e11⟩ := idx_facts t
  funext y
  obtain ⟨p, q, rfl⟩ : ∃ (p : Fin 2000) (q : Fin 32), y = ix2 p q := ⟨y 0, y 1, eq_ix2 y⟩
  have hp : p.val < 2000 := p.isLt
  have hP : win6_6.index t (0 : Fin 2) * 2000 + p.val < 100000 := by omega
  have hemb : ((cfg6.win 6).blk t).view.emb (ix2 p q) = ix2 (⟨win6_6.index t (0 : Fin 2) * 2000 + p.val, hP⟩ : Fin 100000) q := by
    funext a; apply Fin.ext
    match a with
    | ⟨0, _⟩ => show win6_6.index t (0 : Fin 2) * 2000 + 1 * p.val = win6_6.index t (0 : Fin 2) * 2000 + p.val; omega
    | ⟨1, _⟩ => show win6_6.index t (1 : Fin 2) * 32 + 1 * q.val = q.val; omega
  show g (ix2 p q) = G (((cfg6.win 6).blk t).view.emb (ix2 p q))
  rw [hemb]
  exact hrow p q hP

set_option maxHeartbeats 1000000 in
/-- What point t writes back is block t of the update on the whole arrays. -/
theorem flushed_eq (c : Dev nD) (t : Fin cfg6.N) :
    (dat6 V c).flushed 6 t
      = ((cfg6.win 6).blk t).view.read (Elt Ideal)
          (gru (V c main_v69) (V c main_v54) (V c main_v71) (V c main_v73) (V c main_v75) (V c main_v77)) := by
  show (cfg6.win 6).cut (grid6.coords t) ((dat6 V c).after 6 t) = _
  rw [after6_6]
  unfold out6_6
  rw [View.canon_unit_zero hz2]
  simp only [View.ld_unit_zero (S := S2000x32) hz2, View.ld_unit_zero (S := S32x96) hz2, View.ld_unit_zero (S := S96) hz1]
  rw [Payload.update6_eq]
  obtain ⟨e0, e1, e2, e3, e4, e5, e6, e7, e8, e9, e10, e11⟩ := idx_facts t
  have hwi : iblk6 V c 2 t = V c main_v71 := by
    funext y
    show V c main_v71 (((cfg6.win 2).blk t).view.emb y) = V c main_v71 y
    refine congrArg _ (funext fun a => Fin.ext ?_)
    match a with
    | ⟨0, _⟩ => show win6_2.index t (0 : Fin 2) * 32 + 1 * (y 0).val = (y 0).val; omega
    | ⟨1, _⟩ => show win6_2.index t (1 : Fin 2) * 96 + 1 * (y 1).val = (y 1).val; omega
  have hwh : iblk6 V c 3 t = V c main_v73 := by
    funext y
    show V c main_v73 (((cfg6.win 3).blk t).view.emb y) = V c main_v73 y
    refine congrArg _ (funext fun a => Fin.ext ?_)
    match a with
    | ⟨0, _⟩ => show win6_3.index t (0 : Fin 2) * 32 + 1 * (y 0).val = (y 0).val; omega
    | ⟨1, _⟩ => show win6_3.index t (1 : Fin 2) * 96 + 1 * (y 1).val = (y 1).val; omega
  have hbi : iblk6 V c 4 t = V c main_v75 := by
    funext y
    show V c main_v75 (((cfg6.win 4).blk t).view.emb y) = V c main_v75 y
    refine congrArg _ (funext fun a => Fin.ext ?_)
    match a with
    | ⟨0, _⟩ => show win6_4.index t (0 : Fin 1) * 96 + 1 * (y 0).val = (y 0).val; omega
  have hbh : iblk6 V c 5 t = V c main_v77 := by
    funext y
    show V c main_v77 (((cfg6.win 5).blk t).view.emb y) = V c main_v77 y
    refine congrArg _ (funext fun a => Fin.ext ?_)
    match a with
    | ⟨0, _⟩ => show win6_5.index t (0 : Fin 1) * 96 + 1 * (y 0).val = (y 0).val; omega
  rw [hwi, hwh, hbi, hbh]
  refine block_of_rows t _ _ (fun p q hP => ?_)
  refine gru_rows (V c main_v69) (V c main_v54) (iblk6 V c 0 t) (iblk6 V c 1 t) (V c main_v71) (V c main_v73) (V c main_v75) (V c main_v77) _ p
    (fun k => ?_) (fun k => ?_) q
  · show V c main_v69 (((cfg6.win 0).blk t).view.emb (ix2 p k)) = _
    refine congrArg _ (funext fun a => Fin.ext ?_)
    match a with
    | ⟨0, _⟩ => show win6_0.index t (0 : Fin 2) * 2000 + 1 * p.val = win6_6.index t (0 : Fin 2) * 2000 + p.val; omega
    | ⟨1, _⟩ => show win6_0.index t (1 : Fin 2) * 32 + 1 * k.val = k.val; omega
  · show V c main_v54 (((cfg6.win 1).blk t).view.emb (ix2 p k)) = _
    refine congrArg _ (funext fun a => Fin.ext ?_)
    match a with
    | ⟨0, _⟩ => show win6_1.index t (0 : Fin 2) * 2000 + 1 * p.val = win6_6.index t (0 : Fin 2) * 2000 + p.val; omega
    | ⟨1, _⟩ => show win6_1.index t (1 : Fin 2) * 32 + 1 * k.val = k.val; omega

/-- An index of the output array is in point t's block iff each coordinate is in the block's range on its axis. -/
theorem mem_blk (t : Fin cfg6.N) (i : S100000x32.Idx) :
    i ∈ ((cfg6.win 6).blk t).view.set ↔ ∀ a : Fin 2, win6_6.index t a * S2000x32.size a ≤ (i a).val ∧ (i a).val < win6_6.index t a * S2000x32.size a + S2000x32.size a := by
  show i ∈ ((View.whole main_v78).slice (win6_6.rect t)).set ↔ _
  rw [View.set_slice_whole, Rect.mem_set_unit]
  exact Iff.rfl

/-- The blocks cover the output array: row r is in block r / 2000. -/
theorem cover (i : S100000x32.Idx) : ∃ t : Fin cfg6.N, (cfg6.win 6).flush t = true ∧ i ∈ ((cfg6.win 6).blk t).view.set := by
  have hi0 : (i 0).val < 100000 := (i 0).isLt
  have hi1 : (i 1).val < 32 := (i 1).isLt
  obtain ⟨t, ht⟩ := idx_onto ⟨(i 0).val / 2000, by omega⟩
  have q0 : win6_6.index t (0 : Fin 2) = (i 0).val / 2000 := congrFun ht 0
  have q1 : win6_6.index t (1 : Fin 2) = 0 := congrFun ht 1
  refine ⟨t, flush6_6 t, ?_⟩
  rw [mem_blk]
  intro a
  match a with
  | ⟨0, _⟩ => show win6_6.index t (0 : Fin 2) * 2000 ≤ (i 0).val ∧ (i 0).val < win6_6.index t (0 : Fin 2) * 2000 + 2000; omega
  | ⟨1, _⟩ => show win6_6.index t (1 : Fin 2) * 32 ≤ (i 1).val ∧ (i 1).val < win6_6.index t (1 : Fin 2) * 32 + 32; omega

/-- The output array after the region. -/
theorem final (c : Dev nD) :
    (dat6 V c).arrAt 6 cfg6.N = gru (V c main_v69) (V c main_v54) (V c main_v71) (V c main_v73) (V c main_v75) (V c main_v77) :=
  (dat6 V c).arrAt_eq_of_cover 6 _ (fun t _ => flushed_eq V c t) cover

end Cert.GNN.Region6

end
-- ==== Proof.KRound2.lean ====
/-
  The third round of the kernel program. Given the state array h the round finds, the message region's weight
  operands are slab 2 and row 2 of the message stacks, so its output is the message layer of h; the host stretch
  that follows gathers and scatter-adds those messages along the edge lists (held since the first host stretch) and
  slices the transposed update stacks (held since the second) and the update biases; the update region then leaves the
  gated update of the aggregated messages and h. Together: the round function of the specification applied to h.
-/
import proofs.«174392_j3315714752917_1_alg».proof.Proof.Region5
import proofs.«174392_j3315714752917_1_alg».proof.Proof.Region6
import proofs.«174392_j3315714752917_1_alg».proof.Proof.WalkArgs
import proofs.«174392_j3315714752917_1_alg».proof.Proof.WalkHost
import proofs.«174392_j3315714752917_1_alg».proof.Proof.WalkState
import proofs.«174392_j3315714752917_1_alg».proof.Proof.HostEdges
import proofs.«174392_j3315714752917_1_alg».proof.Proof.HostVals

noncomputable section

namespace Cert.GNN.KRound2

open Cert.KernelIdeal Cert.KernelIdeal.Gen Idealize.ShloMosaic Idealize.ShloMosaic.TcCoe Idealize.ShloMosaic.ValueIdx Idealize.SL.Sem
open Idealize.ShloMosaic.StableHlo Cert.GNN

variable (m : (ℓ : Loc nD τ sig) → Buf (Elt Ideal) ℓ) (ρ : Dev nD → PrngReg) (c : Dev nD)

/-- The message region's matrix operand is slab 2 of the message matrices. -/
theorem msgW : V11 m ρ c main_v56 = slab 2 (m ((c : Thread nD τ).loc main_arg4)) := by
  show StableHlo.after hostOps5 (W10 m ρ c) (Proc.devRef .tc main_v56) = _
  after_results
  show shapeCast S32x32 (extractStridedSlice S1x32x32 ![2, 0, 0] (W10 m ρ c (Proc.devRef .tc main_arg4)) slices_S3x32x32_S1x32x32_2_0_0) shapeCasts_S1x32x32_S32x32 = _
  rw [Walk.arg4_10 m ρ c]
  exact HostVals.slab_eq 2 2 rfl _ _ _

/-- The message region's bias operand is row 2 of the message biases. -/
theorem msgB : V11 m ρ c main_v58 = row 2 (m ((c : Thread nD τ).loc main_arg5)) := by
  show StableHlo.after hostOps5 (W10 m ρ c) (Proc.devRef .tc main_v58) = _
  after_results
  show shapeCast S32 (extractStridedSlice S1x32 ![2, 0] (W10 m ρ c (Proc.devRef .tc main_arg5)) slices_S3x32_S1x32_2_0) shapeCasts_S1x32_S32 = _
  rw [Walk.arg5_10 m ρ c]
  exact HostVals.row_eq 2 2 rfl _ _ _

set_option maxHeartbeats 1000000 in
/-- The host stretch before the update region, run from any buffer contents, leaves in the aggregated-messages buffer the
    aggregation of the messages along the two edge lists as it finds them. -/
theorem agg_of (V : Valuation τ sig (Elt Ideal)) :
    StableHlo.after hostOps6 V (Proc.devRef .tc main_v69)
      = aggregateOf (V (Proc.devRef .tc main_v1)) (V (Proc.devRef .tc main_v3)) (V (Proc.devRef .tc main_v59)) := by
  after_results
  unfold aggregateOf
  rfl

/-- The update region's aggregated-messages operand is the aggregation of the message region's output. -/
theorem aggV : V13 m ρ c main_v69
    = aggregate (m ((c : Thread nD τ).loc main_arg1)) (W12 m ρ c (Proc.devRef .tc main_v59)) :=
  (agg_of (W12 m ρ c)).trans
    (congrArg₂ (fun s d => aggregateOf s d (W12 m ρ c (Proc.devRef .tc main_v59)))
      ((Walk.v1_12 m ρ c).trans (HostEdges.src m ρ c)) ((Walk.v3_12 m ρ c).trans (HostEdges.dst m ρ c)))

/-- The update region's two matrix operands are the transposed slabs 2 of the update stacks. -/
theorem wihV : V13 m ρ c main_v71 = slabT 2 (m ((c : Thread nD τ).loc main_arg6)) := by
  show StableHlo.after hostOps6 (W12 m ρ c) (Proc.devRef .tc main_v71) = _
  after_results
  show shapeCast S32x96 (extractStridedSlice S1x32x96 ![2, 0, 0] (W12 m ρ c (Proc.devRef .tc main_v5)) slices_S3x32x96_S1x32x96_2_0_0) shapeCasts_S1x32x96_S32x96 = _
  rw [Walk.v5_12 m ρ c, HostEdges.wihT m ρ c]
  exact HostVals.slabT_eq 2 2 rfl _ _ _ _
theorem whhV : V13 m ρ c main_v73 = slabT 2 (m ((c : Thread nD τ).loc main_arg7)) := by
  show StableHlo.after hostOps6 (W12 m ρ c) (Proc.devRef .tc main_v73) = _
  after_results
  show shapeCast S32x96 (extractStridedSlice S1x32x96 ![2, 0, 0] (W12 m ρ c (Proc.devRef .tc main_v6)) slices_S3x32x96_S1x32x96_2_0_0) shapeCasts_S1x32x96_S32x96 = _
  rw [Walk.v6_12 m ρ c, HostEdges.whhT m ρ c]
  exact HostVals.slabT_eq 2 2 rfl _ _ _ _

/-- The update region's two bias operands are rows 2 of the update biases. -/
theorem bihV : V13 m ρ c main_v75 = row 2 (m ((c : Thread nD τ).loc main_arg8)) := by
  show StableHlo.after hostOps6 (W12 m ρ c) (Proc.devRef .tc main_v75) = _
  after_results
  show shapeCast S96 (extractStridedSlice S1x96 ![2, 0] (W12 m ρ c (Proc.devRef .tc main_arg8)) slices_S3x96_S1x96_2_0) shapeCasts_S1x96_S96 = _
  rw [Walk.arg8_12 m ρ c]
  exact HostVals.row_eq 2 2 rfl _ _ _
theorem bhhV : V13 m ρ c main_v77 = row 2 (m ((c : Thread nD τ).loc main_arg9)) := by
  show StableHlo.after hostOps6 (W12 m ρ c) (Proc.devRef .tc main_v77) = _
  after_results
  show shapeCast S96 (extractStridedSlice S1x96 ![2, 0] (W12 m ρ c (Proc.devRef .tc main_arg9)) slices_S3x96_S1x96_2_0) shapeCasts_S1x96_S96 = _
  rw [Walk.arg9_12 m ρ c]
  exact HostVals.row_eq 2 2 rfl _ _ _

/-- The round: from the state array h it finds to the state array it leaves. -/
theorem round (h : FVec Ideal ⟨2, ![100000, 32]⟩ .f32) (hS : W10 m ρ c (Proc.devRef .tc main_v54) = h) :
    W14 m ρ c (Proc.devRef .tc main_v78)
      = Cert.GNN.round (aggregate (m ((c : Thread nD τ).loc main_arg1)))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) 2 h := by
  have hmsg : W12 m ρ c (Proc.devRef .tc main_v59)
      = layer h (slab 2 (m ((c : Thread nD τ).loc main_arg4))) (row 2 (m ((c : Thread nD τ).loc main_arg5))) := by
    refine (W12_arr m ρ c 3).trans ((Region5.final (V11 m ρ) c).trans ?_)
    rw [msgW m ρ c, msgB m ρ c]
    show layer (W11 m ρ c (Proc.devRef .tc main_v54)) _ _ = _
    rw [Walk.v54_11 m ρ c, hS]
  refine (W14_arr m ρ c 6).trans ((Region6.final (V13 m ρ) c).trans ?_)
  rw [aggV m ρ c, wihV m ρ c, whhV m ρ c, bihV m ρ c, bhhV m ρ c, hmsg]
  show gru _ (W13 m ρ c (Proc.devRef .tc main_v54)) _ _ _ _ = _
  rw [Walk.v54_13 m ρ c, hS]
  rfl

end Cert.GNN.KRound2

end
-- ==== Proof.Region7.lean ====
/-
  Region 7, the two heads: after its fifty grid points each of the two output arrays is the affine layer of the final
  states with that head's matrix and bias, as the region finds them. Point t computes both heads on rows
  2000·t … 2000·t + 1999 of the states and writes those rows of each output back; a row of an affine layer reads that
  row of the states only, and the fifty blocks cover each output.
-/
import proofs.«174392_j3315714752917_1_alg».proof.Proof.Gen.KernelIdeal.Frame
import proofs.«174392_j3315714752917_1_alg».proof.Proof.Payload
import Idealize.ShloMosaic.Lib.Pipeline.Value

noncomputable section

namespace Cert.GNN.Region7

open Cert.KernelIdeal Cert.KernelIdeal.Gen Idealize.ShloMosaic Idealize.ShloMosaic.TcCoe Idealize.ShloMosaic.ValueIdx Idealize.SL.Sem Cert.GNN
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row windows sit at block t, the matrix and bias windows at block 0. -/
theorem idx_facts : ∀ t : Fin cfg7.N, win7_0.index t (0 : Fin 2) = win7_5.index t (0 : Fin 2)
    ∧ win7_0.index t (1 : Fin 2) = 0 ∧ win7_6.index t (0 : Fin 2) = win7_5.index t (0 : Fin 2)
    ∧ win7_6.index t (1 : Fin 2) = 0 ∧ win7_1.index t (0 : Fin 2) = 0 ∧ win7_1.index t (1 : Fin 2) = 0
    ∧ win7_3.index t (0 : Fin 2) = 0 ∧ win7_3.index t (1 : Fin 2) = 0 ∧ win7_2.index t (0 : Fin 1) = 0
    ∧ win7_4.index t (0 : Fin 1) = 0 ∧ win7_5.index t (1 : Fin 2) = 0 ∧ win7_5.index t (0 : Fin 2) ≤ 49 :=
  (by decide +kernel : ∀ t : Fin grid7.N, _)

/-- Every row block of either output is some point's. -/
theorem idx_onto5 : ∀ q0 : Fin 50, ∃ t : Fin cfg7.N, win7_5.index t = ![q0.val, 0] :=
  (by decide +kernel : ∀ q0 : Fin 50, ∃ t : Fin grid7.N, win7_5.index t = ![q0.val, 0])
theorem idx_onto6 : ∀ q0 : Fin 50, ∃ t : Fin cfg7.N, win7_6.index t = ![q0.val, 0] :=
  (by decide +kernel : ∀ q0 : Fin 50, ∃ t : Fin grid7.N, win7_6.index t = ![q0.val, 0])

/-- What point t writes back to output mu is block t of the affine head on the whole arrays. -/
theorem flushed5_eq (c : Dev nD) (t : Fin cfg7.N) :
    (dat7 V c).flushed 5 t
      = ((cfg7.win 5).blk t).view.read (Elt Ideal) (affine (V c main_v78) (V c main_arg10) (V c main_arg11)) := by
  show (cfg7.win 5).cut (grid7.coords t) ((dat7 V c).after 5 t) = _
  rw [after7_5]
  unfold out7_5
  rw [View.canon_unit_zero hz2]
  simp only [View.ld_unit_zero (S := S2000x32) hz2, View.ld_unit_zero (S := S32x16) hz2, View.ld_unit_zero (S := S16) hz1]
  rw [Payload.head2_eq]
  obtain ⟨e0, e1, e2, e3, e4, e5, e6, e7, e8, e9, e10, e11⟩ := idx_facts t
  have hw : iblk7 V c 1 t = V c main_arg10 := by
    funext y
    show V c main_arg10 (((cfg7.win 1).blk t).view.emb y) = V c main_arg10 y
    refine congrArg _ (funext fun a => Fin.ext ?_)
    match a with
    | ⟨0, _⟩ => show win7_1.index t (0 : Fin 2) * 32 + 1 * (y 0).val = (y 0).val; omega
    | ⟨1, _⟩ => show win7_1.index t (1 : Fin 2) * 16 + 1 * (y 1).val = (y 1).val; omega
  have hb : iblk7 V c 2 t = V c main_arg11 := by
    funext y
    show V c main_arg11 (((cfg7.win 2).blk t).view.emb y) = V c main_arg11 y
    refine congrArg _ (funext fun a => Fin.ext ?_)
    match a with
    | ⟨0, _⟩ => show win7_2.index t (0 : Fin 1) * 16 + 1 * (y 0).val = (y 0).val; omega
  rw [hw, hb]
  funext y
  obtain ⟨p, q, rfl⟩ : ∃ (p : Fin 2000) (q : Fin 16), y = ix2 p q := ⟨y 0, y 1, eq_ix2 y⟩
  have hp : p.val < 2000 := p.isLt
  have hP : win7_5.index t (0 : Fin 2) * 2000 + p.val < 100000 := by omega
  have hemb : ((cfg7.win 5).blk t).view.emb (ix2 p q) = ix2 (⟨win7_5.index t (0 : Fin 2) * 2000 + p.val, hP⟩ : Fin 100000) q := by
    funext a; apply Fin.ext
    match a with
    | ⟨0, _⟩ => show win7_5.index t (0 : Fin 2) * 2000 + 1 * p.val = win7_5.index t (0 : Fin 2) * 2000 + p.val; omega
    | ⟨1, _⟩ => show win7_5.index t (1 : Fin 2) * 16 + 1 * q.val = q.val; omega
  show affine (iblk7 V c 0 t) (V c main_arg10) (V c main_arg11) (ix2 p q)
    = affine (V c main_v78) (V c main_arg10) (V c main_arg11) (((cfg7.win 5).blk t).view.emb (ix2 p q))
  rw [hemb]
  refine affine_rows (V c main_v78) (iblk7 V c 0 t) (V c main_arg10) (V c main_arg11) _ p (fun k => ?_) q
  show V c main_v78 (((cfg7.win 0).blk t).view.emb (ix2 p k)) = _
  refine congrArg _ (funext fun a => Fin.ext ?_)
  match a with
  | ⟨0, _⟩ => show win7_0.index t (0 : Fin 2) * 2000 + 1 * p.val = win7_5.index t (0 : Fin 2) * 2000 + p.val; omega
  | ⟨1, _⟩ => show win7_0.index t (1 : Fin 2) * 32 + 1 * k.val = k.val; omega

/-- An index of output mu's array is in point t's block iff each coordinate is in the block's range on its axis. -/
theorem mem_blk5 (t : Fin cfg7.N) (i : S100000x16.Idx) :
    i ∈ ((cfg7.win 5).blk t).view.set ↔ ∀ a : Fin 2, win7_5.index t a * S2000x16.size a ≤ (i a).val ∧ (i a).val < win7_5.index t a * S2000x16.size a + S2000x16.size a := by
  show i ∈ ((View.whole main_v79_0).slice (win7_5.rect t)).set ↔ _
  rw [View.set_slice_whole, Rect.mem_set_unit]
  exact Iff.rfl

/-- The blocks cover output mu's array: row r is in block r / 2000. -/
theorem cover5 (i : S100000x16.Idx) : ∃ t : Fin cfg7.N, (cfg7.win 5).flush t = true ∧ i ∈ ((cfg7.win 5).blk t).view.set := by
  have hi0 : (i 0).val < 100000 := (i 0).isLt
  have hi1 : (i 1).val < 16 := (i 1).isLt
  obtain ⟨t, ht⟩ := idx_onto5 ⟨(i 0).val / 2000, by omega⟩
  have q0 : win7_5.index t (0 : Fin 2) = (i 0).val / 2000 := congrFun ht 0
  have q1 : win7_5.index t (1 : Fin 2) = 0 := congrFun ht 1
  refine ⟨t, flush7_5 t, ?_⟩
  rw [mem_blk5]
  intro a
  match a with
  | ⟨0, _⟩ => show win7_5.index t (0 : Fin 2) * 2000 ≤ (i 0).val ∧ (i 0).val < win7_5.index t (0 : Fin 2) * 2000 + 2000; omega
  | ⟨1, _⟩ => show win7_5.index t (1 : Fin 2) * 16 ≤ (i 1).val ∧ (i 1).val < win7_5.index t (1 : Fin 2) * 16 + 16; omega

/-- Output mu's array after the region. -/
theorem final5 (c : Dev nD) :
    (dat7 V c).arrAt 5 cfg7.N = affine (V c main_v78) (V c main_arg10) (V c main_arg11) :=
  (dat7 V c).arrAt_eq_of_cover 5 _ (fun t _ => flushed5_eq V c t) cover5

/-- What point t writes back to output logstd is block t of the affine head on the whole arrays. -/
theorem flushed6_eq (c : Dev nD) (t : Fin cfg7.N) :
    (dat7 V c).flushed 6 t
      = ((cfg7.win 6).blk t).view.read (Elt Ideal) (affine (V c main_v78) (V c main_arg12) (V c main_arg13)) := by
  show (cfg7.win 6).cut (grid7.coords t) ((dat7 V c).after 6 t) = _
  rw [after7_6]
  unfold out7_6
  rw [View.canon_unit_zero hz2]
  simp only [View.ld_unit_zero (S := S2000x32) hz2, View.ld_unit_zero (S := S32x16) hz2, View.ld_unit_zero (S := S16) hz1]
  rw [Payload.head3_eq]
  obtain ⟨e0, e1, e2, e3, e4, e5, e6, e7, e8, e9, e10, e11⟩ := idx_facts t
  have hw : iblk7 V c 3 t = V c main_arg12 := by
    funext y
    show V c main_arg12 (((cfg7.win 3).blk t).view.emb y) = V c main_arg12 y
    refine congrArg _ (funext fun a => Fin.ext ?_)
    match a with
    | ⟨0, _⟩ => show win7_3.index t (0 : Fin 2) * 32 + 1 * (y 0).val = (y 0).val; omega
    | ⟨1, _⟩ => show win7_3.index t (1 : Fin 2) * 16 + 1 * (y 1).val = (y 1).val; omega
  have hb : iblk7 V c 4 t = V c main_arg13 := by
    funext y
    show V c main_arg13 (((cfg7.win 4).blk t).view.emb y) = V c main_arg13 y
    refine congrArg _ (funext fun a => Fin.ext ?_)
    match a with
    | ⟨0, _⟩ => show win7_4.index t (0 : Fin 1) * 16 + 1 * (y 0).val = (y 0).val; omega
  rw [hw, hb]
  funext y
  obtain ⟨p, q, rfl⟩ : ∃ (p : Fin 2000) (q : Fin 16), y = ix2 p q := ⟨y 0, y 1, eq_ix2 y⟩
  have hp : p.val < 2000 := p.isLt
  have hP : win7_6.index t (0 : Fin 2) * 2000 + p.val < 100000 := by omega
  have hemb : ((cfg7.win 6).blk t).view.emb (ix2 p q) = ix2 (⟨win7_6.index t (0 : Fin 2) * 2000 + p.val, hP⟩ : Fin 100000) q := by
    funext a; apply Fin.ext
    match a with
    | ⟨0, _⟩ => show win7_6.index t (0 : Fin 2) * 2000 + 1 * p.val = win7_6.index t (0 : Fin 2) * 2000 + p.val; omega
    | ⟨1, _⟩ => show win7_6.index t (1 : Fin 2) * 16 + 1 * q.val = q.val; omega
  show affine (iblk7 V c 0 t) (V c main_arg12) (V c main_arg13) (ix2 p q)
    = affine (V c main_v78) (V c main_arg12) (V c main_arg13) (((cfg7.win 6).blk t).view.emb (ix2 p q))
  rw [hemb]
  refine affine_rows (V c main_v78) (iblk7 V c 0 t) (V c main_arg12) (V c main_arg13) _ p (fun k => ?_) q
  show V c main_v78 (((cfg7.win 0).blk t).view.emb (ix2 p k)) = _
  refine congrArg _ (funext fun a => Fin.ext ?_)
  match a with
  | ⟨0, _⟩ => show win7_0.index t (0 : Fin 2) * 2000 + 1 * p.val = win7_6.index t (0 : Fin 2) * 2000 + p.val; omega
  | ⟨1, _⟩ => show win7_0.index t (1 : Fin 2) * 32 + 1 * k.val = k.val; omega

/-- An index of output logstd's array is in point t's block iff each coordinate is in the block's range on its axis. -/
theorem mem_blk6 (t : Fin cfg7.N) (i : S100000x16.Idx) :
    i ∈ ((cfg7.win 6).blk t).view.set ↔ ∀ a : Fin 2, win7_6.index t a * S2000x16.size a ≤ (i a).val ∧ (i a).val < win7_6.index t a * S2000x16.size a + S2000x16.size a := by
  show i ∈ ((View.whole main_v79_1).slice (win7_6.rect t)).set ↔ _
  rw [View.set_slice_whole, Rect.mem_set_unit]
  exact Iff.rfl

/-- The blocks cover output logstd's array: row r is in block r / 2000. -/
theorem cover6 (i : S100000x16.Idx) : ∃ t : Fin cfg7.N, (cfg7.win 6).flush t = true ∧ i ∈ ((cfg7.win 6).blk t).view.set := by
  have hi0 : (i 0).val < 100000 := (i 0).isLt
  have hi1 : (i 1).val < 16 := (i 1).isLt
  obtain ⟨t, ht⟩ := idx_onto6 ⟨(i 0).val / 2000, by omega⟩
  have q0 : win7_6.index t (0 : Fin 2) = (i 0).val / 2000 := congrFun ht 0
  have q1 : win7_6.index t (1 : Fin 2) = 0 := congrFun ht 1
  refine ⟨t, flush7_6 t, ?_⟩
  rw [mem_blk6]
  intro a
  match a with
  | ⟨0, _⟩ => show win7_6.index t (0 : Fin 2) * 2000 ≤ (i 0).val ∧ (i 0).val < win7_6.index t (0 : Fin 2) * 2000 + 2000; omega
  | ⟨1, _⟩ => show win7_6.index t (1 : Fin 2) * 16 ≤ (i 1).val ∧ (i 1).val < win7_6.index t (1 : Fin 2) * 16 + 16; omega

/-- Output logstd's array after the region. -/
theorem final6 (c : Dev nD) :
    (dat7 V c).arrAt 6 cfg7.N = affine (V c main_v78) (V c main_arg12) (V c main_arg13) :=
  (dat7 V c).arrAt_eq_of_cover 6 _ (fun t _ => flushed6_eq V c t) cover6

end Cert.GNN.Region7

end
-- ==== Proof.KOut.lean ====
/-
  The head region of the kernel program: from the state array h it finds, with the head matrices and biases as launched,
  it leaves the two affine heads of h.
-/
import proofs.«174392_j3315714752917_1_alg».proof.Proof.Region7
import proofs.«174392_j3315714752917_1_alg».proof.Proof.WalkArgs

noncomputable section

namespace Cert.GNN.KOut

open Cert.KernelIdeal Cert.KernelIdeal.Gen Idealize.ShloMosaic Idealize.ShloMosaic.TcCoe Idealize.SL.Sem Cert.GNN

variable (m : (ℓ : Loc nD τ sig) → Buf (Elt Ideal) ℓ) (ρ : Dev nD → PrngReg) (c : Dev nD)

theorem mu (h : FVec Ideal ⟨2, ![100000, 32]⟩ .f32) (hS : W14 m ρ c (Proc.devRef .tc main_v78) = h) :
    W15 m ρ c (Proc.devRef .tc main_v79_0) = affine h (m ((c : Thread nD τ).loc main_arg10)) (m ((c : Thread nD τ).loc main_arg11)) := by
  refine (W15_arr m ρ c 5).trans ((Region7.final5 (V14 m ρ) c).trans ?_)
  show affine (W14 m ρ c (Proc.devRef .tc main_v78)) (W14 m ρ c (Proc.devRef .tc main_arg10)) (W14 m ρ c (Proc.devRef .tc main_arg11)) = _
  rw [hS, Walk.arg10_14 m ρ c, Walk.arg11_14 m ρ c]

theorem ls (h : FVec Ideal ⟨2, ![100000, 32]⟩ .f32) (hS : W14 m ρ c (Proc.devRef .tc main_v78) = h) :
    W15 m ρ c (Proc.devRef .tc main_v79_1) = affine h (m ((c : Thread nD τ).loc main_arg12)) (m ((c : Thread nD τ).loc main_arg13)) := by
  refine (W15_arr m ρ c 6).trans ((Region7.final6 (V14 m ρ) c).trans ?_)
  show affine (W14 m ρ c (Proc.devRef .tc main_v78)) (W14 m ρ c (Proc.devRef .tc main_arg12)) (W14 m ρ c (Proc.devRef .tc main_arg13)) = _
  rw [hS, Walk.arg12_14 m ρ c, Walk.arg13_14 m ρ c]

end Cert.GNN.KOut

end
-- ==== Proof.RunValues.lean ====
/-
  The kernel program's run with its two result arrays named. The program is fifteen segments: seven stretches of host
  operations and eight grid regions. The contents of the TensorCore's buffers at the segment boundaries are a fold from
  the launch memory (a stretch applies its operations; a region leaves its arrays at what its write-backs leave and
  every other buffer alone), and every weakly fair execution ends, without a fault, with every unscoped buffer at the
  last boundary's contents: in particular the two results, and the fourteen arguments as launched.
-/
import proofs.«174392_j3315714752917_1_alg».proof.Proof.Gen.KernelIdeal.Frame

set_option maxRecDepth 16384

noncomputable section

namespace Cert.GNN.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two results at the last boundary's contents and
    the arguments as launched. -/
theorem run_values : θ_run defs (onTc (τ := τ) (main (F := F))) ⟨m, fun _ => 0, ρ⟩ (fun r => ∀ c : Dev nD,
      r.2.mem ((c.tc : Thread nD τ).loc main_v79_0) = W15 m ρ c (Proc.devRef .tc main_v79_0)
      ∧ r.2.mem ((c.tc : Thread nD τ).loc main_v79_1) = W15 m ρ c (Proc.devRef .tc main_v79_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v79_0 (by decide)),
       h c _ (mem_uc main_v79_1 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c)⟩)

end Cert.GNN.KRun

end
-- ==== Proof.KValue.lean ====
/-
  The kernel program's two results as the specification's encoder of the launch arrays: the input region leaves the
  initial states, each round takes the states it finds to the round function of them, the head region leaves the two
  affine heads of the final states; and every weakly fair execution ends with the results at those arrays and the
  arguments unchanged.
-/
import proofs.«174392_j3315714752917_1_alg».proof.Proof.KStage0
import proofs.«174392_j3315714752917_1_alg».proof.Proof.KRound0
import proofs.«174392_j3315714752917_1_alg».proof.Proof.KRound1
import proofs.«174392_j3315714752917_1_alg».proof.Proof.KRound2
import proofs.«174392_j3315714752917_1_alg».proof.Proof.KOut
import proofs.«174392_j3315714752917_1_alg».proof.Proof.RunValues

noncomputable section

namespace Cert.GNN.KValue

open Cert.KernelIdeal Cert.KernelIdeal.Gen Idealize.ShloMosaic Idealize.ShloMosaic.TcCoe Idealize.SL.Sem Cert.GNN

variable (m : (ℓ : Loc nD τ sig) → Buf (Elt Ideal) ℓ) (ρ : Dev nD → PrngReg)

/-- The first result: the mean head of the encoder of the launch arrays. -/
def mu (c : Dev nD) : Buf (Elt Ideal) ((c.tc : Thread nD τ).loc main_v79_0) :=
  affine (state3 (aggregate (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))
/-- The second result: the log-deviation head. -/
def ls (c : Dev nD) : Buf (Elt Ideal) ((c.tc : Thread nD τ).loc main_v79_1) :=
  affine (state3 (aggregate (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg12)) (m ((c : Thread nD τ).loc main_arg13))

theorem final_states (c : Dev nD) : W14 m ρ c (Proc.devRef .tc main_v78) = (state3 (aggregate (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  KRound2.round m ρ c _ (KRound1.round m ρ c _ (KRound0.round m ρ c _ (KStage0.state0 m ρ c)))

theorem run : θ_run defs (onTc (τ := τ) (main (F := Ideal))) ⟨m, fun _ => 0, ρ⟩ (fun r => ∀ c : Dev nD,
      r.2.mem ((c.tc : Thread nD τ).loc main_v79_0) = mu m c
      ∧ r.2.mem ((c.tc : Thread nD τ).loc main_v79_1) = ls m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (KOut.mu m ρ c _ (final_states m ρ c)),
      (h c).2.1.trans (KOut.ls m ρ c _ (final_states m ρ c)), (h c).2.2⟩) (KRun.run_values m ρ)

end Cert.GNN.KValue

end
-- ==== Proof.RefIn.lean ====
/-
  The reference's input layer. Its stage %8 is the rectified affine layer of the node features: entry (n, j) is
  max(Σ_k x[n, k] · W_in[k, j] + b_in[j], 0). The dot product is read entry by entry, the bias is followed through its
  two broadcasts back to b_in[j], and the rectifier's zero is the printed zero word.
-/
import proofs.«174392_j3315714752917_1_alg».proof.Proof.ReadP
import proofs.«174392_j3315714752917_1_alg».proof.Proof.Spec
import Idealize.ShloMosaic.Lib.ValueIdx
import Idealize.ShloMosaic.PureOps.Ideal.Laws

noncomputable section

namespace Cert.GNN.Ref

open Idealize.ShloMosaic Idealize.ShloMosaic.ValueIdx Cert.ReferenceIdeal Cert.ReferenceIdeal.ReadP Cert.GNN

/-- Stage %8 is the input layer. -/
theorem v8_eq (x0 : (⟨S100000x7, .f32⟩ : BufTy).Contents (Elt Ideal)) (x2 : (⟨S7x32, .f32⟩ : BufTy).Contents (Elt Ideal)) (x3 : (⟨S32, .f32⟩ : BufTy).Contents (Elt Ideal)) :
    val_main_v8 (F := Ideal) x0 x2 x3 = layer x0 x2 x3 := by
  funext i
  obtain ⟨p, q, rfl⟩ : ∃ (p : Fin 100000) (q : Fin 32), i = ix2 p q := ⟨i 0, i 1, eq_ix2 i⟩
  have el : ∀ k : Fin 7, lidx_main_v4 (ix2 p q) k = ix2 p k := fun k =>
    funext fun a => Fin.ext (by match a with | ⟨0, _⟩ => rfl | ⟨1, _⟩ => rfl)
  have er : ∀ k : Fin 7, ridx_main_v4 (ix2 p q) k = ix2 k q := fun k =>
    funext fun a => Fin.ext (by match a with | ⟨0, _⟩ => rfl | ⟨1, _⟩ => rfl)
  have eb : idx_main_v5 (idx_main_v6 (ix2 p q)) = ix1 q :=
    funext fun a => Fin.ext (by match a with | ⟨0, _⟩ => rfl)
  rw [layer_apply, val_main_v8_apply, val_main_v7_apply, val_main_v4_apply, val_main_v6_apply, val_main_v5_apply,
    val_main_call0_v0_apply, val_main_call0_cst_apply, eb]
  have hs : (∑ k : Fin 7, x0 (lidx_main_v4 (ix2 p q) k) * x2 (ridx_main_v4 (ix2 p q) k))
      = ∑ k : Fin 7, x0 (ix2 p k) * x2 (ix2 k q) :=
    Finset.sum_congr rfl fun k _ => by rw [el k, er k]
  rw [hs]
  rfl

end Cert.GNN.Ref

end
-- ==== Proof.RefMsg0.lean ====
/-
  The reference's message layer of round 0. Its stage %17 is the rectified affine layer of the node states entering the
  round (stage %8) against round 0's matrix and bias: entry (n, j) is max(Σ_k h[n, k] · msg_W[0, k, j] + msg_b[0, j], 0).
  The matrix is a slice of the stack reshaped to two axes, so its entry (k, j) is entry (0, k, j) of the stack; the bias
  is a slice, a reshape and two broadcasts away from msg_b[0, j].
-/
import proofs.«174392_j3315714752917_1_alg».proof.Proof.ReadP
import proofs.«174392_j3315714752917_1_alg».proof.Proof.Spec
import Idealize.ShloMosaic.Lib.ValueIdx
import Idealize.ShloMosaic.PureOps.Ideal.Laws

noncomputable section

namespace Cert.GNN.Ref

open Idealize.ShloMosaic Idealize.ShloMosaic.ValueIdx Cert.ReferenceIdeal Cert.ReferenceIdeal.ReadP Cert.GNN

/-- Stage %17 is round 0's message layer of stage %8. -/
theorem v17_eq (x0 : (⟨S100000x7, .f32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) :
    val_main_v17 (F := Ideal) x0 x2 x3 x4 x5
      = layer (val_main_v8 (F := Ideal) x0 x2 x3) (slab 0 x4) (row 0 x5) := by
  funext i
  obtain ⟨p, q, rfl⟩ : ∃ (p : Fin 100000) (q : Fin 32), i = ix2 p q := ⟨i 0, i 1, eq_ix2 i⟩
  have el : ∀ k : Fin 32, lidx_main_v11 (ix2 p q) k = ix2 p k := fun k =>
    funext fun a => Fin.ext (by match a with | ⟨0, _⟩ => rfl | ⟨1, _⟩ => rfl)
  have er : ∀ k : Fin 32, idx_main_v9 (idx_main_v10 (ridx_main_v11 (ix2 p q) k)) = ix3 (0 : Fin 3) k q := fun k =>
    funext fun a => Fin.ext (by
      have hk := k.isLt
      have hq := q.isLt
      match a with
      | ⟨0, _⟩ => rfl
      | ⟨1, _⟩ => show (k.val * 32 + q.val) / 32 % 32 = k.val; omega
      | ⟨2, _⟩ => show (k.val * 32 + q.val) % 32 = q.val; omega)
  have eb : idx_main_v12 (idx_main_v13 (idx_main_v14 (idx_main_v15 (ix2 p q)))) = ix2 (0 : Fin 3) q :=
    funext fun a => Fin.ext (by
      have hq := q.isLt
      match a with
      | ⟨0, _⟩ => rfl
      | ⟨1, _⟩ => show q.val % 32 = q.val; omega)
  rw [layer_apply, val_main_v17_apply, val_main_v16_apply, val_main_v11_apply, val_main_v15_apply, val_main_v14_apply,
    val_main_v13_apply, val_main_v12_apply, val_main_call1_v0_apply, val_main_call1_cst_apply, eb, row_apply]
  have hs : (∑ k : Fin 32, (val_main_v8 (F := Ideal) x0 x2 x3) (lidx_main_v11 (ix2 p q) k)
        * val_main_v10 (F := Ideal) x4 (ridx_main_v11 (ix2 p q) k))
      = ∑ k : Fin 32, (val_main_v8 (F := Ideal) x0 x2 x3) (ix2 p k) * slab 0 x4 (ix2 k q) :=
    Finset.sum_congr rfl fun k _ => by rw [el k, val_main_v10_apply, val_main_v9_apply, er k, slab_apply]
  rw [hs]
  rfl

end Cert.GNN.Ref

end
-- ==== Proof.RefAgg0.lean ====
/-
  The reference's aggregation of round 0. Its stage %27 gathers each edge's message row (stage %17) at the edge's source
  node (a negative index counted from the end) and adds it into the edge's destination row of a zero array. These are
  the very operations, on the very edge list, that the aggregation operator of the specification names, so the two
  terms are the same term once both are unfolded.
-/
import proofs.«174392_j3315714752917_1_alg».proof.Proof.ReadP
import proofs.«174392_j3315714752917_1_alg».proof.Proof.Spec
import Idealize.ShloMosaic.Lib.ValueIdx
import Idealize.ShloMosaic.PureOps.Ideal.Laws
import proofs.«174392_j3315714752917_1_alg».proof.Proof.Aggregate

noncomputable section

namespace Cert.GNN.Ref

open Idealize.ShloMosaic Idealize.ShloMosaic.ValueIdx Cert.ReferenceIdeal Cert.ReferenceIdeal.ReadP Cert.GNN

/-- Stage %27 is the aggregation of stage %17 along the edges. -/
theorem v27_eq (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) :
    val_main_v27 (F := Ideal) x0 x1 x2 x3 x4 x5
      = aggregate x1 (val_main_v17 (F := Ideal) x0 x2 x3 x4 x5) := by
  unfold val_main_v27 val_main_v26 val_main_v25 val_main_v24 val_main_v23 val_main_v22
    val_main_v21 val_main_v20 val_main_v19 val_main_v18 val_main_v3 val_main_v2
    val_main_v1 val_main_v0 val_main_cst val_main_c val_main_c_0 aggregate aggregateOf edgeSrc edgeDst
  rfl

end Cert.GNN.Ref

end
-- ==== Proof.RefGru0.lean ====
/-
  The reference's gated update of round 0. Stage %36 is the input pre-activation, an affine layer of the aggregated
  messages (stage %27) against the transpose of round 0's slice of the input weights; stage %45 is the hidden
  pre-activation, the same of the node states (stage %8) against the hidden weights. Both have width 96 and are
  cut into three column bands of width 32. With gi, gh the two pre-activations of a node and h its state,
      r = 1 / (1 + e^(−(gi₀ + gh₀))),  z = 1 / (1 + e^(−(gi₁ + gh₁))),  n = tanh(gi₂ + r · gh₂),
  and stage %74 is h + ((1 − z) · n + z · h): the gated recurrent update of the specification. The literal 1.0 that
  the quotients are written with is the number one; the 1 of (1 − z) is kept as the printed word on both sides.
-/
import proofs.«174392_j3315714752917_1_alg».proof.Proof.ReadP
import proofs.«174392_j3315714752917_1_alg».proof.Proof.Spec
import Idealize.ShloMosaic.Lib.ValueIdx
import Idealize.ShloMosaic.PureOps.Ideal.Laws
import Idealize.ShloMosaic.PureOps.IdealRules

noncomputable section

namespace Cert.GNN.Ref

open Idealize.ShloMosaic Idealize.ShloMosaic.ValueIdx Cert.ReferenceIdeal Cert.ReferenceIdeal.ReadP Cert.GNN

/-- The input pre-activation: stage %36 at (n, c) is the affine layer of stage %27 against the transposed slice. -/
theorem v36_at (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x8 : (⟨S3x96, .f32⟩ : BufTy).Contents (Elt Ideal))
    (p : Fin 100000) (c : Fin 96) :
    val_main_v36 (F := Ideal) x0 x1 x2 x3 x4 x5 x6 x8 (ix2 p c)
      = affine (val_main_v27 (F := Ideal) x0 x1 x2 x3 x4 x5) (slabT 0 x6) (row 0 x8) (ix2 p c) := by
  have el : ∀ k : Fin 32, lidx_main_v31 (ix2 p c) k = ix2 p k := fun k =>
    funext fun a => Fin.ext (by match a with | ⟨0, _⟩ => rfl | ⟨1, _⟩ => rfl)
  have er : ∀ k : Fin 32, idx_main_v28 (idx_main_v29 (idx_main_v30 (ridx_main_v31 (ix2 p c) k))) = ix3 (0 : Fin 3) c k := fun k =>
    funext fun a => Fin.ext (by
      have hk := k.isLt
      have hc := c.isLt
      match a with
      | ⟨0, _⟩ => rfl
      | ⟨1, _⟩ => show (c.val * 32 + k.val) / 32 % 96 = c.val; omega
      | ⟨2, _⟩ => show (c.val * 32 + k.val) % 32 = k.val; omega)
  have eb : idx_main_v32 (idx_main_v33 (idx_main_v34 (idx_main_v35 (ix2 p c)))) = ix2 (0 : Fin 3) c :=
    funext fun a => Fin.ext (by
      have hc := c.isLt
      match a with
      | ⟨0, _⟩ => rfl
      | ⟨1, _⟩ => show c.val % 96 = c.val; omega)
  rw [affine_apply, val_main_v36_apply, val_main_v31_apply, val_main_v35_apply, val_main_v34_apply, val_main_v33_apply,
    val_main_v32_apply, eb, row_apply]
  have hs : (∑ k : Fin 32, (val_main_v27 (F := Ideal) x0 x1 x2 x3 x4 x5) (lidx_main_v31 (ix2 p c) k)
        * val_main_v30 (F := Ideal) x6 (ridx_main_v31 (ix2 p c) k))
      = ∑ k : Fin 32, (val_main_v27 (F := Ideal) x0 x1 x2 x3 x4 x5) (ix2 p k) * slabT 0 x6 (ix2 k c) :=
    Finset.sum_congr rfl fun k _ => by
      rw [el k, val_main_v30_apply, val_main_v29_apply, val_main_v28_apply, er k, slabT_apply]
  rw [hs]
  rfl

/-- The hidden pre-activation: stage %45 at (n, c) is the affine layer of stage %8 against the transposed slice. -/
theorem v45_at (x0 : (⟨S100000x7, .f32⟩ : BufTy).Contents (Elt Ideal)) (x2 : (⟨S7x32, .f32⟩ : BufTy).Contents (Elt Ideal)) (x3 : (⟨S32, .f32⟩ : BufTy).Contents (Elt Ideal)) (x7 : (⟨S3x96x32, .f32⟩ : BufTy).Contents (Elt Ideal)) (x9 : (⟨S3x96, .f32⟩ : BufTy).Contents (Elt Ideal))
    (p : Fin 100000) (c : Fin 96) :
    val_main_v45 (F := Ideal) x0 x2 x3 x7 x9 (ix2 p c)
      = affine (val_main_v8 (F := Ideal) x0 x2 x3) (slabT 0 x7) (row 0 x9) (ix2 p c) := by
  have el : ∀ k : Fin 32, lidx_main_v40 (ix2 p c) k = ix2 p k := fun k =>
    funext fun a => Fin.ext (by match a with | ⟨0, _⟩ => rfl | ⟨1, _⟩ => rfl)
  have er : ∀ k : Fin 32, idx_main_v37 (idx_main_v38 (idx_main_v39 (ridx_main_v40 (ix2 p c) k))) = ix3 (0 : Fin 3) c k := fun k =>
    funext fun a => Fin.ext (by
      have hk := k.isLt
      have hc := c.isLt
      match a with
      | ⟨0, _⟩ => rfl
      | ⟨1, _⟩ => show (c.val * 32 + k.val) / 32 % 96 = c.val; omega
      | ⟨2, _⟩ => show (c.val * 32 + k.val) % 32 = k.val; omega)
  have eb : idx_main_v41 (idx_main_v42 (idx_main_v43 (idx_main_v44 (ix2 p c)))) = ix2 (0 : Fin 3) c :=
    funext fun a => Fin.ext (by
      have hc := c.isLt
      match a with
      | ⟨0, _⟩ => rfl
      | ⟨1, _⟩ => show c.val % 96 = c.val; omega)
  rw [affine_apply, val_main_v45_apply, val_main_v40_apply, val_main_v44_apply, val_main_v43_apply, val_main_v42_apply,
    val_main_v41_apply, eb, row_apply]
  have hs : (∑ k : Fin 32, (val_main_v8 (F := Ideal) x0 x2 x3) (lidx_main_v40 (ix2 p c) k)
        * val_main_v39 (F := Ideal) x7 (ridx_main_v40 (ix2 p c) k))
      = ∑ k : Fin 32, (val_main_v8 (F := Ideal) x0 x2 x3) (ix2 p k) * slabT 0 x7 (ix2 k c) :=
    Finset.sum_congr rfl fun k _ => by
      rw [el k, val_main_v39_apply, val_main_v38_apply, val_main_v37_apply, er k, slabT_apply]
  rw [hs]
  rfl

/-- Stage %74 is the gated update of stage %8 by stage %27. -/
theorem v74_eq (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) :
    val_main_v74 (F := Ideal) x0 x1 x2 x3 x4 x5 x6 x7 x8 x9
      = gru (val_main_v27 (F := Ideal) x0 x1 x2 x3 x4 x5) (val_main_v8 (F := Ideal) x0 x2 x3)
          (slabT 0 x6) (slabT 0 x7) (row 0 x8) (row 0 x9) := by
  funext i
  obtain ⟨p, q, rfl⟩ : ∃ (p : Fin 100000) (q : Fin 32), i = ix2 p q := ⟨i 0, i 1, eq_ix2 i⟩
  have one : Ideal.ofBits .f32 0x3F800000#32 = 1 := IdealRules.sign_bit.ideal_onePat .f32
  have b0 : idx_main_v46 (ix2 p q) = ix2 p (band 0 (by omega) q) :=
    funext fun a => Fin.ext (by match a with | ⟨0, _⟩ => rfl | ⟨1, _⟩ => exact (Nat.zero_add _).symm)
  have b1 : idx_main_v47 (ix2 p q) = ix2 p (band 32 (by omega) q) :=
    funext fun a => Fin.ext (by match a with | ⟨0, _⟩ => rfl | ⟨1, _⟩ => rfl)
  have b2 : idx_main_v48 (ix2 p q) = ix2 p (band 64 (by omega) q) :=
    funext fun a => Fin.ext (by match a with | ⟨0, _⟩ => rfl | ⟨1, _⟩ => rfl)
  have b3 : idx_main_v49 (ix2 p q) = ix2 p (band 0 (by omega) q) :=
    funext fun a => Fin.ext (by match a with | ⟨0, _⟩ => rfl | ⟨1, _⟩ => exact (Nat.zero_add _).symm)
  have b4 : idx_main_v50 (ix2 p q) = ix2 p (band 32 (by omega) q) :=
    funext fun a => Fin.ext (by match a with | ⟨0, _⟩ => rfl | ⟨1, _⟩ => rfl)
  have b5 : idx_main_v51 (ix2 p q) = ix2 p (band 64 (by omega) q) :=
    funext fun a => Fin.ext (by match a with | ⟨0, _⟩ => rfl | ⟨1, _⟩ => rfl)
  rw [gru_apply]
  simp only [gruCell]
  rw [val_main_v74_apply, val_main_v73_apply, val_main_v71_apply, val_main_v72_apply, val_main_v70_apply, val_main_v68_apply,
    val_main_v67_apply, val_main_v66_apply, val_main_v65_apply, val_main_v63_apply, val_main_v61_apply, val_main_v60_apply,
    val_main_v59_apply, val_main_v58_apply, val_main_v56_apply, val_main_v54_apply, val_main_v53_apply, val_main_v52_apply,
    val_main_v46_apply, val_main_v47_apply, val_main_v48_apply, val_main_v49_apply, val_main_v50_apply, val_main_v51_apply,
    val_main_v55_apply, val_main_v57_apply, val_main_v62_apply, val_main_v64_apply, val_main_v69_apply,
    val_main_cst_1_apply, val_main_cst_2_apply, val_main_cst_3_apply, val_main_cst_4_apply, val_main_cst_5_apply,
    b0, b1, b2, b3, b4, b5, v36_at, v36_at, v36_at, v45_at, v45_at, v45_at]
  simp only [oneLit, Ideal.addf_def, Ideal.subf_def, Ideal.mulf_def, Ideal.hostDivf_def, Ideal.hostNegf_def, Ideal.negf_def,
    Ideal.hostUnary_exp_def, Ideal.hostUnary_tanh_def, Ideal.ofBits_def, Ideal.logistic, one]

end Cert.GNN.Ref

end
-- ==== Proof.RefMsg1.lean ====
/-
  The reference's message layer of round 1. Its stage %83 is the rectified affine layer of the node states entering the
  round (stage %74) against round 1's matrix and bias: entry (n, j) is max(Σ_k h[n, k] · msg_W[1, k, j] + msg_b[1, j], 0).
  The matrix is a slice of the stack reshaped to two axes, so its entry (k, j) is entry (1, k, j) of the stack; the bias
  is a slice, a reshape and two broadcasts away from msg_b[1, j].
-/
import proofs.«174392_j3315714752917_1_alg».proof.Proof.ReadP
import proofs.«174392_j3315714752917_1_alg».proof.Proof.Spec
import Idealize.ShloMosaic.Lib.ValueIdx
import Idealize.ShloMosaic.PureOps.Ideal.Laws

noncomputable section

namespace Cert.GNN.Ref

open Idealize.ShloMosaic Idealize.ShloMosaic.ValueIdx Cert.ReferenceIdeal Cert.ReferenceIdeal.ReadP Cert.GNN

/-- Stage %83 is round 1's message layer of stage %74. -/
theorem v83_eq (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) :
    val_main_v83 (F := Ideal) x0 x1 x2 x3 x4 x5 x6 x7 x8 x9
      = layer (val_main_v74 (F := Ideal) x0 x1 x2 x3 x4 x5 x6 x7 x8 x9) (slab 1 x4) (row 1 x5) := by
  funext i
  obtain ⟨p, q, rfl⟩ : ∃ (p : Fin 100000) (q : Fin 32), i = ix2 p q := ⟨i 0, i 1, eq_ix2 i⟩
  have el : ∀ k : Fin 32, lidx_main_v77 (ix2 p q) k = ix2 p k := fun k =>
    funext fun a => Fin.ext (by match a with | ⟨0, _⟩ => rfl | ⟨1, _⟩ => rfl)
  have er : ∀ k : Fin 32, idx_main_v75 (idx_main_v76 (ridx_main_v77 (ix2 p q) k)) = ix3 (1 : Fin 3) k q := fun k =>
    funext fun a => Fin.ext (by
      have hk := k.isLt
      have hq := q.isLt
      match a with
      | ⟨0, _⟩ => rfl
      | ⟨1, _⟩ => show (k.val * 32 + q.val) / 32 % 32 = k.val; omega
      | ⟨2, _⟩ => show (k.val * 32 + q.val) % 32 = q.val; omega)
  have eb : idx_main_v78 (idx_main_v79 (idx_main_v80 (idx_main_v81 (ix2 p q)))) = ix2 (1 : Fin 3) q :=
    funext fun a => Fin.ext (by
      have hq := q.isLt
      match a with
      | ⟨0, _⟩ => rfl
      | ⟨1, _⟩ => show q.val % 32 = q.val; omega)
  rw [layer_apply, val_main_v83_apply, val_main_v82_apply, val_main_v77_apply, val_main_v81_apply, val_main_v80_apply,
    val_main_v79_apply, val_main_v78_apply, val_main_call2_v0_apply, val_main_call2_cst_apply, eb, row_apply]
  have hs : (∑ k : Fin 32, (val_main_v74 (F := Ideal) x0 x1 x2 x3 x4 x5 x6 x7 x8 x9) (lidx_main_v77 (ix2 p q) k)
        * val_main_v76 (F := Ideal) x4 (ridx_main_v77 (ix2 p q) k))
      = ∑ k : Fin 32, (val_main_v74 (F := Ideal) x0 x1 x2 x3 x4 x5 x6 x7 x8 x9) (ix2 p k) * slab 1 x4 (ix2 k q) :=
    Finset.sum_congr rfl fun k _ => by rw [el k, val_main_v76_apply, val_main_v75_apply, er k, slab_apply]
  rw [hs]
  rfl

end Cert.GNN.Ref

end
-- ==== Proof.RefAgg1.lean ====
/-
  The reference's aggregation of round 1. Its stage %93 gathers each edge's message row (stage %83) at the edge's source
  node (a negative index counted from the end) and adds it into the edge's destination row of a zero array. These are
  the very operations, on the very edge list, that the aggregation operator of the specification names, so the two
  terms are the same term once both are unfolded.
-/
import proofs.«174392_j3315714752917_1_alg».proof.Proof.ReadP
import proofs.«174392_j3315714752917_1_alg».proof.Proof.Spec
import Idealize.ShloMosaic.Lib.ValueIdx
import Idealize.ShloMosaic.PureOps.Ideal.Laws
import proofs.«174392_j3315714752917_1_alg».proof.Proof.Aggregate

noncomputable section

namespace Cert.GNN.Ref

open Idealize.ShloMosaic Idealize.ShloMosaic.ValueIdx Cert.ReferenceIdeal Cert.ReferenceIdeal.ReadP Cert.GNN

/-- Stage %93 is the aggregation of stage %83 along the edges. -/
theorem v93_eq (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) :
    val_main_v93 (F := Ideal) x0 x1 x2 x3 x4 x5 x6 x7 x8 x9
      = aggregate x1 (val_main_v83 (F := Ideal) x0 x1 x2 x3 x4 x5 x6 x7 x8 x9) := by
  unfold val_main_v93 val_main_v92 val_main_v91 val_main_v90 val_main_v89 val_main_v88
    val_main_v87 val_main_v86 val_main_v85 val_main_v84 val_main_v3 val_main_v2
    val_main_v1 val_main_v0 val_main_cst_8 val_main_c_6 val_main_c_7 aggregate aggregateOf edgeSrc edgeDst
  rfl

end Cert.GNN.Ref

end
-- ==== Proof.RefGru1.lean ====
/-
  The reference's gated update of round 1. Stage %102 is the input pre-activation, an affine layer of the aggregated
  messages (stage %93) against the transpose of round 1's slice of the input weights; stage %111 is the hidden
  pre-activation, the same of the node states (stage %74) against the hidden weights. Both have width 96 and are
  cut into three column bands of width 32. With gi, gh the two pre-activations of a node and h its state,
      r = 1 / (1 + e^(−(gi₀ + gh₀))),  z = 1 / (1 + e^(−(gi₁ + gh₁))),  n = tanh(gi₂ + r · gh₂),
  and stage %140 is h + ((1 − z) · n + z · h): the gated recurrent update of the specification. The literal 1.0 that
  the quotients are written with is the number one; the 1 of (1 − z) is kept as the printed word on both sides.
-/
import proofs.«174392_j3315714752917_1_alg».proof.Proof.ReadP
import proofs.«174392_j3315714752917_1_alg».proof.Proof.Spec
import Idealize.ShloMosaic.Lib.ValueIdx
import Idealize.ShloMosaic.PureOps.Ideal.Laws
import Idealize.ShloMosaic.PureOps.IdealRules

noncomputable section

namespace Cert.GNN.Ref

open Idealize.ShloMosaic Idealize.ShloMosaic.ValueIdx Cert.ReferenceIdeal Cert.ReferenceIdeal.ReadP Cert.GNN

/-- The input pre-activation: stage %102 at (n, c) is the affine layer of stage %93 against the transposed slice. -/
theorem v102_at (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal))
    (p : Fin 100000) (c : Fin 96) :
    val_main_v102 (F := Ideal) x0 x1 x2 x3 x4 x5 x6 x7 x8 x9 (ix2 p c)
      = affine (val_main_v93 (F := Ideal) x0 x1 x2 x3 x4 x5 x6 x7 x8 x9) (slabT 1 x6) (row 1 x8) (ix2 p c) := by
  have el : ∀ k : Fin 32, lidx_main_v97 (ix2 p c) k = ix2 p k := fun k =>
    funext fun a => Fin.ext (by match a with | ⟨0, _⟩ => rfl | ⟨1, _⟩ => rfl)
  have er : ∀ k : Fin 32, idx_main_v94 (idx_main_v95 (idx_main_v96 (ridx_main_v97 (ix2 p c) k))) = ix3 (1 : Fin 3) c k := fun k =>
    funext fun a => Fin.ext (by
      have hk := k.isLt
      have hc := c.isLt
      match a with
      | ⟨0, _⟩ => rfl
      | ⟨1, _⟩ => show (c.val * 32 + k.val) / 32 % 96 = c.val; omega
      | ⟨2, _⟩ => show (c.val * 32 + k.val) % 32 = k.val; omega)
  have eb : idx_main_v98 (idx_main_v99 (idx_main_v100 (idx_main_v101 (ix2 p c)))) = ix2 (1 : Fin 3) c :=
    funext fun a => Fin.ext (by
      have hc := c.isLt
      match a with
      | ⟨0, _⟩ => rfl
      | ⟨1, _⟩ => show c.val % 96 = c.val; omega)
  rw [affine_apply, val_main_v102_apply, val_main_v97_apply, val_main_v101_apply, val_main_v100_apply, val_main_v99_apply,
    val_main_v98_apply, eb, row_apply]
  have hs : (∑ k : Fin 32, (val_main_v93 (F := Ideal) x0 x1 x2 x3 x4 x5 x6 x7 x8 x9) (lidx_main_v97 (ix2 p c) k)
        * val_main_v96 (F := Ideal) x6 (ridx_main_v97 (ix2 p c) k))
      = ∑ k : Fin 32, (val_main_v93 (F := Ideal) x0 x1 x2 x3 x4 x5 x6 x7 x8 x9) (ix2 p k) * slabT 1 x6 (ix2 k c) :=
    Finset.sum_congr rfl fun k _ => by
      rw [el k, val_main_v96_apply, val_main_v95_apply, val_main_v94_apply, er k, slabT_apply]
  rw [hs]
  rfl

/-- The hidden pre-activation: stage %111 at (n, c) is the affine layer of stage %74 against the transposed slice. -/
theorem v111_at (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal))
    (p : Fin 100000) (c : Fin 96) :
    val_main_v111 (F := Ideal) x0 x1 x2 x3 x4 x5 x6 x7 x8 x9 (ix2 p c)
      = affine (val_main_v74 (F := Ideal) x0 x1 x2 x3 x4 x5 x6 x7 x8 x9) (slabT 1 x7) (row 1 x9) (ix2 p c) := by
  have el : ∀ k : Fin 32, lidx_main_v106 (ix2 p c) k = ix2 p k := fun k =>
    funext fun a => Fin.ext (by match a with | ⟨0, _⟩ => rfl | ⟨1, _⟩ => rfl)
  have er : ∀ k : Fin 32, idx_main_v103 (idx_main_v104 (idx_main_v105 (ridx_main_v106 (ix2 p c) k))) = ix3 (1 : Fin 3) c k := fun k =>
    funext fun a => Fin.ext (by
      have hk := k.isLt
      have hc := c.isLt
      match a with
      | ⟨0, _⟩ => rfl
      | ⟨1, _⟩ => show (c.val * 32 + k.val) / 32 % 96 = c.val; omega
      | ⟨2, _⟩ => show (c.val * 32 + k.val) % 32 = k.val; omega)
  have eb : idx_main_v107 (idx_main_v108 (idx_main_v109 (idx_main_v110 (ix2 p c)))) = ix2 (1 : Fin 3) c :=
    funext fun a => Fin.ext (by
      have hc := c.isLt
      match a with
      | ⟨0, _⟩ => rfl
      | ⟨1, _⟩ => show c.val % 96 = c.val; omega)
  rw [affine_apply, val_main_v111_apply, val_main_v106_apply, val_main_v110_apply, val_main_v109_apply, val_main_v108_apply,
    val_main_v107_apply, eb, row_apply]
  have hs : (∑ k : Fin 32, (val_main_v74 (F := Ideal) x0 x1 x2 x3 x4 x5 x6 x7 x8 x9) (lidx_main_v106 (ix2 p c) k)
        * val_main_v105 (F := Ideal) x7 (ridx_main_v106 (ix2 p c) k))
      = ∑ k : Fin 32, (val_main_v74 (F := Ideal) x0 x1 x2 x3 x4 x5 x6 x7 x8 x9) (ix2 p k) * slabT 1 x7 (ix2 k c) :=
    Finset.sum_congr rfl fun k _ => by
      rw [el k, val_main_v105_apply, val_main_v104_apply, val_main_v103_apply, er k, slabT_apply]
  rw [hs]
  rfl

/-- Stage %140 is the gated update of stage %74 by stage %93. -/
theorem v140_eq (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) :
    val_main_v140 (F := Ideal) x0 x1 x2 x3 x4 x5 x6 x7 x8 x9
      = gru (val_main_v93 (F := Ideal) x0 x1 x2 x3 x4 x5 x6 x7 x8 x9) (val_main_v74 (F := Ideal) x0 x1 x2 x3 x4 x5 x6 x7 x8 x9)
          (slabT 1 x6) (slabT 1 x7) (row 1 x8) (row 1 x9) := by
  funext i
  obtain ⟨p, q, rfl⟩ : ∃ (p : Fin 100000) (q : Fin 32), i = ix2 p q := ⟨i 0, i 1, eq_ix2 i⟩
  have one : Ideal.ofBits .f32 0x3F800000#32 = 1 := IdealRules.sign_bit.ideal_onePat .f32
  have b0 : idx_main_v112 (ix2 p q) = ix2 p (band 0 (by omega) q) :=
    funext fun a => Fin.ext (by match a with | ⟨0, _⟩ => rfl | ⟨1, _⟩ => exact (Nat.zero_add _).symm)
  have b1 : idx_main_v113 (ix2 p q) = ix2 p (band 32 (by omega) q) :=
    funext fun a => Fin.ext (by match a with | ⟨0, _⟩ => rfl | ⟨1, _⟩ => rfl)
  have b2 : idx_main_v114 (ix2 p q) = ix2 p (band 64 (by omega) q) :=
    funext fun a => Fin.ext (by match a with | ⟨0, _⟩ => rfl | ⟨1, _⟩ => rfl)
  have b3 : idx_main_v115 (ix2 p q) = ix2 p (band 0 (by omega) q) :=
    funext fun a => Fin.ext (by match a with | ⟨0, _⟩ => rfl | ⟨1, _⟩ => exact (Nat.zero_add _).symm)
  have b4 : idx_main_v116 (ix2 p q) = ix2 p (band 32 (by omega) q) :=
    funext fun a => Fin.ext (by match a with | ⟨0, _⟩ => rfl | ⟨1, _⟩ => rfl)
  have b5 : idx_main_v117 (ix2 p q) = ix2 p (band 64 (by omega) q) :=
    funext fun a => Fin.ext (by match a with | ⟨0, _⟩ => rfl | ⟨1, _⟩ => rfl)
  rw [gru_apply]
  simp only [gruCell]
  rw [val_main_v140_apply, val_main_v139_apply, val_main_v137_apply, val_main_v138_apply, val_main_v136_apply, val_main_v134_apply,
    val_main_v133_apply, val_main_v132_apply, val_main_v131_apply, val_main_v129_apply, val_main_v127_apply, val_main_v126_apply,
    val_main_v125_apply, val_main_v124_apply, val_main_v122_apply, val_main_v120_apply, val_main_v119_apply, val_main_v118_apply,
    val_main_v112_apply, val_main_v113_apply, val_main_v114_apply, val_main_v115_apply, val_main_v116_apply, val_main_v117_apply,
    val_main_v121_apply, val_main_v123_apply, val_main_v128_apply, val_main_v130_apply, val_main_v135_apply,
    val_main_cst_9_apply, val_main_cst_10_apply, val_main_cst_11_apply, val_main_cst_12_apply, val_main_cst_13_apply,
    b0, b1, b2, b3, b4, b5, v102_at, v102_at, v102_at, v111_at, v111_at, v111_at]
  simp only [oneLit, Ideal.addf_def, Ideal.subf_def, Ideal.mulf_def, Ideal.hostDivf_def, Ideal.hostNegf_def, Ideal.negf_def,
    Ideal.hostUnary_exp_def, Ideal.hostUnary_tanh_def, Ideal.ofBits_def, Ideal.logistic, one]

end Cert.GNN.Ref

end
-- ==== Proof.RefMsg2.lean ====
/-
  The reference's message layer of round 2. Its stage %149 is the rectified affine layer of the node states entering the
  round (stage %140) against round 2's matrix and bias: entry (n, j) is max(Σ_k h[n, k] · msg_W[2, k, j] + msg_b[2, j], 0).
  The matrix is a slice of the stack reshaped to two axes, so its entry (k, j) is entry (2, k, j) of the stack; the bias
  is a slice, a reshape and two broadcasts away from msg_b[2, j].
-/
import proofs.«174392_j3315714752917_1_alg».proof.Proof.ReadP
import proofs.«174392_j3315714752917_1_alg».proof.Proof.Spec
import Idealize.ShloMosaic.Lib.ValueIdx
import Idealize.ShloMosaic.PureOps.Ideal.Laws

noncomputable section

namespace Cert.GNN.Ref

open Idealize.ShloMosaic Idealize.ShloMosaic.ValueIdx Cert.ReferenceIdeal Cert.ReferenceIdeal.ReadP Cert.GNN

/-- Stage %149 is round 2's message layer of stage %140. -/
theorem v149_eq (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) :
    val_main_v149 (F := Ideal) x0 x1 x2 x3 x4 x5 x6 x7 x8 x9
      = layer (val_main_v140 (F := Ideal) x0 x1 x2 x3 x4 x5 x6 x7 x8 x9) (slab 2 x4) (row 2 x5) := by
  funext i
  obtain ⟨p, q, rfl⟩ : ∃ (p : Fin 100000) (q : Fin 32), i = ix2 p q := ⟨i 0, i 1, eq_ix2 i⟩
  have el : ∀ k : Fin 32, lidx_main_v143 (ix2 p q) k = ix2 p k := fun k =>
    funext fun a => Fin.ext (by match a with | ⟨0, _⟩ => rfl | ⟨1, _⟩ => rfl)
  have er : ∀ k : Fin 32, idx_main_v141 (idx_main_v142 (ridx_main_v143 (ix2 p q) k)) = ix3 (2 : Fin 3) k q := fun k =>
    funext fun a => Fin.ext (by
      have hk := k.isLt
      have hq := q.isLt
      match a with
      | ⟨0, _⟩ => rfl
      | ⟨1, _⟩ => show (k.val * 32 + q.val) / 32 % 32 = k.val; omega
      | ⟨2, _⟩ => show (k.val * 32 + q.val) % 32 = q.val; omega)
  have eb : idx_main_v144 (idx_main_v145 (idx_main_v146 (idx_main_v147 (ix2 p q)))) = ix2 (2 : Fin 3) q :=
    funext fun a => Fin.ext (by
      have hq := q.isLt
      match a with
      | ⟨0, _⟩ => rfl
      | ⟨1, _⟩ => show q.val % 32 = q.val; omega)
  rw [layer_apply, val_main_v149_apply, val_main_v148_apply, val_main_v143_apply, val_main_v147_apply, val_main_v146_apply,
    val_main_v145_apply, val_main_v144_apply, val_main_call3_v0_apply, val_main_call3_cst_apply, eb, row_apply]
  have hs : (∑ k : Fin 32, (val_main_v140 (F := Ideal) x0 x1 x2 x3 x4 x5 x6 x7 x8 x9) (lidx_main_v143 (ix2 p q) k)
        * val_main_v142 (F := Ideal) x4 (ridx_main_v143 (ix2 p q) k))
      = ∑ k : Fin 32, (val_main_v140 (F := Ideal) x0 x1 x2 x3 x4 x5 x6 x7 x8 x9) (ix2 p k) * slab 2 x4 (ix2 k q) :=
    Finset.sum_congr rfl fun k _ => by rw [el k, val_main_v142_apply, val_main_v141_apply, er k, slab_apply]
  rw [hs]
  rfl

end Cert.GNN.Ref

end
-- ==== Proof.RefAgg2.lean ====
/-
  The reference's aggregation of round 2. Its stage %159 gathers each edge's message row (stage %149) at the edge's source
  node (a negative index counted from the end) and adds it into the edge's destination row of a zero array. These are
  the very operations, on the very edge list, that the aggregation operator of the specification names, so the two
  terms are the same term once both are unfolded.
-/
import proofs.«174392_j3315714752917_1_alg».proof.Proof.ReadP
import proofs.«174392_j3315714752917_1_alg».proof.Proof.Spec
import Idealize.ShloMosaic.Lib.ValueIdx
import Idealize.ShloMosaic.PureOps.Ideal.Laws
import proofs.«174392_j3315714752917_1_alg».proof.Proof.Aggregate

noncomputable section

namespace Cert.GNN.Ref

open Idealize.ShloMosaic Idealize.ShloMosaic.ValueIdx Cert.ReferenceIdeal Cert.ReferenceIdeal.ReadP Cert.GNN

/-- Stage %159 is the aggregation of stage %149 along the edges. -/
theorem v159_eq (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) :
    val_main_v159 (F := Ideal) x0 x1 x2 x3 x4 x5 x6 x7 x8 x9
      = aggregate x1 (val_main_v149 (F := Ideal) x0 x1 x2 x3 x4 x5 x6 x7 x8 x9) := by
  unfold val_main_v159 val_main_v158 val_main_v157 val_main_v156 val_main_v155 val_main_v154
    val_main_v153 val_main_v152 val_main_v151 val_main_v150 val_main_v3 val_main_v2
    val_main_v1 val_main_v0 val_main_cst_16 val_main_c_14 val_main_c_15 aggregate aggregateOf edgeSrc edgeDst
  rfl

end Cert.GNN.Ref

end
-- ==== Proof.RefGru2.lean ====
/-
  The reference's gated update of round 2. Stage %168 is the input pre-activation, an affine layer of the aggregated
  messages (stage %159) against the transpose of round 2's slice of the input weights; stage %177 is the hidden
  pre-activation, the same of the node states (stage %140) against the hidden weights. Both have width 96 and are
  cut into three column bands of width 32. With gi, gh the two pre-activations of a node and h its state,
      r = 1 / (1 + e^(−(gi₀ + gh₀))),  z = 1 / (1 + e^(−(gi₁ + gh₁))),  n = tanh(gi₂ + r · gh₂),
  and stage %206 is h + ((1 − z) · n + z · h): the gated recurrent update of the specification. The literal 1.0 that
  the quotients are written with is the number one; the 1 of (1 − z) is kept as the printed word on both sides.
-/
import proofs.«174392_j3315714752917_1_alg».proof.Proof.ReadP
import proofs.«174392_j3315714752917_1_alg».proof.Proof.Spec
import Idealize.ShloMosaic.Lib.ValueIdx
import Idealize.ShloMosaic.PureOps.Ideal.Laws
import Idealize.ShloMosaic.PureOps.IdealRules

noncomputable section

namespace Cert.GNN.Ref

open Idealize.ShloMosaic Idealize.ShloMosaic.ValueIdx Cert.ReferenceIdeal Cert.ReferenceIdeal.ReadP Cert.GNN

/-- The input pre-activation: stage %168 at (n, c) is the affine layer of stage %159 against the transposed slice. -/
theorem v168_at (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal))
    (p : Fin 100000) (c : Fin 96) :
    val_main_v168 (F := Ideal) x0 x1 x2 x3 x4 x5 x6 x7 x8 x9 (ix2 p c)
      = affine (val_main_v159 (F := Ideal) x0 x1 x2 x3 x4 x5 x6 x7 x8 x9) (slabT 2 x6) (row 2 x8) (ix2 p c) := by
  have el : ∀ k : Fin 32, lidx_main_v163 (ix2 p c) k = ix2 p k := fun k =>
    funext fun a => Fin.ext (by match a with | ⟨0, _⟩ => rfl | ⟨1, _⟩ => rfl)
  have er : ∀ k : Fin 32, idx_main_v160 (idx_main_v161 (idx_main_v162 (ridx_main_v163 (ix2 p c) k))) = ix3 (2 : Fin 3) c k := fun k =>
    funext fun a => Fin.ext (by
      have hk := k.isLt
      have hc := c.isLt
      match a with
      | ⟨0, _⟩ => rfl
      | ⟨1, _⟩ => show (c.val * 32 + k.val) / 32 % 96 = c.val; omega
      | ⟨2, _⟩ => show (c.val * 32 + k.val) % 32 = k.val; omega)
  have eb : idx_main_v164 (idx_main_v165 (idx_main_v166 (idx_main_v167 (ix2 p c)))) = ix2 (2 : Fin 3) c :=
    funext fun a => Fin.ext (by
      have hc := c.isLt
      match a with
      | ⟨0, _⟩ => rfl
      | ⟨1, _⟩ => show c.val % 96 = c.val; omega)
  rw [affine_apply, val_main_v168_apply, val_main_v163_apply, val_main_v167_apply, val_main_v166_apply, val_main_v165_apply,
    val_main_v164_apply, eb, row_apply]
  have hs : (∑ k : Fin 32, (val_main_v159 (F := Ideal) x0 x1 x2 x3 x4 x5 x6 x7 x8 x9) (lidx_main_v163 (ix2 p c) k)
        * val_main_v162 (F := Ideal) x6 (ridx_main_v163 (ix2 p c) k))
      = ∑ k : Fin 32, (val_main_v159 (F := Ideal) x0 x1 x2 x3 x4 x5 x6 x7 x8 x9) (ix2 p k) * slabT 2 x6 (ix2 k c) :=
    Finset.sum_congr rfl fun k _ => by
      rw [el k, val_main_v162_apply, val_main_v161_apply, val_main_v160_apply, er k, slabT_apply]
  rw [hs]
  rfl

/-- The hidden pre-activation: stage %177 at (n, c) is the affine layer of stage %140 against the transposed slice. -/
theorem v177_at (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal))
    (p : Fin 100000) (c : Fin 96) :
    val_main_v177 (F := Ideal) x0 x1 x2 x3 x4 x5 x6 x7 x8 x9 (ix2 p c)
      = affine (val_main_v140 (F := Ideal) x0 x1 x2 x3 x4 x5 x6 x7 x8 x9) (slabT 2 x7) (row 2 x9) (ix2 p c) := by
  have el : ∀ k : Fin 32, lidx_main_v172 (ix2 p c) k = ix2 p k := fun k =>
    funext fun a => Fin.ext (by match a with | ⟨0, _⟩ => rfl | ⟨1, _⟩ => rfl)
  have er : ∀ k : Fin 32, idx_main_v169 (idx_main_v170 (idx_main_v171 (ridx_main_v172 (ix2 p c) k))) = ix3 (2 : Fin 3) c k := fun k =>
    funext fun a => Fin.ext (by
      have hk := k.isLt
      have hc := c.isLt
      match a with
      | ⟨0, _⟩ => rfl
      | ⟨1, _⟩ => show (c.val * 32 + k.val) / 32 % 96 = c.val; omega
      | ⟨2, _⟩ => show (c.val * 32 + k.val) % 32 = k.val; omega)
  have eb : idx_main_v173 (idx_main_v174 (idx_main_v175 (idx_main_v176 (ix2 p c)))) = ix2 (2 : Fin 3) c :=
    funext fun a => Fin.ext (by
      have hc := c.isLt
      match a with
      | ⟨0, _⟩ => rfl
      | ⟨1, _⟩ => show c.val % 96 = c.val; omega)
  rw [affine_apply, val_main_v177_apply, val_main_v172_apply, val_main_v176_apply, val_main_v175_apply, val_main_v174_apply,
    val_main_v173_apply, eb, row_apply]
  have hs : (∑ k : Fin 32, (val_main_v140 (F := Ideal) x0 x1 x2 x3 x4 x5 x6 x7 x8 x9) (lidx_main_v172 (ix2 p c) k)
        * val_main_v171 (F := Ideal) x7 (ridx_main_v172 (ix2 p c) k))
      = ∑ k : Fin 32, (val_main_v140 (F := Ideal) x0 x1 x2 x3 x4 x5 x6 x7 x8 x9) (ix2 p k) * slabT 2 x7 (ix2 k c) :=
    Finset.sum_congr rfl fun k _ => by
      rw [el k, val_main_v171_apply, val_main_v170_apply, val_main_v169_apply, er k, slabT_apply]
  rw [hs]
  rfl

/-- Stage %206 is the gated update of stage %140 by stage %159. -/
theorem v206_eq (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) :
    val_main_v206 (F := Ideal) x0 x1 x2 x3 x4 x5 x6 x7 x8 x9
      = gru (val_main_v159 (F := Ideal) x0 x1 x2 x3 x4 x5 x6 x7 x8 x9) (val_main_v140 (F := Ideal) x0 x1 x2 x3 x4 x5 x6 x7 x8 x9)
          (slabT 2 x6) (slabT 2 x7) (row 2 x8) (row 2 x9) := by
  funext i
  obtain ⟨p, q, rfl⟩ : ∃ (p : Fin 100000) (q : Fin 32), i = ix2 p q := ⟨i 0, i 1, eq_ix2 i⟩
  have one : Ideal.ofBits .f32 0x3F800000#32 = 1 := IdealRules.sign_bit.ideal_onePat .f32
  have b0 : idx_main_v178 (ix2 p q) = ix2 p (band 0 (by omega) q) :=
    funext fun a => Fin.ext (by match a with | ⟨0, _⟩ => rfl | ⟨1, _⟩ => exact (Nat.zero_add _).symm)
  have b1 : idx_main_v179 (ix2 p q) = ix2 p (band 32 (by omega) q) :=
    funext fun a => Fin.ext (by match a with | ⟨0, _⟩ => rfl | ⟨1, _⟩ => rfl)
  have b2 : idx_main_v180 (ix2 p q) = ix2 p (band 64 (by omega) q) :=
    funext fun a => Fin.ext (by match a with | ⟨0, _⟩ => rfl | ⟨1, _⟩ => rfl)
  have b3 : idx_main_v181 (ix2 p q) = ix2 p (band 0 (by omega) q) :=
    funext fun a => Fin.ext (by match a with | ⟨0, _⟩ => rfl | ⟨1, _⟩ => exact (Nat.zero_add _).symm)
  have b4 : idx_main_v182 (ix2 p q) = ix2 p (band 32 (by omega) q) :=
    funext fun a => Fin.ext (by match a with | ⟨0, _⟩ => rfl | ⟨1, _⟩ => rfl)
  have b5 : idx_main_v183 (ix2 p q) = ix2 p (band 64 (by omega) q) :=
    funext fun a => Fin.ext (by match a with | ⟨0, _⟩ => rfl | ⟨1, _⟩ => rfl)
  rw [gru_apply]
  simp only [gruCell]
  rw [val_main_v206_apply, val_main_v205_apply, val_main_v203_apply, val_main_v204_apply, val_main_v202_apply, val_main_v200_apply,
    val_main_v199_apply, val_main_v198_apply, val_main_v197_apply, val_main_v195_apply, val_main_v193_apply, val_main_v192_apply,
    val_main_v191_apply, val_main_v190_apply, val_main_v188_apply, val_main_v186_apply, val_main_v185_apply, val_main_v184_apply,
    val_main_v178_apply, val_main_v179_apply, val_main_v180_apply, val_main_v181_apply, val_main_v182_apply, val_main_v183_apply,
    val_main_v187_apply, val_main_v189_apply, val_main_v194_apply, val_main_v196_apply, val_main_v201_apply,
    val_main_cst_17_apply, val_main_cst_18_apply, val_main_cst_19_apply, val_main_cst_20_apply, val_main_cst_21_apply,
    b0, b1, b2, b3, b4, b5, v168_at, v168_at, v168_at, v177_at, v177_at, v177_at]
  simp only [oneLit, Ideal.addf_def, Ideal.subf_def, Ideal.mulf_def, Ideal.hostDivf_def, Ideal.hostNegf_def, Ideal.negf_def,
    Ideal.hostUnary_exp_def, Ideal.hostUnary_tanh_def, Ideal.ofBits_def, Ideal.logistic, one]

end Cert.GNN.Ref

end
-- ==== Proof.RefHeads.lean ====
/-
  The reference's two output heads. Stage %210 is the affine layer of the final node states (stage %206) against the
  mean head's matrix and bias: entry (n, j) is Σ_k h[n, k] · W[k, j] + b[j]; stage %214 is the same against the second
  head's matrix and bias. Each bias reaches its entry through two broadcasts.
-/
import proofs.«174392_j3315714752917_1_alg».proof.Proof.ReadP
import proofs.«174392_j3315714752917_1_alg».proof.Proof.Spec
import Idealize.ShloMosaic.Lib.ValueIdx
import Idealize.ShloMosaic.PureOps.Ideal.Laws

noncomputable section

namespace Cert.GNN.Ref

open Idealize.ShloMosaic Idealize.ShloMosaic.ValueIdx Cert.ReferenceIdeal Cert.ReferenceIdeal.ReadP Cert.GNN

/-- Stage %210 is the affine first head of the final states (stage %206). -/
theorem v210_eq (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) (x10 : (⟨S32x16, .f32⟩ : BufTy).Contents (Elt Ideal)) (x11 : (⟨S16, .f32⟩ : BufTy).Contents (Elt Ideal)) :
    val_main_v210 (F := Ideal) x0 x1 x2 x3 x4 x5 x6 x7 x8 x9 x10 x11
      = affine (val_main_v206 (F := Ideal) x0 x1 x2 x3 x4 x5 x6 x7 x8 x9) x10 x11 := by
  funext i
  obtain ⟨p, q, rfl⟩ : ∃ (p : Fin 100000) (q : Fin 16), i = ix2 p q := ⟨i 0, i 1, eq_ix2 i⟩
  have el : ∀ k : Fin 32, lidx_main_v207 (ix2 p q) k = ix2 p k := fun k =>
    funext fun a => Fin.ext (by match a with | ⟨0, _⟩ => rfl | ⟨1, _⟩ => rfl)
  have er : ∀ k : Fin 32, ridx_main_v207 (ix2 p q) k = ix2 k q := fun k =>
    funext fun a => Fin.ext (by match a with | ⟨0, _⟩ => rfl | ⟨1, _⟩ => rfl)
  have eb : idx_main_v208 (idx_main_v209 (ix2 p q)) = ix1 q :=
    funext fun a => Fin.ext (by match a with | ⟨0, _⟩ => rfl)
  rw [affine_apply, val_main_v210_apply, val_main_v207_apply, val_main_v209_apply, val_main_v208_apply, eb]
  have hs : (∑ k : Fin 32, (val_main_v206 (F := Ideal) x0 x1 x2 x3 x4 x5 x6 x7 x8 x9) (lidx_main_v207 (ix2 p q) k)
        * x10 (ridx_main_v207 (ix2 p q) k))
      = ∑ k : Fin 32, (val_main_v206 (F := Ideal) x0 x1 x2 x3 x4 x5 x6 x7 x8 x9) (ix2 p k) * x10 (ix2 k q) :=
    Finset.sum_congr rfl fun k _ => by rw [el k, er k]
  rw [hs]
  rfl

/-- Stage %214 is the affine second head of the final states (stage %206). -/
theorem v214_eq (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) (x12 : (⟨S32x16, .f32⟩ : BufTy).Contents (Elt Ideal)) (x13 : (⟨S16, .f32⟩ : BufTy).Contents (Elt Ideal)) :
    val_main_v214 (F := Ideal) x0 x1 x2 x3 x4 x5 x6 x7 x8 x9 x12 x13
      = affine (val_main_v206 (F := Ideal) x0 x1 x2 x3 x4 x5 x6 x7 x8 x9) x12 x13 := by
  funext i
  obtain ⟨p, q, rfl⟩ : ∃ (p : Fin 100000) (q : Fin 16), i = ix2 p q := ⟨i 0, i 1, eq_ix2 i⟩
  have el : ∀ k : Fin 32, lidx_main_v211 (ix2 p q) k = ix2 p k := fun k =>
    funext fun a => Fin.ext (by match a with | ⟨0, _⟩ => rfl | ⟨1, _⟩ => rfl)
  have er : ∀ k : Fin 32, ridx_main_v211 (ix2 p q) k = ix2 k q := fun k =>
    funext fun a => Fin.ext (by match a with | ⟨0, _⟩ => rfl | ⟨1, _⟩ => rfl)
  have eb : idx_main_v212 (idx_main_v213 (ix2 p q)) = ix1 q :=
    funext fun a => Fin.ext (by match a with | ⟨0, _⟩ => rfl)
  rw [affine_apply, val_main_v214_apply, val_main_v211_apply, val_main_v213_apply, val_main_v212_apply, eb]
  have hs : (∑ k : Fin 32, (val_main_v206 (F := Ideal) x0 x1 x2 x3 x4 x5 x6 x7 x8 x9) (lidx_main_v211 (ix2 p q) k)
        * x12 (ridx_main_v211 (ix2 p q) k))
      = ∑ k : Fin 32, (val_main_v206 (F := Ideal) x0 x1 x2 x3 x4 x5 x6 x7 x8 x9) (ix2 p k) * x12 (ix2 k q) :=
    Finset.sum_congr rfl fun k _ => by rw [el k, er k]
  rw [hs]
  rfl

end Cert.GNN.Ref

end
-- ==== Proof.RefValue.lean ====
/-
  The reference as the specification's encoder. The stage lemmas say: stage %8 is the input layer; in each round the
  message stage is the rectified affine layer of the states entering the round, the scatter stage is its aggregation
  along the edges, and the update stage is the gated update of those states by the aggregated messages; the two result
  stages are affine heads of the last states. Chaining them, the states after the three rounds are the encoder's, and
  the reference's two results are the two affine heads of the encoder's final states.
-/
import proofs.«174392_j3315714752917_1_alg».proof.Proof.ReadP
import proofs.«174392_j3315714752917_1_alg».proof.Proof.Spec
import Idealize.ShloMosaic.Lib.ValueIdx
import Idealize.ShloMosaic.PureOps.Ideal.Laws
import proofs.«174392_j3315714752917_1_alg».proof.Proof.Aggregate
import proofs.«174392_j3315714752917_1_alg».proof.Proof.RefIn
import proofs.«174392_j3315714752917_1_alg».proof.Proof.RefMsg0
import proofs.«174392_j3315714752917_1_alg».proof.Proof.RefAgg0
import proofs.«174392_j3315714752917_1_alg».proof.Proof.RefGru0
import proofs.«174392_j3315714752917_1_alg».proof.Proof.RefMsg1
import proofs.«174392_j3315714752917_1_alg».proof.Proof.RefAgg1
import proofs.«174392_j3315714752917_1_alg».proof.Proof.RefGru1
import proofs.«174392_j3315714752917_1_alg».proof.Proof.RefMsg2
import proofs.«174392_j3315714752917_1_alg».proof.Proof.RefAgg2
import proofs.«174392_j3315714752917_1_alg».proof.Proof.RefGru2
import proofs.«174392_j3315714752917_1_alg».proof.Proof.RefHeads

noncomputable section

namespace Cert.GNN.Ref

open Idealize.ShloMosaic Idealize.ShloMosaic.ValueIdx Cert.ReferenceIdeal Cert.ReferenceIdeal.ReadP Cert.GNN

/-- Round 0 turns the input layer's states into stage %74. -/
theorem step0 (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) :
    val_main_v74 (F := Ideal) x0 x1 x2 x3 x4 x5 x6 x7 x8 x9 = round (aggregate x1) x4 x5 x6 x7 x8 x9 0 (val_main_v8 (F := Ideal) x0 x2 x3) := by
  rw [v74_eq, v27_eq, v17_eq]
  rfl

/-- Round 1 turns stage %74 into stage %140. -/
theorem step1 (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) :
    val_main_v140 (F := Ideal) x0 x1 x2 x3 x4 x5 x6 x7 x8 x9 = round (aggregate x1) x4 x5 x6 x7 x8 x9 1 (val_main_v74 (F := Ideal) x0 x1 x2 x3 x4 x5 x6 x7 x8 x9) := by
  rw [v140_eq, v93_eq, v83_eq]
  rfl

/-- Round 2 turns stage %140 into stage %206. -/
theorem step2 (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) :
    val_main_v206 (F := Ideal) x0 x1 x2 x3 x4 x5 x6 x7 x8 x9 = round (aggregate x1) x4 x5 x6 x7 x8 x9 2 (val_main_v140 (F := Ideal) x0 x1 x2 x3 x4 x5 x6 x7 x8 x9) := by
  rw [v206_eq, v159_eq, v149_eq]
  rfl

/-- Stage %206 is the encoder's states after the three rounds. -/
theorem v206_state3 (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) :
    val_main_v206 (F := Ideal) x0 x1 x2 x3 x4 x5 x6 x7 x8 x9 = state3 (aggregate x1) x0 x2 x3 x4 x5 x6 x7 x8 x9 := by
  rw [step2, step1, step0, v8_eq]
  rfl

/-- The reference's first result is the first head of the encoder's final states. -/
theorem ref_mu (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) (x10 : (⟨S32x16, .f32⟩ : BufTy).Contents (Elt Ideal)) (x11 : (⟨S16, .f32⟩ : BufTy).Contents (Elt Ideal)) :
    val_main_v210 (F := Ideal) x0 x1 x2 x3 x4 x5 x6 x7 x8 x9 x10 x11
      = affine (state3 (aggregate x1) x0 x2 x3 x4 x5 x6 x7 x8 x9) x10 x11 := by
  rw [v210_eq, v206_state3]

/-- The reference's second result is the second head of the encoder's final states. -/
theorem ref_ls (x0 : (⟨S100000x7, .f32⟩ : BufTy).Contents (Elt Ideal)) (x1 : (⟨S2x6400000, .i32⟩ : BufTy).Contents (Elt Ideal)) (x2 : (⟨S7x32, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x96x32, .f32⟩ : BufTy).Contents (Elt Ideal)) (x7 : (⟨S3x96x32, .f32⟩ : BufTy).Contents (Elt Ideal)) (x8 : (⟨S3x96, .f32⟩ : BufTy).Contents (Elt Ideal)) (x9 : (⟨S3x96, .f32⟩ : BufTy).Contents (Elt Ideal)) (x12 : (⟨S32x16, .f32⟩ : BufTy).Contents (Elt Ideal)) (x13 : (⟨S16, .f32⟩ : BufTy).Contents (Elt Ideal)) :
    val_main_v214 (F := Ideal) x0 x1 x2 x3 x4 x5 x6 x7 x8 x9 x12 x13
      = affine (state3 (aggregate x1) x0 x2 x3 x4 x5 x6 x7 x8 x9) x12 x13 := by
  rw [v214_eq, v206_state3]

end Cert.GNN.Ref

end
-- ==== Proof.lean ====
/-
  A graph encoder: an input layer relu(x·W_in + b_in), three rounds of message passing — a message layer
  relu(h·W_r + b_r), the messages gathered at each edge's source and added into its destination, and a gated recurrent
  update of the node states from the aggregated messages — and two affine heads. The kernel program runs the node-wise
  layers as eight grid regions over blocks of 2000 nodes, with the gather and scatter-add between them on the host; the
  reference is the same network as whole-array host operations.

  Over the extended reals the two programs compute one function of the fourteen argument arrays, the encoder of
  Proof/Spec.lean with the host's gather and scatter-add as its aggregation (Proof/Aggregate.lean). On the kernel side
  (Proof/KValue.lean) every region leaves, block by block, the rows of its layer on the whole arrays, because each
  layer's row depends on that row of its row operands only; the roundings to bf16 before a matrix product are the
  identity, a matrix product into zeros is the sum of products, and the logistic operation is 1 / (1 + e^(−t)). On the
  reference side (Proof/RefValue.lean) each stage of the generated run is read at an index: a dot_general is the same
  sum of products, the update matrices are transposed slices where the kernel program slices the transposed stacks, and
  the sigmoid is spelt out with the literal one, which is the number one. No law of the extended reals beyond this is
  used, so the precondition (finite inputs) is never opened.

  The three frames: the two kernel programs' are the generated frame certificates; the reference's is its generated run
  with the results dropped. The idealization rewrote no operation, so its claim is trivial.
-/
import proofs.«174392_j3315714752917_1_alg».proof.Defs
import proofs.«174392_j3315714752917_1_alg».proof.Proof.Gen.Kernel
import proofs.«174392_j3315714752917_1_alg».proof.Proof.Gen.Kernel.Frame
import proofs.«174392_j3315714752917_1_alg».proof.Proof.Gen.KernelIdeal
import proofs.«174392_j3315714752917_1_alg».proof.Proof.Gen.KernelIdeal.Frame
import proofs.«174392_j3315714752917_1_alg».proof.Proof.Gen.ReferenceIdeal
import proofs.«174392_j3315714752917_1_alg».proof.Proof.RunP
import proofs.«174392_j3315714752917_1_alg».proof.Proof.RefRun
import proofs.«174392_j3315714752917_1_alg».proof.Proof.Gen.Pre_finite_inputs
import proofs.«174392_j3315714752917_1_alg».proof.Proof.KValue
import proofs.«174392_j3315714752917_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference program's run read: every weakly fair execution terminates with the two results at the two heads of the
    encoder of the launch arrays (its stages composed in order, each the specification's layer) and the arguments as launched. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
      r.2.mem ((c.tc : Thread Cert.ReferenceIdeal.nD Cert.ReferenceIdeal.τ).loc Cert.ReferenceIdeal.main_v210)
        = Cert.GNN.affine (Cert.GNN.state3 (Cert.GNN.aggregate (m ((c.tc : Thread Cert.ReferenceIdeal.nD Cert.ReferenceIdeal.τ).loc Cert.ReferenceIdeal.main_arg1))) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_v214)
        = Cert.GNN.affine (Cert.GNN.state3 (Cert.GNN.aggregate (m ((c.tc : Thread Cert.ReferenceIdeal.nD Cert.ReferenceIdeal.τ).loc Cert.ReferenceIdeal.main_arg1))) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)) :=
  (θ_run Cert.ReferenceIdeal.defs _ _).mono (fun r h c => by
    obtain ⟨a0, a1, a2, a3, a4, a5, a6, a7, a8, a9, a10, a11, a12, a13⟩ := Cert.GNN.RefRun.args (F := Ideal) m c
    exact ⟨(h c _).trans ((Cert.GNN.RefRun.mu (F := Ideal) m c).trans (Cert.GNN.Ref.ref_mu _ _ _ _ _ _ _ _ _ _ _ _)),
      (h c _).trans ((Cert.GNN.RefRun.ls (F := Ideal) m c).trans (Cert.GNN.Ref.ref_ls _ _ _ _ _ _ _ _ _ _ _ _)),
      (h c _).trans a0, (h c _).trans a1, (h c _).trans a2, (h c _).trans a3, (h c _).trans a4, (h c _).trans a5, (h c _).trans a6, (h c _).trans a7, (h c _).trans a8, (h c _).trans a9, (h c _).trans a10, (h c _).trans a11, (h c _).trans a12, (h c _).trans a13⟩)
    (Cert.ReferenceIdeal.ValueP.run (F := Ideal) m ρ)

theorem frame_ri : Cert.frame_ReferenceIdeal := fun m ρ _ =>
  (θ_run Cert.ReferenceIdeal.defs _ _).mono (fun _ h c => (h c).2.2) (ref_run m ρ)

/-- Both programs, run from memories that agree on the arguments, end with the two heads of the encoder of those
    arguments: the kernel program by its regions and host stretches read in order, the reference by its stages. -/
theorem algebraic : Cert.algebraic_KernelIdeal_ReferenceIdeal := by
  intro m ρ m' ρ' _ hagree
  refine ⟨_, _, Cert.GNN.KValue.run m ρ, ?_⟩
  refine (θ_run Cert.ReferenceIdeal.defs _ _).mono (fun _ h c => ⟨?_, ?_, (h c).2.2⟩) (ref_run m' ρ')
  · obtain ⟨e0, e1, e2, e3, e4, e5, e6, e7, e8, e9, e10, e11, e12, e13⟩ := hagree c
    rw [(h c).1, e0, e1, e2, e3, e4, e5, e6, e7, e8, e9, e10, e11]
    rfl
  · obtain ⟨e0, e1, e2, e3, e4, e5, e6, e7, e8, e9, e10, e11, e12, e13⟩ := hagree c
    rw [(h c).2.1, e0, e1, e2, e3, e4, e5, e6, e7, e8, e9, e12, e13]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
